-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v71)) (v2 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_v75) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x262144 : Shape := ⟨2, ![2, 262144]⟩
abbrev S128x64 : Shape := ⟨2, ![128, 64]⟩
abbrev S64 : Shape := ⟨1, ![64]⟩
abbrev S64x32 : Shape := ⟨2, ![64, 32]⟩
abbrev S32 : Shape := ⟨1, ![32]⟩
abbrev S16384x32 : Shape := ⟨2, ![16384, 32]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S16384x32 : S_.BroadcastsInDim S16384x32 (![] : Fin 0 → Fin S16384x32.rank)
  reducesTo_S16384x32_S_d0_1 : S16384x32.ReducesTo [0, 1] S_

variable [Facts]

def fn_part2 {F : FTy → Type} [FloatOps F] (main_arg8 : FVec F S16384x32 .f32) (main_v33 : IVec S_ 1) : IVec S_ 1 :=
  let main_v34 : FVec F S16384x32 .f32 := Host.absf main_arg8
  let main_cst_12 : FVec F S_ .f32 := constant S_ .f32 0x7F800000#32
  let main_v35 : FVec F S16384x32 .f32 := broadcastInDim S16384x32 ![] bcast_S_S16384x32 main_cst_12
  let main_v36 : IVec S16384x32 1 := cmpf .olt main_v34 main_v35
  let main_c_13 : IVec S_ 1 := constantI S_ 1 1#1
  let main_v37 : IVec S_ 1 := (fun x v => Host.reduce IntOp.andi x v reducesTo_S16384x32_S_d0_1 h_S_) main_v36 main_c_13
  let main_v38 : IVec S_ 1 := andi main_v33 main_v37
  main_v38

def fn_part1 {F : FTy → Type} [FloatOps F] (main_arg5 : FVec F S32 .f32) (main_arg6 : FVec F S64x32 .f32) (main_arg7 : FVec F S32 .f32) (main_arg8 : FVec F S16384x32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_v33

def fn {F : FTy → Type} [FloatOps F] (main_arg0 : FVec F S16384x128 .f32) (main_arg1 : IVec S2x262144 32) (main_arg2 : FVec F S128x64 .f32) (main_arg3 : FVec F S64 .f32) (main_arg4 : FVec F S64x32 .f32) (main_arg5 : FVec F S32 .f32) (main_arg6 : FVec F S64x32 .f32) (main_arg7 : FVec F S32 .f32) (main_arg8 : FVec F S16384x32 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_v13 main_v16
-- ==== Kernel.lean ====
abbrev S16384x128 : Shape := ⟨2, ![16384, 128]⟩
abbrev S2x262144 : Shape := ⟨2, ![2, 262144]⟩
abbrev S128x64 : Shape := ⟨2, ![128, 64]⟩
abbrev S64 : Shape := ⟨1, ![64]⟩
abbrev S64x32 : Shape := ⟨2, ![64, 32]⟩
abbrev S32 : Shape := ⟨1, ![32]⟩
abbrev S16384x32 : Shape := ⟨2, ![16384, 32]⟩
abbrev S1x262144 : Shape := ⟨2, ![1, 262144]⟩
abbrev S262144 : Shape := ⟨1, ![262144]⟩
abbrev S16384 : Shape := ⟨1, ![16384]⟩
abbrev S278528 : Shape := ⟨1, ![278528]⟩
abbrev S_ : Shape := ⟨0, ![]⟩
abbrev S278528x1 : Shape := ⟨2, ![278528, 1]⟩
abbrev S16384x64 : Shape := ⟨2, ![16384, 64]⟩
abbrev S2048x128 : Shape := ⟨2, ![2048, 128]⟩
abbrev S2048x64 : Shape := ⟨2, ![2048, 64]⟩
abbrev S278528x64 : Shape := ⟨2, ![278528, 64]⟩
abbrev S1x64 : Shape := ⟨2, ![1, 64]⟩
abbrev S64x64 : Shape := ⟨2, ![64, 64]⟩
abbrev S1x32 : Shape := ⟨2, ![1, 32]⟩
abbrev S16384x16384 : Shape := ⟨2, ![16384, 16384]⟩
abbrev S2048x32 : Shape := ⟨2, ![2048, 32]⟩
abbrev S1024x32 : Shape := ⟨2, ![1024, 32]⟩
abbrev S2048x1024 : Shape := ⟨2, ![2048, 1024]⟩

abbrev nBuf : Space → Nat
  | .hbm => 108
  | .vmem => 16
  | .smem => 0
  | _ => 0

abbrev bufTy : (tb : Table) → Fin (tcTables nBuf tb) → BufTy
  | .hbm, ⟨0, _⟩ => ⟨S16384x128, .f32⟩
  | .hbm, ⟨1, _⟩ => ⟨S2x262144, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S16384x32, .f32⟩
  | .hbm, ⟨9, _⟩ => ⟨S1x262144, .i32⟩
  | .hbm, ⟨10, _⟩ => ⟨S262144, .i32⟩
  | .hbm, ⟨11, _⟩ => ⟨S16384, .i32⟩
  | .hbm, ⟨12, _⟩ => ⟨S278528, .i32⟩
  | .hbm, ⟨13, _⟩ => ⟨S1x262144, .i32⟩
  | .hbm, ⟨14, _⟩ => ⟨S262144, .i32⟩
  | .hbm, ⟨15, _⟩ => ⟨S16384, .i32⟩
  | .hbm, ⟨16, _⟩ => ⟨S278528, .i32⟩
  | .hbm, ⟨17, _⟩ => ⟨S_, .f32⟩
  | .hbm, ⟨18, _⟩ => ⟨S278528, .f32⟩
  | .hbm, ⟨19, _⟩ => ⟨S_, .f32⟩
  | .hbm, ⟨20, _⟩ => ⟨S16384, .f32⟩
  | .hbm, ⟨21, _⟩ => ⟨S278528x1, .i32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .i1⟩
  | .hbm, ⟨26, _⟩ => ⟨S16384, .f32⟩
  | .hbm, ⟨27, _⟩ => ⟨S_, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .i32⟩
  | .hbm, ⟨32, _⟩ => ⟨S278528, .i32⟩
  | .hbm, ⟨33, _⟩ => ⟨S278528, .i1⟩
  | .hbm, ⟨34, _⟩ => ⟨S_, .i32⟩
  | .hbm, ⟨35, _⟩ => ⟨S278528, .i32⟩
  | .hbm, ⟨36, _⟩ => ⟨S278528, .i32⟩
  | .hbm, ⟨37, _⟩ => ⟨S278528, .i32⟩
  | .hbm, ⟨38, _⟩ => ⟨S278528x1, .i32⟩
  | .hbm, ⟨39, _⟩ => ⟨S278528, .f32⟩
  | .hbm, ⟨40, _⟩ => ⟨S_, .i32⟩
  | .hbm, ⟨41, _⟩ => ⟨S278528, .i32⟩
  | .hbm, ⟨42, _⟩ => ⟨S278528, .i1⟩
  | .hbm, ⟨43, _⟩ => ⟨S_, .i32⟩
  | .hbm, ⟨44, _⟩ => ⟨S278528, .i32⟩
  | .hbm, ⟨45, _⟩ => ⟨S278528, .i32⟩
  | .hbm, ⟨46, _⟩ => ⟨S278528, .i32⟩
  | .hbm, ⟨47, _⟩ => ⟨S278528x1, .i32⟩
  | .hbm, ⟨48, _⟩ => ⟨S278528, .f32⟩
  | .hbm, ⟨49, _⟩ => ⟨S278528, .f32⟩
  | .hbm, ⟨50, _⟩ => ⟨S16384x128, .bf16⟩
  | .hbm, ⟨51, _⟩ => ⟨S128x64, .bf16⟩
  | .hbm, ⟨52, _⟩ => ⟨S16384x64, .f32⟩
  | .hbm, ⟨53, _⟩ => ⟨S278528x1, .f32⟩
  | .hbm, ⟨54, _⟩ => ⟨S_, .i32⟩
  | .hbm, ⟨55, _⟩ => ⟨S278528, .i32⟩
  | .hbm, ⟨56, _⟩ => ⟨S278528, .i1⟩
  | .hbm, ⟨57, _⟩ => ⟨S_, .i32⟩
  | .hbm, ⟨58, _⟩ => ⟨S278528, .i32⟩
  | .hbm, ⟨59, _⟩ => ⟨S278528, .i32⟩
  | .hbm, ⟨60, _⟩ => ⟨S278528, .i32⟩
  | .hbm, ⟨61, _⟩ => ⟨S278528x1, .i32⟩
  | .hbm, ⟨62, _⟩ => ⟨S278528x64, .f32⟩
  | .hbm, ⟨63, _⟩ => ⟨S278528x64, .f32⟩
  | .hbm, ⟨64, _⟩ => ⟨S278528x64, .f32⟩
  | .hbm, ⟨65, _⟩ => ⟨S_, .f32⟩
  | .hbm, ⟨66, _⟩ => ⟨S16384x64, .f32⟩
  | .hbm, ⟨67, _⟩ => ⟨S278528x1, .i32⟩
  | .hbm, ⟨68, _⟩ => ⟨S16384x64, .f32⟩
  | .hbm, ⟨69, _⟩ => ⟨S1x64, .f32⟩
  | .hbm, ⟨70, _⟩ => ⟨S16384x64, .f32⟩
  | .hbm, ⟨71, _⟩ => ⟨S16384x64, .f32⟩
  | .hbm, ⟨72, _⟩ => ⟨S_, .f32⟩
  | .hbm, ⟨73, _⟩ => ⟨S16384x64, .f32⟩
  | .hbm, ⟨74, _⟩ => ⟨S16384x64, .f32⟩
  | .hbm, ⟨75, _⟩ => ⟨S64x64, .f32⟩
  | .hbm, ⟨76, _⟩ => ⟨S16384x64, .bf16⟩
  | .hbm, ⟨77, _⟩ => ⟨S64x64, .bf16⟩
  | .hbm, ⟨78, _⟩ => ⟨S16384x64, .f32⟩
  | .hbm, ⟨79, _⟩ => ⟨S278528x1, .f32⟩
  | .hbm, ⟨80, _⟩ => ⟨S_, .i32⟩
  | .hbm, ⟨81, _⟩ => ⟨S278528, .i32⟩
  | .hbm, ⟨82, _⟩ => ⟨S278528, .i1⟩
  | .hbm, ⟨83, _⟩ => ⟨S_, .i32⟩
  | .hbm, ⟨84, _⟩ => ⟨S278528, .i32⟩
  | .hbm, ⟨85, _⟩ => ⟨S278528, .i32⟩
  | .hbm, ⟨86, _⟩ => ⟨S278528, .i32⟩
  | .hbm, ⟨87, _⟩ => ⟨S278528x1, .i32⟩
  | .hbm, ⟨88, _⟩ => ⟨S278528x64, .f32⟩
  | .hbm, ⟨89, _⟩ => ⟨S278528x64, .f32⟩
  | .hbm, ⟨90, _⟩ => ⟨S278528x64, .f32⟩
  | .hbm, ⟨91, _⟩ => ⟨S_, .f32⟩
  | .hbm, ⟨92, _⟩ => ⟨S16384x64, .f32⟩
  | .hbm, ⟨93, _⟩ => ⟨S278528x1, .i32⟩
  | .hbm, ⟨94, _⟩ => ⟨S16384x64, .f32⟩
  | .hbm, ⟨95, _⟩ => ⟨S16384x32, .f32⟩
  | .hbm, ⟨96, _⟩ => ⟨S1x32, .f32⟩
  | .hbm, ⟨97, _⟩ => ⟨S16384x32, .f32⟩
  | .hbm, ⟨98, _⟩ => ⟨S16384x32, .f32⟩
  | .hbm, ⟨99, _⟩ => ⟨S16384x32, .f32⟩
  | .hbm, ⟨100, _⟩ => ⟨S1x32, .f32⟩
  | .hbm, ⟨101, _⟩ => ⟨S16384x32, .f32⟩
  | .hbm, ⟨102, _⟩ => ⟨S16384x32, .f32⟩
  | .hbm, ⟨103, _⟩ => ⟨S16384x32, .f32⟩
  | .hbm, ⟨104, _⟩ => ⟨S16384x32, .f32⟩
  | .hbm, ⟨105, _⟩ => ⟨S16384x32, .f32⟩
  | .hbm, ⟨106, _⟩ => ⟨S16384x32, .bf16⟩
  | .hbm, ⟨107, _⟩ => ⟨S16384x16384, .f32⟩
  | .local _ .vmem, ⟨0, _⟩ => ⟨S2048x128, .bf16⟩
  | .local _ .vmem, ⟨1, _⟩ => ⟨S2048x128, .bf16⟩
  | .local _ .vmem, ⟨2, _⟩ => ⟨S128x64, .bf16⟩
  | .local _ .vmem, ⟨3, _⟩ => ⟨S2048x64, .f32⟩
  | .local _ .vmem, ⟨4, _⟩ => ⟨S2048x64, .f32⟩
  | .local _ .vmem, ⟨5, _⟩ => ⟨S2048x64, .bf16⟩
  | .local _ .vmem, ⟨6, _⟩ => ⟨S2048x64, .bf16⟩
  | .local _ .vmem, ⟨7, _⟩ => ⟨S64x64, .bf16⟩
  | .local _ .vmem, ⟨8, _⟩ => ⟨S2048x64, .f32⟩
  | .local _ .vmem, ⟨9, _⟩ => ⟨S2048x64, .f32⟩
  | .local _ .vmem, ⟨10, _⟩ => ⟨S2048x32, .bf16⟩
  | .local _ .vmem, ⟨11, _⟩ => ⟨S2048x32, .bf16⟩
  | .local _ .vmem, ⟨12, _⟩ => ⟨S1024x32, .bf16⟩
  | .local _ .vmem, ⟨13, _⟩ => ⟨S1024x32, .bf16⟩
  | .local _ .vmem, ⟨14, _⟩ => ⟨S2048x1024, .f32⟩
  | .local _ .vmem, ⟨15, _⟩ => ⟨S2048x1024, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_9 : Ref sig .tc := ⟨.hbm, 80, rfl⟩
abbrev main_v56 : Ref sig .tc := ⟨.hbm, 81, rfl⟩
abbrev main_v57 : Ref sig .tc := ⟨.hbm, 82, rfl⟩
abbrev main_c_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x32 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x32 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S2x262144_S1x262144_0_0 : S2x262144.Slices ![0, 0] S1x262144
  shapeCasts_S1x262144_S262144 : S1x262144.ShapeCasts S262144
  concatenates_S262144_S16384_S278528_d0 : Shape.Concatenates [S262144, S16384] S278528 0
  slices_S2x262144_S1x262144_1_0 : S2x262144.Slices ![1, 0] S1x262144
  bcast_S_S278528 : S_.BroadcastsInDim S278528 (![] : Fin 0 → Fin S278528.rank)
  bcast_S_S16384 : S_.BroadcastsInDim S16384 (![] : Fin 0 → Fin S16384.rank)
  bcast_S278528_S278528x1_0 : S278528.BroadcastsInDim S278528x1 (![0] : Fin 1 → Fin S278528x1.rank)
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2048x64_S2048x64_0_0 : ∀ a, (![0, 0] : Fin 2 → Nat) a + S2048x64.size a ≤ S2048x64.size a
  h_S2048x64 : 0 < S2048x64.numel
  bcast_S278528x1_S278528x64_0_1 : S278528x1.BroadcastsInDim S278528x64 (![0, 1] : Fin 2 → Fin S278528x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  concatenates_S64x32_S64x32_S64x64_d1 : Shape.Concatenates [S64x32, S64x32] S64x64 1
  shapeCasts_S2048x64_S2048x64 : S2048x64.ShapeCasts S2048x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S16384x64_S16384x32_0_0 : S16384x64.Slices ![0, 0] S16384x32
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  slices_S16384x64_S16384x32_0_32 : S16384x64.Slices ![0, 32] S16384x32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S2048x1024_S2048x1024_0_0 : ∀ a, (![0, 0] : Fin 2 → Nat) a + S2048x1024.size a ≤ S2048x1024.size a
  h_S2048x1024 : 0 < S2048x1024.numel
  scatter_S16384_S278528x1_S278528_n_0_0_1_wf : ScatterDims.WF S16384 S278528x1 S278528 [] [0] [0] 1
  gather_S16384_S278528x1_S278528_n_0_n_n_0_1_1_wf : GatherDims.WF S16384 S278528x1 S278528 [] [0] [] [0] [] 1 ![1]
  dot_S2048x128_S128x64_S2048x64_1_0_0_1_n_n_wf : DotDims.WF S2048x128 S128x64 S2048x64 [1] [0] [0] [1] [] []
  gather_S16384x64_S278528x1_S278528x64_1_0_n_n_0_1_164_wf : GatherDims.WF S16384x64 S278528x1 S278528x64 [1] [0] [] [0] [] 1 ![1, 64]
  scatter_S16384x64_S278528x1_S278528x64_1_0_0_1_wf : ScatterDims.WF S16384x64 S278528x1 S278528x64 [1] [0] [0] 1
  dot_S2048x64_S64x64_S2048x64_1_0_0_1_n_n_wf : DotDims.WF S2048x64 S64x64 S2048x64 [1] [0] [0] [1] [] []
  dot_S2048x32_S1024x32_S2048x1024_1_1_0_0_n_n_wf : DotDims.WF S2048x32 S1024x32 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .bf16 = 32 ∨ (Rect.block (s := S16384x128) S2048x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .f32 = 32 ∨ (Rect.block (s := S16384x64) S2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .bf16 = 32 ∨ (Rect.block (s := S16384x64) S2048x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .bf16 = 32 ∨ (Rect.block (s := S64x64) S64x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S16384x64.size a
  hwx1_2 : ∀ i : grid1.Coords, EltTy.bits .f32 = 32 ∨ (Rect.block (s := S16384x64) S2048x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x32.size a ≤ S16384x32.size a
  hwx2_0 : ∀ i : grid2.Coords, EltTy.bits .bf16 = 32 ∨ (Rect.block (s := S16384x32) S2048x32.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x32.size a ≤ S16384x32.size a
  hwx2_1 : ∀ i : grid2.Coords, EltTy.bits .bf16 = 32 ∨ (Rect.block (s := S16384x32) S1024x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1024.size a ≤ S16384x16384.size a
  hwx2_2 : ∀ i : grid2.Coords, EltTy.bits .f32 = 32 ∨ (Rect.block (s := S16384x16384) S2048x1024.size (cc2_transform_2 i) (hinb2_2 i)).WholeWords (EltTy.packing .f32)

variable [Facts₀]

def scatter_S16384_S278528x1_S278528_n_0_0_1 : ScatterDims S16384 S278528x1 S278528 where
  updateWindowDims := []
  insertedWindowDims := [0]
  scatterDimsToOperandDims := [0]
  indexVectorDim := 1
  wf := scatter_S16384_S278528x1_S278528_n_0_0_1_wf
def gather_S16384_S278528x1_S278528_n_0_n_n_0_1_1 : GatherDims S16384 S278528x1 S278528 where
  offsetDims := []
  collapsedSliceDims := [0]
  operandBatchingDims := []
  startIndicesBatchingDims := []
  startIndexMap := [0]
  indexVectorDim := 1
  sliceSizes := ![1]
  wf := gather_S16384_S278528x1_S278528_n_0_n_n_0_1_1_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def gather_S16384x64_S278528x1_S278528x64_1_0_n_n_0_1_164 : GatherDims S16384x64 S278528x1 S278528x64 where
  offsetDims := [1]
  collapsedSliceDims := [0]
  operandBatchingDims := []
  startIndicesBatchingDims := []
  startIndexMap := [0]
  indexVectorDim := 1
  sliceSizes := ![1, 64]
  wf := gather_S16384x64_S278528x1_S278528x64_1_0_n_n_0_1_164_wf
def scatter_S16384x64_S278528x1_S278528x64_1_0_0_1 : ScatterDims S16384x64 S278528x1 S278528x64 where
  updateWindowDims := [1]
  insertedWindowDims := [0]
  scatterDimsToOperandDims := [0]
  indexVectorDim := 1
  wf := scatter_S16384x64_S278528x1_S278528x64_1_0_0_1_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x32_S1024x32_S2048x1024_1_1_0_0_n_n : DotDims S2048x32 S1024x32 S2048x1024 where
  lhsContracting := [1]
  rhsContracting := [1]
  lhsNonContracting := [0]
  rhsNonContracting := [0]
  lhsBatch := []
  rhsBatch := []
  wf := dot_S2048x32_S1024x32_S2048x1024_1_1_0_0_n_n_wf

abbrev win0_0 : Pipeline.Window sig grid0 :=
  Pipeline.Window.ofSpec (Memref.whole main_v31) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v79) S2048x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S1024x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v80) S2048x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384x128 : Shape := ⟨2, ![16384, 128]⟩
abbrev S2x262144 : Shape := ⟨2, ![2, 262144]⟩
abbrev S128x64 : Shape := ⟨2, ![128, 64]⟩
abbrev S64 : Shape := ⟨1, ![64]⟩
abbrev S64x32 : Shape := ⟨2, ![64, 32]⟩
abbrev S32 : Shape := ⟨1, ![32]⟩
abbrev S16384x32 : Shape := ⟨2, ![16384, 32]⟩
abbrev S1x262144 : Shape := ⟨2, ![1, 262144]⟩
abbrev S262144 : Shape := ⟨1, ![262144]⟩
abbrev S16384 : Shape := ⟨1, ![16384]⟩
abbrev S278528 : Shape := ⟨1, ![278528]⟩
abbrev S_ : Shape := ⟨0, ![]⟩
abbrev S278528x1 : Shape := ⟨2, ![278528, 1]⟩
abbrev S16384x64 : Shape := ⟨2, ![16384, 64]⟩
abbrev S278528x64 : Shape := ⟨2, ![278528, 64]⟩
abbrev S1x64 : Shape := ⟨2, ![1, 64]⟩
abbrev S278528x32 : Shape := ⟨2, ![278528, 32]⟩
abbrev S1x32 : Shape := ⟨2, ![1, 32]⟩
abbrev S32x16384 : Shape := ⟨2, ![32, 16384]⟩
abbrev S16384x16384 : Shape := ⟨2, ![16384, 16384]⟩

abbrev nBuf : Space → Nat
  | .hbm => 126
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x262144, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S16384x32, .f32⟩
  | .hbm, ⟨9, _⟩ => ⟨S1x262144, .i32⟩
  | .hbm, ⟨10, _⟩ => ⟨S262144, .i32⟩
  | .hbm, ⟨11, _⟩ => ⟨S16384, .i32⟩
  | .hbm, ⟨12, _⟩ => ⟨S278528, .i32⟩
  | .hbm, ⟨13, _⟩ => ⟨S1x262144, .i32⟩
  | .hbm, ⟨14, _⟩ => ⟨S262144, .i32⟩
  | .hbm, ⟨15, _⟩ => ⟨S16384, .i32⟩
  | .hbm, ⟨16, _⟩ => ⟨S278528, .i32⟩
  | .hbm, ⟨17, _⟩ => ⟨S_, .f32⟩
  | .hbm, ⟨18, _⟩ => ⟨S278528, .f32⟩
  | .hbm, ⟨19, _⟩ => ⟨S_, .f32⟩
  | .hbm, ⟨20, _⟩ => ⟨S16384, .f32⟩
  | .hbm, ⟨21, _⟩ => ⟨S278528x1, .i32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .i1⟩
  | .hbm, ⟨26, _⟩ => ⟨S16384, .f32⟩
  | .hbm, ⟨27, _⟩ => ⟨S_, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .i32⟩
  | .hbm, ⟨32, _⟩ => ⟨S278528, .i32⟩
  | .hbm, ⟨33, _⟩ => ⟨S278528, .i1⟩
  | .hbm, ⟨34, _⟩ => ⟨S_, .i32⟩
  | .hbm, ⟨35, _⟩ => ⟨S278528, .i32⟩
  | .hbm, ⟨36, _⟩ => ⟨S278528, .i32⟩
  | .hbm, ⟨37, _⟩ => ⟨S278528, .i32⟩
  | .hbm, ⟨38, _⟩ => ⟨S278528x1, .i32⟩
  | .hbm, ⟨39, _⟩ => ⟨S278528, .f32⟩
  | .hbm, ⟨40, _⟩ => ⟨S_, .i32⟩
  | .hbm, ⟨41, _⟩ => ⟨S278528, .i32⟩
  | .hbm, ⟨42, _⟩ => ⟨S278528, .i1⟩
  | .hbm, ⟨43, _⟩ => ⟨S_, .i32⟩
  | .hbm, ⟨44, _⟩ => ⟨S278528, .i32⟩
  | .hbm, ⟨45, _⟩ => ⟨S278528, .i32⟩
  | .hbm, ⟨46, _⟩ => ⟨S278528, .i32⟩
  | .hbm, ⟨47, _⟩ => ⟨S278528x1, .i32⟩
  | .hbm, ⟨48, _⟩ => ⟨S278528, .f32⟩
  | .hbm, ⟨49, _⟩ => ⟨S278528, .f32⟩
  | .hbm, ⟨50, _⟩ => ⟨S16384x64, .f32⟩
  | .hbm, ⟨51, _⟩ => ⟨S278528x1, .f32⟩
  | .hbm, ⟨52, _⟩ => ⟨S_, .i32⟩
  | .hbm, ⟨53, _⟩ => ⟨S278528, .i32⟩
  | .hbm, ⟨54, _⟩ => ⟨S278528, .i1⟩
  | .hbm, ⟨55, _⟩ => ⟨S_, .i32⟩
  | .hbm, ⟨56, _⟩ => ⟨S278528, .i32⟩
  | .hbm, ⟨57, _⟩ => ⟨S278528, .i32⟩
  | .hbm, ⟨58, _⟩ => ⟨S278528, .i32⟩
  | .hbm, ⟨59, _⟩ => ⟨S278528x1, .i32⟩
  | .hbm, ⟨60, _⟩ => ⟨S278528x64, .f32⟩
  | .hbm, ⟨61, _⟩ => ⟨S278528x64, .f32⟩
  | .hbm, ⟨62, _⟩ => ⟨S278528x64, .f32⟩
  | .hbm, ⟨63, _⟩ => ⟨S_, .f32⟩
  | .hbm, ⟨64, _⟩ => ⟨S16384x64, .f32⟩
  | .hbm, ⟨65, _⟩ => ⟨S278528x1, .i32⟩
  | .hbm, ⟨66, _⟩ => ⟨S16384x64, .f32⟩
  | .hbm, ⟨67, _⟩ => ⟨S1x64, .f32⟩
  | .hbm, ⟨68, _⟩ => ⟨S16384x64, .f32⟩
  | .hbm, ⟨69, _⟩ => ⟨S16384x64, .f32⟩
  | .hbm, ⟨70, _⟩ => ⟨S_, .f32⟩
  | .hbm, ⟨71, _⟩ => ⟨S16384x64, .f32⟩
  | .hbm, ⟨72, _⟩ => ⟨S16384x64, .f32⟩
  | .hbm, ⟨73, _⟩ => ⟨S16384x32, .f32⟩
  | .hbm, ⟨74, _⟩ => ⟨S278528x1, .f32⟩
  | .hbm, ⟨75, _⟩ => ⟨S_, .i32⟩
  | .hbm, ⟨76, _⟩ => ⟨S278528, .i32⟩
  | .hbm, ⟨77, _⟩ => ⟨S278528, .i1⟩
  | .hbm, ⟨78, _⟩ => ⟨S_, .i32⟩
  | .hbm, ⟨79, _⟩ => ⟨S278528, .i32⟩
  | .hbm, ⟨80, _⟩ => ⟨S278528, .i32⟩
  | .hbm, ⟨81, _⟩ => ⟨S278528, .i32⟩
  | .hbm, ⟨82, _⟩ => ⟨S278528x1, .i32⟩
  | .hbm, ⟨83, _⟩ => ⟨S278528x32, .f32⟩
  | .hbm, ⟨84, _⟩ => ⟨S278528x32, .f32⟩
  | .hbm, ⟨85, _⟩ => ⟨S278528x32, .f32⟩
  | .hbm, ⟨86, _⟩ => ⟨S_, .f32⟩
  | .hbm, ⟨87, _⟩ => ⟨S16384x32, .f32⟩
  | .hbm, ⟨88, _⟩ => ⟨S278528x1, .i32⟩
  | .hbm, ⟨89, _⟩ => ⟨S16384x32, .f32⟩
  | .hbm, ⟨90, _⟩ => ⟨S1x32, .f32⟩
  | .hbm, ⟨91, _⟩ => ⟨S16384x32, .f32⟩
  | .hbm, ⟨92, _⟩ => ⟨S16384x32, .f32⟩
  | .hbm, ⟨93, _⟩ => ⟨S16384x32, .f32⟩
  | .hbm, ⟨94, _⟩ => ⟨S278528x1, .f32⟩
  | .hbm, ⟨95, _⟩ => ⟨S_, .i32⟩
  | .hbm, ⟨96, _⟩ => ⟨S278528, .i32⟩
  | .hbm, ⟨97, _⟩ => ⟨S278528, .i1⟩
  | .hbm, ⟨98, _⟩ => ⟨S_, .i32⟩
  | .hbm, ⟨99, _⟩ => ⟨S278528, .i32⟩
  | .hbm, ⟨100, _⟩ => ⟨S278528, .i32⟩
  | .hbm, ⟨101, _⟩ => ⟨S278528, .i32⟩
  | .hbm, ⟨102, _⟩ => ⟨S278528x1, .i32⟩
  | .hbm, ⟨103, _⟩ => ⟨S278528x32, .f32⟩
  | .hbm, ⟨104, _⟩ => ⟨S278528x32, .f32⟩
  | .hbm, ⟨105, _⟩ => ⟨S278528x32, .f32⟩
  | .hbm, ⟨106, _⟩ => ⟨S_, .f32⟩
  | .hbm, ⟨107, _⟩ => ⟨S16384x32, .f32⟩
  | .hbm, ⟨108, _⟩ => ⟨S278528x1, .i32⟩
  | .hbm, ⟨109, _⟩ => ⟨S16384x32, .f32⟩
  | .hbm, ⟨110, _⟩ => ⟨S1x32, .f32⟩
  | .hbm, ⟨111, _⟩ => ⟨S16384x32, .f32⟩
  | .hbm, ⟨112, _⟩ => ⟨S16384x32, .f32⟩
  | .hbm, ⟨113, _⟩ => ⟨S16384x32, .f32⟩
  | .hbm, ⟨114, _⟩ => ⟨S16384x32, .f32⟩
  | .hbm, ⟨115, _⟩ => ⟨S16384x32, .f32⟩
  | .hbm, ⟨116, _⟩ => ⟨S32x16384, .f32⟩
  | .hbm, ⟨117, _⟩ => ⟨S16384x16384, .f32⟩
  | .hbm, ⟨118, _⟩ => ⟨S16384x16384, .f32⟩
  | .hbm, ⟨119, _⟩ => ⟨S16384x16384, .f32⟩
  | .hbm, ⟨120, _⟩ => ⟨S_, .f32⟩
  | .hbm, ⟨121, _⟩ => ⟨S16384x16384, .f32⟩
  | .hbm, ⟨122, _⟩ => ⟨S16384x16384, .f32⟩
  | .hbm, ⟨123, _⟩ => ⟨S_, .f32⟩
  | .hbm, ⟨124, _⟩ => ⟨S16384x16384, .f32⟩
  | .hbm, ⟨125, _⟩ => ⟨S16384x16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_12 : Ref sig .tc := ⟨.hbm, 95, rfl⟩
abbrev main_v68 : Ref sig .tc := ⟨.hbm, 96, rfl⟩
abbrev main_v69 : Ref sig .tc := ⟨.hbm, 97, rfl⟩
abbrev main_c_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_14 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_15 : Ref sig .tc := ⟨.hbm, 120, rfl⟩
abbrev main_v90 : Ref sig .tc := ⟨.hbm, 121, rfl⟩
abbrev main_v91 : Ref sig .tc := ⟨.hbm, 122, rfl⟩
abbrev main_cst_16 : Ref sig .tc := ⟨.hbm, 123, rfl⟩
abbrev main_v92 : Ref sig .tc := ⟨.hbm, 124, rfl⟩
abbrev main_v93 : Ref sig .tc := ⟨.hbm, 125, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S16384_S278528_d0 : Shape.Concatenates [S262144, S16384] S278528 0
  slices_S2x262144_S1x262144_1_0 : S2x262144.Slices ![1, 0] S1x262144
  bcast_S_S278528 : S_.BroadcastsInDim S278528 (![] : Fin 0 → Fin S278528.rank)
  bcast_S_S16384 : S_.BroadcastsInDim S16384 (![] : Fin 0 → Fin S16384.rank)
  bcast_S278528_S278528x1_0 : S278528.BroadcastsInDim S278528x1 (![0] : Fin 1 → Fin S278528x1.rank)
  bcast_S278528x1_S278528x64_0_1 : S278528x1.BroadcastsInDim S278528x64 (![0, 1] : Fin 2 → Fin S278528x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S278528x1_S278528x32_0_1 : S278528x1.BroadcastsInDim S278528x32 (![0, 1] : Fin 2 → Fin S278528x32.rank)
  bcast_S_S16384x32 : S_.BroadcastsInDim S16384x32 (![] : Fin 0 → Fin S16384x32.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  transposes_S16384x32_S32x16384_1_0 : S16384x32.Transposes [1, 0] S32x16384
  bcast_S_S16384x16384 : S_.BroadcastsInDim S16384x16384 (![] : Fin 0 → Fin S16384x16384.rank)
  scatter_S16384_S278528x1_S278528_n_0_0_1_wf : ScatterDims.WF S16384 S278528x1 S278528 [] [0] [0] 1
  gather_S16384_S278528x1_S278528_n_0_n_n_0_1_1_wf : GatherDims.WF S16384 S278528x1 S278528 [] [0] [] [0] [] 1 ![1]
  dot_S16384x128_S128x64_S16384x64_1_0_0_1_n_n_wf : DotDims.WF S16384x128 S128x64 S16384x64 [1] [0] [0] [1] [] []
  gather_S16384x64_S278528x1_S278528x64_1_0_n_n_0_1_164_wf : GatherDims.WF S16384x64 S278528x1 S278528x64 [1] [0] [] [0] [] 1 ![1, 64]
  scatter_S16384x64_S278528x1_S278528x64_1_0_0_1_wf : ScatterDims.WF S16384x64 S278528x1 S278528x64 [1] [0] [0] 1
  dot_S16384x64_S64x32_S16384x32_1_0_0_1_n_n_wf : DotDims.WF S16384x64 S64x32 S16384x32 [1] [0] [0] [1] [] []
  gather_S16384x32_S278528x1_S278528x32_1_0_n_n_0_1_132_wf : GatherDims.WF S16384x32 S278528x1 S278528x32 [1] [0] [] [0] [] 1 ![1, 32]
  scatter_S16384x32_S278528x1_S278528x32_1_0_0_1_wf : ScatterDims.WF S16384x32 S278528x1 S278528x32 [1] [0] [0] 1
  dot_S16384x32_S32x16384_S16384x16384_1_0_0_1_n_n_wf : DotDims.WF S16384x32 S32x16384 S16384x16384 [1] [0] [0] [1] [] []

variable [Facts₀]

def scatter_S16384_S278528x1_S278528_n_0_0_1 : ScatterDims S16384 S278528x1 S278528 where
  updateWindowDims := []
  insertedWindowDims := [0]
  scatterDimsToOperandDims := [0]
  indexVectorDim := 1
  wf := scatter_S16384_S278528x1_S278528_n_0_0_1_wf
def gather_S16384_S278528x1_S278528_n_0_n_n_0_1_1 : GatherDims S16384 S278528x1 S278528 where
  offsetDims := []
  collapsedSliceDims := [0]
  operandBatchingDims := []
  startIndicesBatchingDims := []
  startIndexMap := [0]
  indexVectorDim := 1
  sliceSizes := ![1]
  wf := gather_S16384_S278528x1_S278528_n_0_n_n_0_1_1_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def gather_S16384x64_S278528x1_S278528x64_1_0_n_n_0_1_164 : GatherDims S16384x64 S278528x1 S278528x64 where
  offsetDims := [1]
  collapsedSliceDims := [0]
  operandBatchingDims := []
  startIndicesBatchingDims := []
  startIndexMap := [0]
  indexVectorDim := 1
  sliceSizes := ![1, 64]
  wf := gather_S16384x64_S278528x1_S278528x64_1_0_n_n_0_1_164_wf
def scatter_S16384x64_S278528x1_S278528x64_1_0_0_1 : ScatterDims S16384x64 S278528x1 S278528x64 where
  updateWindowDims := [1]
  insertedWindowDims := [0]
  scatterDimsToOperandDims := [0]
  indexVectorDim := 1
  wf := scatter_S16384x64_S278528x1_S278528x64_1_0_0_1_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def gather_S16384x32_S278528x1_S278528x32_1_0_n_n_0_1_132 : GatherDims S16384x32 S278528x1 S278528x32 where
  offsetDims := [1]
  collapsedSliceDims := [0]
  operandBatchingDims := []
  startIndicesBatchingDims := []
  startIndexMap := [0]
  indexVectorDim := 1
  sliceSizes := ![1, 32]
  wf := gather_S16384x32_S278528x1_S278528x32_1_0_n_n_0_1_132_wf
def scatter_S16384x32_S278528x1_S278528x32_1_0_0_1 : ScatterDims S16384x32 S278528x1 S278528x32 where
  updateWindowDims := [1]
  insertedWindowDims := [0]
  scatterDimsToOperandDims := [0]
  indexVectorDim := 1
  wf := scatter_S16384x32_S278528x1_S278528x32_1_0_0_1_wf
def dot_S16384x32_S32x16384_S16384x16384_1_0_0_1_n_n : DotDims S16384x32 S32x16384 S16384x16384 where
  lhsContracting := [1]
  rhsContracting := [0]
  lhsNonContracting := [0]
  rhsNonContracting := [1]
  lhsBatch := []
  rhsBatch := []
  wf := dot_S16384x32_S32x16384_S16384x16384_1_0_0_1_n_n_wf

class Facts : Prop extends Facts₀ where

variable [Facts]
-- ==== Proof.Bits.Blocks.lean ====
/-
  The three Pallas calls of the program, each as data for the pipeline rules: the block of every operand at a
  grid point, what the kernel body leaves in the output buffer (one matrix product of the two input blocks,
  followed in the last call by the logistic function), and the proof data built from them. Everything is
  stated at any float instance, over the buffer contents `V` the call is entered with.
  In the last call both input windows read ONE array (the latent matrix, once by row tile and once by
  column tile), so each of the two holds half of that array's read share.
-/
import proofs.«154195_j27152783245647_2_alg».proof.Proof.Gen.Kernel.Launch
import proofs.«154195_j27152783245647_2_alg».proof.Proof.Gen.Kernel.Skeleton
import proofs.«154195_j27152783245647_2_alg».proof.Proof.Gen.Kernel.Points
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open Idealize.SL.Sem
open Idealize.ShloMosaic.Rounds
open Idealize.ShloMosaic.Pipeline (Dat Cfg Window)
open Cert.Kernel Cert.Kernel.Gen

variable {F : FTy → Type} [FloatOps F]
variable (V : (c : Dev nD) → (b : Ref sig .tc) → Buf (Elt F) ((c : Thread nD τ).loc b))

/-! ## Pallas call 0 -/

/-- Window `w`'s block at grid point `t`, cut out of the array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rL0 : Rect S2048x128 := Rect.unit (s := S2048x128) ![0, 0] S2048x128.size inb_S2048x128_S2048x128_0_0
abbrev rR0 : Rect S128x64 := Rect.unit (s := S128x64) ![0, 0] S128x64.size inb_S128x64_S128x64_0_0
abbrev rO0 : Rect S2048x64 := Rect.unit (s := S2048x64) ![0, 0] S2048x64.size inb_S2048x64_S2048x64_0_0

/-- What the body leaves in the output window's buffer, from the two input blocks: its one store, of the product
    payload of the two loaded blocks, over the whole buffer. -/
def out0_2 (x0 : Vec F S2048x128 .bf16) (x1 : Vec F S128x64 .bf16) : Vec F S2048x64 .f32 :=
  View.canon [⟨rO0, k0_pay1 (View.ld x0 rL0) (View.ld x1 rR0)⟩]

/-- The call's proof data on core `c`: the arrays as the call finds them; after the body at point `t` each input
    buffer still at its block and the output buffer at `out0_2` of the two input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-! ## Pallas call 1 -/

/-- Window `w`'s block at grid point `t`, cut out of the array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rL1 : Rect S2048x64 := Rect.unit (s := S2048x64) ![0, 0] S2048x64.size inb_S2048x64_S2048x64_0_0
abbrev rR1 : Rect S64x64 := Rect.unit (s := S64x64) ![0, 0] S64x64.size inb_S64x64_S64x64_0_0
abbrev rO1 : Rect S2048x64 := Rect.unit (s := S2048x64) ![0, 0] S2048x64.size inb_S2048x64_S2048x64_0_0

/-- What the body leaves in the output window's buffer, from the two input blocks: its one store, of the product
    payload of the two loaded blocks, over the whole buffer. -/
def out1_2 (x0 : Vec F S2048x64 .bf16) (x1 : Vec F S64x64 .bf16) : Vec F S2048x64 .f32 :=
  View.canon [⟨rO1, k1_pay1 (View.ld x0 rL1) (View.ld x1 rR1)⟩]

/-- The call's proof data on core `c`: the arrays as the call finds them; after the body at point `t` each input
    buffer still at its block and the output buffer at `out1_2` of the two input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-! ## Pallas call 2 -/

/-- Window `w`'s block at grid point `t`, cut out of the array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev rL2 : Rect S2048x32 := Rect.unit (s := S2048x32) ![0, 0] S2048x32.size inb_S2048x32_S2048x32_0_0
abbrev rR2 : Rect S1024x32 := Rect.unit (s := S1024x32) ![0, 0] S1024x32.size inb_S1024x32_S1024x32_0_0
abbrev rO2 : Rect S2048x1024 := Rect.unit (s := S2048x1024) ![0, 0] S2048x1024.size inb_S2048x1024_S2048x1024_0_0

/-- What the body leaves in the output window's buffer, from the two input blocks: its one store, of the product
    payload of the two loaded blocks, over the whole buffer. -/
def out2_2 (x0 : Vec F S2048x32 .bf16) (x1 : Vec F S1024x32 .bf16) : Vec F S2048x1024 .f32 :=
  View.canon [⟨rO2, k2_pay1 (View.ld x0 rL2) (View.ld x1 rR2)⟩]

/-- The call's proof data on core `c`: the arrays as the call finds them; after the body at point `t` each input
    buffer still at its block and the output buffer at `out2_2` of the two input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

end Cert.Kernel.Hand

end
-- ==== Proof.Bits.Fold.lean ====
/-
  The contents of every TensorCore buffer at each boundary between two items of the program's main function, as
  a fold from the launch memory: a stretch of host operations applies them in order; a Pallas call replaces its
  output array by what its blocks' write-backs leave and keeps every other buffer. The last stage is what the
  whole run leaves in memory; the argument arrays come through unchanged because nothing writes them.
-/
import proofs.«154195_j27152783245647_2_alg».proof.Proof.Bits.Blocks
import proofs.«154195_j27152783245647_2_alg».proof.Proof.Gen.Kernel.Regions

set_option maxRecDepth 16384

noncomputable section

namespace Cert.Kernel.Hand

open Idealize.ShloMosaic Idealize.ShloMosaic.TcCoe
open Idealize.SL Idealize.SL.RA Idealize.SL.BI
open Idealize.SL.Sem
open Idealize.ShloMosaic.Rounds
open Idealize.ShloMosaic.Pipeline (Dat Cfg Window)
open Cert.Kernel Cert.Kernel.Gen

variable {F : FTy → Type} [FloatOps F]
variable (m : (ℓ : Loc nD τ sig) → Buf (Elt F) ℓ)

/-- A valuation read at the TensorCore's references: the form a Pallas call's proof data take. -/
abbrev atTc (W : Dev nD → Valuation τ sig (Elt F)) : (c : Dev nD) → (b : Ref sig .tc) → Buf (Elt F) ((c : Thread nD τ).loc b) :=
  fun c b => W c b

/-- At launch. -/
abbrev W0 : Dev nD → Valuation τ sig (Elt F) := fun c b => m ((c : Dev nD), b)
/-- After the first three stretches of host operations (edge weights, the bf16 copies): the first call's entry. -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- The first call's output array, as its eight row blocks' write-backs leave it. -/
def res0 (c : Dev nD) : Buf (Elt F) ((c : Thread nD τ).loc main_v33) := (dat0 (atTc (W3 m)) c).arrAt 2 cfg0.N
/-- After the first call: its output array replaced, every other buffer kept. -/
def W4 : Dev nD → Valuation τ sig (Elt F) := fun c => Function.update (W3 m c) (Proc.devRef .tc main_v33) (res0 m c)
/-- After the first layer's aggregation, bias, rectifier and the second call's operands: the second call's entry. -/
abbrev W5 : Dev nD → Valuation τ sig (Elt F) := fun c => StableHlo.after hostOps1 (W4 m c)
abbrev W6 : Dev nD → Valuation τ sig (Elt F) := fun c => StableHlo.after hostOps1_1 (W5 m c)
abbrev W7 : Dev nD → Valuation τ sig (Elt F) := fun c => StableHlo.after hostOps1_2 (W6 m c)
/-- The second call's output array. -/
def res1 (c : Dev nD) : Buf (Elt F) ((c : Thread nD τ).loc main_v54) := (dat1 (atTc (W7 m)) c).arrAt 2 cfg1.N
def W8 : Dev nD → Valuation τ sig (Elt F) := fun c => Function.update (W7 m c) (Proc.devRef .tc main_v54) (res1 m c)
/-- After the second layer's aggregation, the two heads and the sampled latent matrix: the third call's entry. -/
abbrev W9 : Dev nD → Valuation τ sig (Elt F) := fun c => StableHlo.after hostOps2 (W8 m c)
/-- The third call's output array, as its 128 tiles' write-backs leave it. -/
def res2 (c : Dev nD) : Buf (Elt F) ((c : Thread nD τ).loc main_v80) := (dat2 (atTc (W9 m)) c).arrAt 2 cfg2.N
/-- At the end of the run. -/
def W10 : Dev nD → Valuation τ sig (Elt F) := fun c => Function.update (W9 m c) (Proc.devRef .tc main_v80) (res2 m c)

theorem W4_out (c : Dev nD) : W4 m c (Proc.devRef .tc main_v33) = res0 m c := by unfold W4; exact Function.update_self ..
theorem W4_of_ne (c : Dev nD) (b : Ref sig .tc) (hb : b ≠ main_v33) : W4 m c (Proc.devRef .tc b) = W3 m c (Proc.devRef .tc b) := by
  unfold W4; exact Function.update_of_ne (StableHlo.devRef_ne_of_ne hb) ..
theorem W8_out (c : Dev nD) : W8 m c (Proc.devRef .tc main_v54) = res1 m c := by unfold W8; exact Function.update_self ..
theorem W8_of_ne (c : Dev nD) (b : Ref sig .tc) (hb : b ≠ main_v54) : W8 m c (Proc.devRef .tc b) = W7 m c (Proc.devRef .tc b) := by
  unfold W8; exact Function.update_of_ne (StableHlo.devRef_ne_of_ne hb) ..
theorem W10_out (c : Dev nD) : W10 m c (Proc.devRef .tc main_v80) = res2 m c := by unfold W10; exact Function.update_self ..
theorem W10_of_ne (c : Dev nD) (b : Ref sig .tc) (hb : b ≠ main_v80) : W10 m c (Proc.devRef .tc b) = W9 m c (Proc.devRef .tc b) := by
  unfold W10; exact Function.update_of_ne (StableHlo.devRef_ne_of_ne hb) ..

/-- A buffer that no host operation writes and that is no call's output array ends as launched. -/
theorem W10_kept (c : Dev nD) (r : Ref sig .tc)
    (h0 : r ∉ hostOps0_W) (h1 : r ∉ hostOps0_1_W) (h2 : r ∉ hostOps0_2_W) (h3 : r ≠ main_v33)
    (h4 : r ∉ hostOps1_W) (h5 : r ∉ hostOps1_1_W) (h6 : r ∉ hostOps1_2_W) (h7 : r ≠ main_v54)
    (h8 : r ∉ hostOps2_W) (h9 : r ≠ main_v80) :
    W10 m c (Proc.devRef .tc r) = m ((c : Thread nD τ).loc r) :=
  (W10_of_ne m c r h9).trans <| (StableHlo.after_of_writes_sub hostOps2 _ hostOps2_writes h8).trans <|
  (W8_of_ne m c r h7).trans <| (StableHlo.after_of_writes_sub hostOps1_2 _ hostOps1_2_writes h6).trans <|
  (StableHlo.after_of_writes_sub hostOps1_1 _ hostOps1_1_writes h5).trans <|
  (StableHlo.after_of_writes_sub hostOps1 _ hostOps1_writes h4).trans <|
  (W4_of_ne m c r h3).trans <| (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

end Cert.Kernel.Hand

end
-- ==== Proof.Bits.Pdats.lean ====
/-
  What is common to the three Pallas calls' records in the run of the main function: every call's proof data at the
  buffer contents it is entered with, the thread state that rides beside the buffers between two items (the core's
  generator register at some state, nothing owed to any other core), and a stretch of host operations as a segment.
-/
import proofs.«154195_j27152783245647_2_alg».proof.Proof.Bits.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Every call's proof data, each at its entry contents — a literal match on the call's number, so that the call's
    configuration at a numeral is the printed one. -/
def pdats : (p : Fin 3) → (c : Dev nD) → Dat τ (Elt F) Unit ℕ (UR sig nD τ) ℕ (Pipeline.pin (pcfgs (F := F)) adm p) c
  | ⟨0, _⟩ => fun c => dat0 (atTc (W3 m)) c
  | ⟨1, _⟩ => fun c => dat1 (atTc (W7 m)) c
  | ⟨2, _⟩ => fun c => dat2 (atTc (W9 m)) c

abbrev 𝒱₀ : Variants := Variants.none
/-- No core waits on another: no level is assigned. -/
abbrev L : GSem nD τ sig → Finset Unit := fun _ => ∅
abbrev lv : GSem nD τ sig → Unit → ℕ := fun _ _ => 0

/-- What rides beside the buffers through every item: the generator register at some state, and nothing owed. -/
abbrev R (c : Dev nD) : sProp 𝕄 := iprop((∃ r, prngReg c r) ∗ ∃ W, owes (c : Thread nD τ) (0 : CellTallies nD τ sig Unit) W)

/-- A stretch of host operations as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore buffer is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The state a call is entered from or left at: every unscoped buffer at the boundary's contents, beside `R`. -/
abbrev bnd (W : Dev nD → Valuation τ sig (Elt F)) (c : Dev nD) : sProp 𝕄 :=
  iprop(StableHlo.held (c : Thread nD τ) (Pipeline.ucRefs τ sig) (W c) ∗ R c)

end Cert.Kernel.Hand

end
-- ==== Proof.Bits.Reg0.lean ====
/-
  Pallas call 0 as an item of the run: entered with every unscoped buffer at the contents before it, left with the
  call's output array replaced by what the blocks' write-backs leave and every other buffer as it was. Its three
  arrays are split out of the unscoped buffers at entry and put back at exit; the generator register passes through
  the kernel's invariant; nothing is owed and the kernel has no semaphore of its own.
-/
import proofs.«154195_j27152783245647_2_alg».proof.Proof.Bits.Pdats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- At exit each of the call's arrays holds what the pipeline leaves: an input array its entry contents, the
    output array the folded write-backs. -/
theorem hF0 (c : Dev nD) : ∀ w : Fin cfg0.W, (pdats m 0 c).arrAt w cfg0.N = atTc (W4 m) c (Pipeline.arrRef spec0 w)
  | ⟨0, _⟩ => ((dat0 (atTc (W3 m)) c).arrAt_in 0 rfl _).trans ((A_eq0 (atTc (W3 m)) c 0).trans (W4_of_ne m c main_v31 (by decide)).symm)
  | ⟨1, _⟩ => ((dat0 (atTc (W3 m)) c).arrAt_in 1 rfl _).trans ((A_eq0 (atTc (W3 m)) c 1).trans (W4_of_ne m c main_v32 (by decide)).symm)
  | ⟨2, _⟩ => (W4_out m c).symm

/-- Every buffer that is none of the call's arrays is left as it was. -/
theorem hrest0 (c : Dev nD) : ∀ b, b ∉ Finset.univ.image (Pipeline.arrRef spec0) → atTc (W4 m) c b = atTc (W3 m) c b :=
  fun b hb => W4_of_ne m c b fun e => hb (Finset.mem_image.mpr ⟨2, Finset.mem_univ _, e.symm⟩)

set_option backward.isDefEq.respectTransparency.types false in
/-- The call's record, given the body's obligation at every grid point. -/
def reg0 (hb : ∀ c : Dev nD, BodyObligation (dat0 (F := F) (atTc (W3 m)) c) (defs₀ (F := F)) Variants.none () Set.univ) :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ L lv 0 fun _ _ => rfl
  pre c := bnd (W3 m) c
  post c := bnd (W4 m) c
  X c := iprop(∃ r, prngReg c r)
  Y c := iprop(∃ r, prngReg c r)
  Z c := Pipeline.unscopedRest (Ix := Unit) (Name := ℕ) (U := UR sig nD τ) (Lvl := ℕ) spec0 c (atTc (W3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W3 m) c) (atTc (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.Reg1.lean ====
/-
  Pallas call 1 as an item of the run: entered with every unscoped buffer at the contents before it, left with the
  call's output array replaced by what the blocks' write-backs leave and every other buffer as it was. Its three
  arrays are split out of the unscoped buffers at entry and put back at exit; the generator register passes through
  the kernel's invariant; nothing is owed and the kernel has no semaphore of its own.
-/
import proofs.«154195_j27152783245647_2_alg».proof.Proof.Bits.Pdats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- At exit each of the call's arrays holds what the pipeline leaves: an input array its entry contents, the
    output array the folded write-backs. -/
theorem hF1 (c : Dev nD) : ∀ w : Fin cfg1.W, (pdats m 1 c).arrAt w cfg1.N = atTc (W8 m) c (Pipeline.arrRef spec1 w)
  | ⟨0, _⟩ => ((dat1 (atTc (W7 m)) c).arrAt_in 0 rfl _).trans ((A_eq1 (atTc (W7 m)) c 0).trans (W8_of_ne m c main_v52 (by decide)).symm)
  | ⟨1, _⟩ => ((dat1 (atTc (W7 m)) c).arrAt_in 1 rfl _).trans ((A_eq1 (atTc (W7 m)) c 1).trans (W8_of_ne m c main_v53 (by decide)).symm)
  | ⟨2, _⟩ => (W8_out m c).symm

/-- Every buffer that is none of the call's arrays is left as it was. -/
theorem hrest1 (c : Dev nD) : ∀ b, b ∉ Finset.univ.image (Pipeline.arrRef spec1) → atTc (W8 m) c b = atTc (W7 m) c b :=
  fun b hb => W8_of_ne m c b fun e => hb (Finset.mem_image.mpr ⟨2, Finset.mem_univ _, e.symm⟩)

set_option backward.isDefEq.respectTransparency.types false in
/-- The call's record, given the body's obligation at every grid point. -/
def reg1 (hb : ∀ c : Dev nD, BodyObligation (dat1 (F := F) (atTc (W7 m)) c) (defs₀ (F := F)) Variants.none () Set.univ) :
    Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ L lv 1 fun _ _ => rfl
  pre c := bnd (W7 m) c
  post c := bnd (W8 m) c
  X c := iprop(∃ r, prngReg c r)
  Y c := iprop(∃ r, prngReg c r)
  Z c := Pipeline.unscopedRest (Ix := Unit) (Name := ℕ) (U := UR sig nD τ) (Lvl := ℕ) spec1 c (atTc (W7 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W7 m) c) (atTc (W8 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.Reg2.lean ====
/-
  Pallas call 2 (the decoder) as an item of the run. Its two input windows read ONE array, the latent matrix — once by
  row tile, once by column tile — so at entry that buffer's full share is split into two halves, one per window, and
  at exit the halves, both still at the entry contents, are joined again. The output array is held whole. Everything
  else is as for the first two calls.
-/
import proofs.«154195_j27152783245647_2_alg».proof.Proof.Bits.Pdats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The buffers behind the call's three arrays are two: the latent matrix and the output. -/
theorem image_arr2 : Finset.univ.image (Pipeline.arrRef spec2) = {main_v79, main_v80} := by decide

/-- The call's arrays, window by window: the latent matrix at the left half share, the same buffer at the right half
    share, the output array at the full share. -/
theorem arrays2 (c : Dev nD) (G : (w : Fin cfg2.W) → Buf (Elt F) ((cfg2.win w).arr.view.loc (c : Thread nD τ))) :
    ((pdats m 2 c).arrays G : sProp 𝕄)
      = iprop((((c : Thread nD τ).loc main_v79) ↦{fullShare.left} G 0) ∗ (((c : Thread nD τ).loc main_v79) ↦{fullShare.right} G 1)
          ∗ (((c : Thread nD τ).loc main_v80) ↦{fullShare} G 2)) := by
  have e : ((pdats m 2 c).arrays G : sProp 𝕄) = bigSep Finset.univ fun w : Fin cfg2.W =>
      ((cfg2.win w).arr.view.loc (c : Thread nD τ) ↦{(pdats m 2 c).share w} G w : sProp 𝕄) := by
    unfold Dat.arrays
    refine bigSep_congr fun w _ => ?_
    have hw : ((Pipeline.pin (pcfgs (F := F)) adm 2).win w).arr.view.set = Finset.univ := (arr_whole2 w).set_eq_univ
    rw [hw]
    rfl
  rw [e, bigSep_W2]
  rfl

/-- The two buffers behind the arrays, each whole at the full share. -/
theorem arrBufs2 (c : Dev nD) (V : (b : Ref sig .tc) → Buf (Elt F) ((c : Thread nD τ).loc b)) :
    (Pipeline.arrBufs spec2 c V : sProp 𝕄)
      = iprop((((c : Thread nD τ).loc main_v79) ↦{fullShare} V main_v79) ∗ (((c : Thread nD τ).loc main_v80) ↦{fullShare} V main_v80)) := by
  unfold Pipeline.arrBufs
  rw [image_arr2, bigSep_insert (by decide), bigSep_singleton]
  rfl

/-- ENTRY: the unscoped buffers at the entry contents are the call's arrays at those contents — the latent matrix's
    share halved between its two readers — and the rest. -/
theorem split2 (c : Dev nD) :
    (unscopedBufs c (atTc (W9 m) c) : sProp 𝕄)
      ⊢ iprop((pdats m 2 c).arrays ((pdats m 2 c).arrAt · 0) ∗ Pipeline.unscopedRest spec2 c (atTc (W9 m) c)) := by
  rw [Pipeline.unscopedBufs_split₀ (Pipeline.pin (pcfgs (F := F)) adm) 2 winFacts₀2.arr_unscoped c (atTc (W9 m) c)]
  refine sep_mono ?_ .rfl
  rw [show (Pipeline.pin (pcfgs (F := F)) adm 2).spec = spec2 from rfl, arrBufs2, arrays2]
  iintro ⟨Hz, Ho⟩
  ihave Hz' := (pointsTo_share (PosShare.mem_left_op_right fullShare)).1 $$ Hz
  icases Hz' with ⟨Hl, Hr⟩
  isplitl [Hl]; · iexact Hl
  isplitl [Hr]; · iexact Hr
  iexact Ho

/-- At exit the input windows' arrays still hold the entry contents, the output array the folded write-backs. -/
theorem hF2_in0 (c : Dev nD) : (pdats m 2 c).arrAt 0 cfg2.N = atTc (W9 m) c main_v79 :=
  ((dat2 (atTc (W9 m)) c).arrAt_in 0 rfl _).trans (A_eq2 (atTc (W9 m)) c 0)
theorem hF2_in1 (c : Dev nD) : (pdats m 2 c).arrAt 1 cfg2.N = atTc (W9 m) c main_v79 :=
  ((dat2 (atTc (W9 m)) c).arrAt_in 1 rfl _).trans (A_eq2 (atTc (W9 m)) c 1)

/-- EXIT: the arrays at their final contents and the rest make the unscoped buffers at the exit contents: the two
    halves of the latent matrix's share are joined, the output array is new, every other buffer is as it was. -/
theorem join2 (c : Dev nD) :
    iprop((pdats m 2 c).arrays ((pdats m 2 c).arrAt · cfg2.N) ∗ Pipeline.unscopedRest spec2 c (atTc (W9 m) c))
      ⊢ (unscopedBufs c (atTc (W10 m) c) : sProp 𝕄) := by
  rw [Pipeline.unscopedBufs_split₀ (Pipeline.pin (pcfgs (F := F)) adm) 2 winFacts₀2.arr_unscoped c (atTc (W10 m) c)]
  rw [show (Pipeline.pin (pcfgs (F := F)) adm 2).spec = spec2 from rfl, arrBufs2, arrays2]
  have hrest : (Pipeline.unscopedRest spec2 c (atTc (W9 m) c) : sProp 𝕄) = Pipeline.unscopedRest spec2 c (atTc (W10 m) c) := by
    unfold Pipeline.unscopedRest
    refine bigSep_congr fun b hb => ?_
    rw [show atTc (W10 m) c b = atTc (W9 m) c b from W10_of_ne m c b fun e =>
      (Finset.mem_sdiff.mp hb).2 (Finset.mem_image.mpr ⟨2, Finset.mem_univ _, e.symm⟩)]
  rw [hrest, hF2_in0, hF2_in1, show atTc (W10 m) c main_v79 = atTc (W9 m) c main_v79 from W10_of_ne m c main_v79 (by decide),
    show atTc (W10 m) c main_v80 = (pdats m 2 c).arrAt 2 cfg2.N from W10_out m c]
  iintro ⟨⟨Hl, Hr, Ho⟩, Hrest⟩
  isplitr [Hrest]
  · isplitl [Hl Hr]
    · iapply (pointsTo_share (PosShare.mem_left_op_right fullShare)).2
      isplitl [Hl] <;> iassumption
    iexact Ho
  iexact Hrest

set_option backward.isDefEq.respectTransparency.types false in
/-- The call's record, given the body's obligation at every grid point. -/
def reg2 (hb : ∀ c : Dev nD, BodyObligation (dat2 (F := F) (atTc (W9 m)) c) (defs₀ (F := F)) Variants.none () Set.univ) :
    Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (hb c).loose
  hwaits := Pipeline.hwaits_of_owed_zero _ _ _ _ L lv 2 fun _ _ => rfl
  pre c := bnd (W9 m) c
  post c := bnd (W10 m) c
  X c := iprop(∃ r, prngReg c r)
  Y c := iprop(∃ r, prngReg c r)
  Z c := Pipeline.unscopedRest (Ix := Unit) (Name := ℕ) (U := UR sig nD τ) (Lvl := ℕ) spec2 c (atTc (W9 m) c)
  hentry c := by
    rw [Pipeline.ownSems0_none]
    have hsplit := split2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := join2 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.Run.lean ====
/-
  The run of the main function: its ten items in order — stretches of host operations and the three Pallas calls — each
  entered from the buffer contents the one before leaves. From any memory with zero counters every weakly fair
  execution terminates, nothing faulting, and every unscoped TensorCore buffer ends at the last stage of the fold
  of contents: the result arrays at what the calls and the host operations compute, the arguments as launched.
-/
import proofs.«154195_j27152783245647_2_alg».proof.Proof.Bits.Reg0
import proofs.«154195_j27152783245647_2_alg».proof.Proof.Bits.Reg1
import proofs.«154195_j27152783245647_2_alg».proof.Proof.Bits.Reg2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The ten items as segments. -/
abbrev segs (hb0 : ∀ c : Dev nD, BodyObligation (dat0 (F := F) (atTc (W3 m)) c) (defs₀ (F := F)) Variants.none () Set.univ) (hb1 : ∀ c : Dev nD, BodyObligation (dat1 (F := F) (atTc (W7 m)) c) (defs₀ (F := F)) Variants.none () Set.univ) (hb2 : ∀ c : Dev nD, BodyObligation (dat2 (F := F) (atTc (W9 m)) c) (defs₀ (F := F)) Variants.none () Set.univ) :
    List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m hb0),
    .host (hseg hostOps1 hostOps1_sub hostOps1_fresh (W4 m)),
    .host (hseg hostOps1_1 hostOps1_1_sub hostOps1_1_fresh (W5 m)),
    .host (hseg hostOps1_2 hostOps1_2_sub hostOps1_2_fresh (W6 m)),
    .region (reg1 m hb1),
    .host (hseg hostOps2 hostOps2_sub hostOps2_fresh (W8 m)),
    .region (reg2 m hb2) ]

/-- The main function is the run of those segments. -/
theorem main_run (hb0 : ∀ c : Dev nD, BodyObligation (dat0 (F := F) (atTc (W3 m)) c) (defs₀ (F := F)) Variants.none () Set.univ) (hb1 : ∀ c : Dev nD, BodyObligation (dat1 (F := F) (atTc (W7 m)) c) (defs₀ (F := F)) Variants.none () Set.univ) (hb2 : ∀ c : Dev nD, BodyObligation (dat2 (F := F) (atTc (W9 m)) c) (defs₀ (F := F)) Variants.none () Set.univ) (c : Dev nD) :
    main (F := F) c = Pipeline.Seg.run (segs m hb0 hb1 hb2) := (main_chain c).trans (by chain_rfl)

set_option backward.isDefEq.respectTransparency.types false in
/-- THE RUN, at any float instance. -/
theorem run_all (hb0 : ∀ c : Dev nD, BodyObligation (dat0 (F := F) (atTc (W3 m)) c) (defs₀ (F := F)) Variants.none () Set.univ) (hb1 : ∀ c : Dev nD, BodyObligation (dat1 (F := F) (atTc (W7 m)) c) (defs₀ (F := F)) Variants.none () Set.univ) (hb2 : ∀ c : Dev nD, BodyObligation (dat2 (F := F) (atTc (W9 m)) c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m hb0 hb1 hb2)
    (fun c Q => by rw [main_run m hb0 hb1 hb2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => bnd (W0 m) c)
    (Tₙ := fun c => iprop(StableHlo.held (c : Thread nD τ) (Pipeline.ucRefs τ sig) (W10 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m c)
            ∗ (∃ r, prngReg c r) ∗ ∃ W, owes (c : Thread nD τ) (0 : CellTallies nD τ sig Unit) W) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.Kernel.Hand

end
-- ==== Proof.Bits.Body0.lean ====
/-
  The body of the first Pallas call, as the pipeline runs it at a grid point. The body reads its two input
  buffers whole, reads the output buffer (whose value it then ignores) and overwrites the whole output buffer
  with one value: the matrix product of the two input blocks onto a zero accumulator. So, started with each
  input buffer holding that window's block, it ends with the inputs untouched and the output buffer holding
  that product, whatever the output buffer held before. An input buffer holds its window's block at every
  point, whether or not the pipeline copied the block in at that very point: a point without a copy is one
  where the block index has not moved since the point before.
-/
import proofs.«154195_j27152783245647_2_alg».proof.Proof.Bits.Blocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What an input buffer holds when the body starts -/

/-- The first input window's buffer holds that window's block at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The second input window's buffer holds that window's block at every point; the block is the same one at
    every point, copied in once. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body's one store covers the output buffer -/

/-- The stored rectangle is the whole buffer, so every index lies in it. -/
theorem cover0_2 (p0 : Vec F S2048x64 .f32) (y : S2048x64.Idx) :
    ∃ pc ∈ ([⟨rO0, p0⟩] : List (View.Piece (Elt F) S2048x64 .f32)), y ∈ pc.1.set :=
  View.cover_of_tiled [⟨rO0, p0⟩] S2048x64.size (by rfl) y

/-! ## The body's triple -/

set_option maxHeartbeats 1000000 in
/-- The body on three whole buffers, the inputs at contents `x0`, `x1` and the output at anything, runs to the
    continuation with the inputs as they were and the output at `out0_2 x0 x1`. -/
theorem sound_kernel0 (c : Dev nD) (E : Set ℕ) (i : grid0.Coords)
    (arg1 : Memref sig .tc .vmem S2048x128 .bf16) (harg1 : arg1.IsWhole)
    (arg2 : Memref sig .tc .vmem S128x64 .bf16) (harg2 : arg2.IsWhole)
    (arg3 : Memref sig .tc .vmem S2048x64 .f32) (harg3 : arg3.IsWhole)
    (x0 : Vec F S2048x128 .bf16) (x1 : Vec F S128x64 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body at a grid point -/

/-- What the body is called with at point `t`: the invariant, the core's debts, and the three current buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: each input buffer holds its block, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for the first call, at every point. -/
theorem body_obligation0 (V : (c : Dev nD) → (b : Ref sig .tc) → Buf (Elt F) ((c : Thread nD τ).loc b)) (c : Dev nD) :
    Pipeline.BodyObligation (dat0 (F := F) V c) (defs₀ (F := F)) Variants.none () Set.univ := fun t => by
  rw [bigSep_W0, bigSep_W0]
  exact sound_body0 V c t

end Cert.Kernel.Hand

end
-- ==== Proof.Bits.Body1.lean ====
/-
  The body of the second Pallas call, as the pipeline runs it at a grid point. The body reads its two input
  buffers whole, reads the output buffer (whose value it then ignores) and overwrites the whole output buffer
  with one value: the matrix product of the two input blocks onto a zero accumulator. So, started with each
  input buffer holding that window's block, it ends with the inputs untouched and the output buffer holding
  that product, whatever the output buffer held before. An input buffer holds its window's block at every
  point, whether or not the pipeline copied the block in at that very point: a point without a copy is one
  where the block index has not moved since the point before.
-/
import proofs.«154195_j27152783245647_2_alg».proof.Proof.Bits.Blocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What an input buffer holds when the body starts -/

/-- The first input window's buffer holds that window's block at every point. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The second input window's buffer holds that window's block at every point; the block is the same one at
    every point, copied in once. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body's one store covers the output buffer -/

/-- The stored rectangle is the whole buffer, so every index lies in it. -/
theorem cover1_2 (p0 : Vec F S2048x64 .f32) (y : S2048x64.Idx) :
    ∃ pc ∈ ([⟨rO1, p0⟩] : List (View.Piece (Elt F) S2048x64 .f32)), y ∈ pc.1.set :=
  View.cover_of_tiled [⟨rO1, p0⟩] S2048x64.size (by rfl) y

/-! ## The body's triple -/

set_option maxHeartbeats 1000000 in
/-- The body on three whole buffers, the inputs at contents `x0`, `x1` and the output at anything, runs to the
    continuation with the inputs as they were and the output at `out1_2 x0 x1`. -/
theorem sound_kernel1 (c : Dev nD) (E : Set ℕ) (i : grid1.Coords)
    (arg1 : Memref sig .tc .vmem S2048x64 .bf16) (harg1 : arg1.IsWhole)
    (arg2 : Memref sig .tc .vmem S64x64 .bf16) (harg2 : arg2.IsWhole)
    (arg3 : Memref sig .tc .vmem S2048x64 .f32) (harg3 : arg3.IsWhole)
    (x0 : Vec F S2048x64 .bf16) (x1 : Vec F S64x64 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body at a grid point -/

/-- What the body is called with at point `t`: the invariant, the core's debts, and the three current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: each input buffer holds its block, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for the second call, at every point. -/
theorem body_obligation1 (V : (c : Dev nD) → (b : Ref sig .tc) → Buf (Elt F) ((c : Thread nD τ).loc b)) (c : Dev nD) :
    Pipeline.BodyObligation (dat1 (F := F) V c) (defs₀ (F := F)) Variants.none () Set.univ := fun t => by
  rw [bigSep_W1, bigSep_W1]
  exact sound_body1 V c t

end Cert.Kernel.Hand

end
-- ==== Proof.Bits.Body2.lean ====
/-
  The body of the third Pallas call, as the pipeline runs it at a grid point. The body reads its two input
  buffers whole (a tile of rows and a tile of columns of one and the same matrix), reads the output buffer
  (whose value it then ignores) and overwrites the whole output buffer with one value: the product of the two
  blocks contracted over the last axis of both, onto a zero accumulator, passed through the logistic function.
  So, started with each input buffer holding that window's block, it ends with the inputs untouched and the
  output buffer holding that value, whatever the output buffer held before. An input buffer holds its
  window's block at every point, whether or not the pipeline copied the block in at that very point: a point
  without a copy is one where the block index has not moved since the point before. The buffers are owned
  whole, whatever share of the underlying matrix each window holds.
-/
import proofs.«154195_j27152783245647_2_alg».proof.Proof.Bits.Blocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What an input buffer holds when the body starts -/

/-- The row window's buffer holds that window's block at every point; the block changes only when the row tile
    does, and is copied in only then. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The column window's buffer holds that window's block at every point. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-! ## The body's one store covers the output buffer -/

/-- The stored rectangle is the whole buffer, so every index lies in it. -/
theorem cover2_2 (p0 : Vec F S2048x1024 .f32) (y : S2048x1024.Idx) :
    ∃ pc ∈ ([⟨rO2, p0⟩] : List (View.Piece (Elt F) S2048x1024 .f32)), y ∈ pc.1.set :=
  View.cover_of_tiled [⟨rO2, p0⟩] S2048x1024.size (by rfl) y

/-! ## The body's triple -/

set_option maxHeartbeats 1000000 in
/-- The body on three whole buffers, the inputs at contents `x0`, `x1` and the output at anything, runs to the
    continuation with the inputs as they were and the output at `out2_2 x0 x1`. -/
theorem sound_kernel2 (c : Dev nD) (E : Set ℕ) (i : grid2.Coords)
    (arg1 : Memref sig .tc .vmem S2048x32 .bf16) (harg1 : arg1.IsWhole)
    (arg2 : Memref sig .tc .vmem S1024x32 .bf16) (harg2 : arg2.IsWhole)
    (arg3 : Memref sig .tc .vmem S2048x1024 .f32) (harg3 : arg3.IsWhole)
    (x0 : Vec F S2048x32 .bf16) (x1 : Vec F S1024x32 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__decode_kernel i arg1 harg1 arg2 harg2 arg3 harg3) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body at a grid point -/

/-- What the body is called with at point `t`: the invariant, the core's debts, and the three current buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: each input buffer holds its block, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for the third call, at every point. -/
theorem body_obligation2 (V : (c : Dev nD) → (b : Ref sig .tc) → Buf (Elt F) ((c : Thread nD τ).loc b)) (c : Dev nD) :
    Pipeline.BodyObligation (dat2 (F := F) V c) (defs₀ (F := F)) Variants.none () Set.univ := fun t => by
  rw [bigSep_W2, bigSep_W2]
  exact sound_body2 V c t

end Cert.Kernel.Hand

end
-- ==== Proof.Bits.KRun.lean ====
/-
  The run of the main function with the three kernel bodies' obligations supplied, and what follows from it for
  the argument arrays: nothing writes them, so every execution ends with each of them as launched.
-/
import proofs.«154195_j27152783245647_2_alg».proof.Proof.Bits.Run
import proofs.«154195_j27152783245647_2_alg».proof.Proof.Bits.Body0
import proofs.«154195_j27152783245647_2_alg».proof.Proof.Bits.Body1
import proofs.«154195_j27152783245647_2_alg».proof.Proof.Bits.Body2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- Every weakly fair execution terminates, nothing faulting, with every unscoped TensorCore buffer at the last stage
    of the fold of contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  run_all m ρ (body_obligation0 (atTc (W3 m))) (body_obligation1 (atTc (W7 m))) (body_obligation2 (atTc (W9 m)))

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun _ h c => ⟨(h c _ (mem_uc main_arg0 (by decide))).trans (W10_kept m c main_arg0 (by decide) (by decide) (by decide) (by decide) (by decide) (by decide) (by decide) (by decide) (by decide) (by decide)),
    (h c _ (mem_uc main_arg1 (by decide))).trans (W10_kept m c main_arg1 (by decide) (by decide) (by decide) (by decide) (by decide) (by decide) (by decide) (by decide) (by decide) (by decide)),
    (h c _ (mem_uc main_arg2 (by decide))).trans (W10_kept m c main_arg2 (by decide) (by decide) (by decide) (by decide) (by decide) (by decide) (by decide) (by decide) (by decide) (by decide)),
    (h c _ (mem_uc main_arg3 (by decide))).trans (W10_kept m c main_arg3 (by decide) (by decide) (by decide) (by decide) (by decide) (by decide) (by decide) (by decide) (by decide) (by decide)),
    (h c _ (mem_uc main_arg4 (by decide))).trans (W10_kept m c main_arg4 (by decide) (by decide) (by decide) (by decide) (by decide) (by decide) (by decide) (by decide) (by decide) (by decide)),
    (h c _ (mem_uc main_arg5 (by decide))).trans (W10_kept m c main_arg5 (by decide) (by decide) (by decide) (by decide) (by decide) (by decide) (by decide) (by decide) (by decide) (by decide)),
    (h c _ (mem_uc main_arg6 (by decide))).trans (W10_kept m c main_arg6 (by decide) (by decide) (by decide) (by decide) (by decide) (by decide) (by decide) (by decide) (by decide) (by decide)),
    (h c _ (mem_uc main_arg7 (by decide))).trans (W10_kept m c main_arg7 (by decide) (by decide) (by decide) (by decide) (by decide) (by decide) (by decide) (by decide) (by decide) (by decide)),
    (h c _ (mem_uc main_arg8 (by decide))).trans (W10_kept m c main_arg8 (by decide) (by decide) (by decide) (by decide) (by decide) (by decide) (by decide) (by decide) (by decide) (by decide))⟩) (run_main m ρ)

end Cert.Kernel.Hand

end
-- ==== Proof.Blocks.lean ====
/-
  The three Pallas calls of the program, each as data for the pipeline rules: the block of every operand at a
  grid point, what the kernel body leaves in the output buffer (one matrix product of the two input blocks,
  followed in the last call by the logistic function), and the proof data built from them. Everything is
  stated at any float instance, over the buffer contents `V` the call is entered with.
  In the last call both input windows read ONE array (the latent matrix, once by row tile and once by
  column tile), so each of the two holds half of that array's read share.
-/
import proofs.«154195_j27152783245647_2_alg».proof.Proof.Gen.KernelIdeal.Launch
import proofs.«154195_j27152783245647_2_alg».proof.Proof.Gen.KernelIdeal.Skeleton
import proofs.«154195_j27152783245647_2_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open Idealize.SL.Sem
open Idealize.ShloMosaic.Rounds
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-! ## Pallas call 0 -/

/-- Window `w`'s block at grid point `t`, cut out of the array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rL0 : Rect S2048x128 := Rect.unit (s := S2048x128) ![0, 0] S2048x128.size inb_S2048x128_S2048x128_0_0
abbrev rR0 : Rect S128x64 := Rect.unit (s := S128x64) ![0, 0] S128x64.size inb_S128x64_S128x64_0_0
abbrev rO0 : Rect S2048x64 := Rect.unit (s := S2048x64) ![0, 0] S2048x64.size inb_S2048x64_S2048x64_0_0

/-- What the body leaves in the output window's buffer, from the two input blocks: its one store, of the product
    payload of the two loaded blocks, over the whole buffer. -/
def out0_2 (x0 : Vec F S2048x128 .bf16) (x1 : Vec F S128x64 .bf16) : Vec F S2048x64 .f32 :=
  View.canon [⟨rO0, k0_pay1 (View.ld x0 rL0) (View.ld x1 rR0)⟩]

/-- The call's proof data on core `c`: the arrays as the call finds them; after the body at point `t` each input
    buffer still at its block and the output buffer at `out0_2` of the two input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-! ## Pallas call 1 -/

/-- Window `w`'s block at grid point `t`, cut out of the array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rL1 : Rect S2048x64 := Rect.unit (s := S2048x64) ![0, 0] S2048x64.size inb_S2048x64_S2048x64_0_0
abbrev rR1 : Rect S64x64 := Rect.unit (s := S64x64) ![0, 0] S64x64.size inb_S64x64_S64x64_0_0
abbrev rO1 : Rect S2048x64 := Rect.unit (s := S2048x64) ![0, 0] S2048x64.size inb_S2048x64_S2048x64_0_0

/-- What the body leaves in the output window's buffer, from the two input blocks: its one store, of the product
    payload of the two loaded blocks, over the whole buffer. -/
def out1_2 (x0 : Vec F S2048x64 .bf16) (x1 : Vec F S64x64 .bf16) : Vec F S2048x64 .f32 :=
  View.canon [⟨rO1, k1_pay1 (View.ld x0 rL1) (View.ld x1 rR1)⟩]

/-- The call's proof data on core `c`: the arrays as the call finds them; after the body at point `t` each input
    buffer still at its block and the output buffer at `out1_2` of the two input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-! ## Pallas call 2 -/

/-- Window `w`'s block at grid point `t`, cut out of the array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev rL2 : Rect S2048x32 := Rect.unit (s := S2048x32) ![0, 0] S2048x32.size inb_S2048x32_S2048x32_0_0
abbrev rR2 : Rect S1024x32 := Rect.unit (s := S1024x32) ![0, 0] S1024x32.size inb_S1024x32_S1024x32_0_0
abbrev rO2 : Rect S2048x1024 := Rect.unit (s := S2048x1024) ![0, 0] S2048x1024.size inb_S2048x1024_S2048x1024_0_0

/-- What the body leaves in the output window's buffer, from the two input blocks: its one store, of the product
    payload of the two loaded blocks, over the whole buffer. -/
def out2_2 (x0 : Vec F S2048x32 .bf16) (x1 : Vec F S1024x32 .bf16) : Vec F S2048x1024 .f32 :=
  View.canon [⟨rO2, k2_pay1 (View.ld x0 rL2) (View.ld x1 rR2)⟩]

/-- The call's proof data on core `c`: the arrays as the call finds them; after the body at point `t` each input
    buffer still at its block and the output buffer at `out2_2` of the two input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

end Cert.KernelIdeal.Hand

end
-- ==== Proof.Fold.lean ====
/-
  The contents of every TensorCore buffer at each boundary between two items of the program's main function, as
  a fold from the launch memory: a stretch of host operations applies them in order; a Pallas call replaces its
  output array by what its blocks' write-backs leave and keeps every other buffer. The last stage is what the
  whole run leaves in memory; the argument arrays come through unchanged because nothing writes them.
-/
import proofs.«154195_j27152783245647_2_alg».proof.Proof.Blocks
import proofs.«154195_j27152783245647_2_alg».proof.Proof.Gen.KernelIdeal.Regions

set_option maxRecDepth 16384

noncomputable section

namespace Cert.KernelIdeal.Hand

open Idealize.ShloMosaic Idealize.ShloMosaic.TcCoe
open Idealize.SL Idealize.SL.RA Idealize.SL.BI
open Idealize.SL.Sem
open Idealize.ShloMosaic.Rounds
open Idealize.ShloMosaic.Pipeline (Dat Cfg Window)
open Cert.KernelIdeal Cert.KernelIdeal.Gen

variable {F : FTy → Type} [FloatOps F]
variable (m : (ℓ : Loc nD τ sig) → Buf (Elt F) ℓ)

/-- A valuation read at the TensorCore's references: the form a Pallas call's proof data take. -/
abbrev atTc (W : Dev nD → Valuation τ sig (Elt F)) : (c : Dev nD) → (b : Ref sig .tc) → Buf (Elt F) ((c : Thread nD τ).loc b) :=
  fun c b => W c b

/-- At launch. -/
abbrev W0 : Dev nD → Valuation τ sig (Elt F) := fun c b => m ((c : Dev nD), b)
/-- After the first three stretches of host operations (edge weights, the bf16 copies): the first call's entry. -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- The first call's output array, as its eight row blocks' write-backs leave it. -/
def res0 (c : Dev nD) : Buf (Elt F) ((c : Thread nD τ).loc main_v33) := (dat0 (atTc (W3 m)) c).arrAt 2 cfg0.N
/-- After the first call: its output array replaced, every other buffer kept. -/
def W4 : Dev nD → Valuation τ sig (Elt F) := fun c => Function.update (W3 m c) (Proc.devRef .tc main_v33) (res0 m c)
/-- After the first layer's aggregation, bias, rectifier and the second call's operands: the second call's entry. -/
abbrev W5 : Dev nD → Valuation τ sig (Elt F) := fun c => StableHlo.after hostOps1 (W4 m c)
abbrev W6 : Dev nD → Valuation τ sig (Elt F) := fun c => StableHlo.after hostOps1_1 (W5 m c)
abbrev W7 : Dev nD → Valuation τ sig (Elt F) := fun c => StableHlo.after hostOps1_2 (W6 m c)
/-- The second call's output array. -/
def res1 (c : Dev nD) : Buf (Elt F) ((c : Thread nD τ).loc main_v54) := (dat1 (atTc (W7 m)) c).arrAt 2 cfg1.N
def W8 : Dev nD → Valuation τ sig (Elt F) := fun c => Function.update (W7 m c) (Proc.devRef .tc main_v54) (res1 m c)
/-- After the second layer's aggregation, the two heads and the sampled latent matrix: the third call's entry. -/
abbrev W9 : Dev nD → Valuation τ sig (Elt F) := fun c => StableHlo.after hostOps2 (W8 m c)
/-- The third call's output array, as its 128 tiles' write-backs leave it. -/
def res2 (c : Dev nD) : Buf (Elt F) ((c : Thread nD τ).loc main_v80) := (dat2 (atTc (W9 m)) c).arrAt 2 cfg2.N
/-- At the end of the run. -/
def W10 : Dev nD → Valuation τ sig (Elt F) := fun c => Function.update (W9 m c) (Proc.devRef .tc main_v80) (res2 m c)

theorem W4_out (c : Dev nD) : W4 m c (Proc.devRef .tc main_v33) = res0 m c := by unfold W4; exact Function.update_self ..
theorem W4_of_ne (c : Dev nD) (b : Ref sig .tc) (hb : b ≠ main_v33) : W4 m c (Proc.devRef .tc b) = W3 m c (Proc.devRef .tc b) := by
  unfold W4; exact Function.update_of_ne (StableHlo.devRef_ne_of_ne hb) ..
theorem W8_out (c : Dev nD) : W8 m c (Proc.devRef .tc main_v54) = res1 m c := by unfold W8; exact Function.update_self ..
theorem W8_of_ne (c : Dev nD) (b : Ref sig .tc) (hb : b ≠ main_v54) : W8 m c (Proc.devRef .tc b) = W7 m c (Proc.devRef .tc b) := by
  unfold W8; exact Function.update_of_ne (StableHlo.devRef_ne_of_ne hb) ..
theorem W10_out (c : Dev nD) : W10 m c (Proc.devRef .tc main_v80) = res2 m c := by unfold W10; exact Function.update_self ..
theorem W10_of_ne (c : Dev nD) (b : Ref sig .tc) (hb : b ≠ main_v80) : W10 m c (Proc.devRef .tc b) = W9 m c (Proc.devRef .tc b) := by
  unfold W10; exact Function.update_of_ne (StableHlo.devRef_ne_of_ne hb) ..

/-- A buffer that no host operation writes and that is no call's output array ends as launched. -/
theorem W10_kept (c : Dev nD) (r : Ref sig .tc)
    (h0 : r ∉ hostOps0_W) (h1 : r ∉ hostOps0_1_W) (h2 : r ∉ hostOps0_2_W) (h3 : r ≠ main_v33)
    (h4 : r ∉ hostOps1_W) (h5 : r ∉ hostOps1_1_W) (h6 : r ∉ hostOps1_2_W) (h7 : r ≠ main_v54)
    (h8 : r ∉ hostOps2_W) (h9 : r ≠ main_v80) :
    W10 m c (Proc.devRef .tc r) = m ((c : Thread nD τ).loc r) :=
  (W10_of_ne m c r h9).trans <| (StableHlo.after_of_writes_sub hostOps2 _ hostOps2_writes h8).trans <|
  (W8_of_ne m c r h7).trans <| (StableHlo.after_of_writes_sub hostOps1_2 _ hostOps1_2_writes h6).trans <|
  (StableHlo.after_of_writes_sub hostOps1_1 _ hostOps1_1_writes h5).trans <|
  (StableHlo.after_of_writes_sub hostOps1 _ hostOps1_writes h4).trans <|
  (W4_of_ne m c r h3).trans <| (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

end Cert.KernelIdeal.Hand

end
-- ==== Proof.Pdats.lean ====
/-
  What is common to the three Pallas calls' records in the run of the main function: every call's proof data at the
  buffer contents it is entered with, the thread state that rides beside the buffers between two items (the core's
  generator register at some state, nothing owed to any other core), and a stretch of host operations as a segment.
-/
import proofs.«154195_j27152783245647_2_alg».proof.Proof.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Every call's proof data, each at its entry contents — a literal match on the call's number, so that the call's
    configuration at a numeral is the printed one. -/
def pdats : (p : Fin 3) → (c : Dev nD) → Dat τ (Elt F) Unit ℕ (UR sig nD τ) ℕ (Pipeline.pin (pcfgs (F := F)) adm p) c
  | ⟨0, _⟩ => fun c => dat0 (atTc (W3 m)) c
  | ⟨1, _⟩ => fun c => dat1 (atTc (W7 m)) c
  | ⟨2, _⟩ => fun c => dat2 (atTc (W9 m)) c

abbrev 𝒱₀ : Variants := Variants.none
/-- No core waits on another: no level is assigned. -/
abbrev L : GSem nD τ sig → Finset Unit := fun _ => ∅
abbrev lv : GSem nD τ sig → Unit → ℕ := fun _ _ => 0

/-- What rides beside the buffers through every item: the generator register at some state, and nothing owed. -/
abbrev R (c : Dev nD) : sProp 𝕄 := iprop((∃ r, prngReg c r) ∗ ∃ W, owes (c : Thread nD τ) (0 : CellTallies nD τ sig Unit) W)

/-- A stretch of host operations as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore buffer is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The state a call is entered from or left at: every unscoped buffer at the boundary's contents, beside `R`. -/
abbrev bnd (W : Dev nD → Valuation τ sig (Elt F)) (c : Dev nD) : sProp 𝕄 :=
  iprop(StableHlo.held (c : Thread nD τ) (Pipeline.ucRefs τ sig) (W c) ∗ R c)

end Cert.KernelIdeal.Hand

end
-- ==== Proof.Reg0.lean ====
/-
  Pallas call 0 as an item of the run: entered with every unscoped buffer at the contents before it, left with the
  call's output array replaced by what the blocks' write-backs leave and every other buffer as it was. Its three
  arrays are split out of the unscoped buffers at entry and put back at exit; the generator register passes through
  the kernel's invariant; nothing is owed and the kernel has no semaphore of its own.
-/
import proofs.«154195_j27152783245647_2_alg».proof.Proof.Pdats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At exit each of the call's arrays holds what the pipeline leaves: an input array its entry contents, the
    output array the folded write-backs. -/
theorem hF0 (c : Dev nD) : ∀ w : Fin cfg0.W, (pdats m 0 c).arrAt w cfg0.N = atTc (W4 m) c (Pipeline.arrRef spec0 w)
  | ⟨0, _⟩ => ((dat0 (atTc (W3 m)) c).arrAt_in 0 rfl _).trans ((A_eq0 (atTc (W3 m)) c 0).trans (W4_of_ne m c main_v31 (by decide)).symm)
  | ⟨1, _⟩ => ((dat0 (atTc (W3 m)) c).arrAt_in 1 rfl _).trans ((A_eq0 (atTc (W3 m)) c 1).trans (W4_of_ne m c main_v32 (by decide)).symm)
  | ⟨2, _⟩ => (W4_out m c).symm

/-- Every buffer that is none of the call's arrays is left as it was. -/
theorem hrest0 (c : Dev nD) : ∀ b, b ∉ Finset.univ.image (Pipeline.arrRef spec0) → atTc (W4 m) c b = atTc (W3 m) c b :=
  fun b hb => W4_of_ne m c b fun e => hb (Finset.mem_image.mpr ⟨2, Finset.mem_univ _, e.symm⟩)

set_option backward.isDefEq.respectTransparency.types false in
/-- The call's record, given the body's obligation at every grid point. -/
def reg0 (hb : ∀ c : Dev nD, BodyObligation (dat0 (F := F) (atTc (W3 m)) c) (defs₀ (F := F)) Variants.none () Set.univ) :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ L lv 0 fun _ _ => rfl
  pre c := bnd (W3 m) c
  post c := bnd (W4 m) c
  X c := iprop(∃ r, prngReg c r)
  Y c := iprop(∃ r, prngReg c r)
  Z c := Pipeline.unscopedRest (Ix := Unit) (Name := ℕ) (U := UR sig nD τ) (Lvl := ℕ) spec0 c (atTc (W3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W3 m) c) (atTc (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg1.lean ====
/-
  Pallas call 1 as an item of the run: entered with every unscoped buffer at the contents before it, left with the
  call's output array replaced by what the blocks' write-backs leave and every other buffer as it was. Its three
  arrays are split out of the unscoped buffers at entry and put back at exit; the generator register passes through
  the kernel's invariant; nothing is owed and the kernel has no semaphore of its own.
-/
import proofs.«154195_j27152783245647_2_alg».proof.Proof.Pdats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At exit each of the call's arrays holds what the pipeline leaves: an input array its entry contents, the
    output array the folded write-backs. -/
theorem hF1 (c : Dev nD) : ∀ w : Fin cfg1.W, (pdats m 1 c).arrAt w cfg1.N = atTc (W8 m) c (Pipeline.arrRef spec1 w)
  | ⟨0, _⟩ => ((dat1 (atTc (W7 m)) c).arrAt_in 0 rfl _).trans ((A_eq1 (atTc (W7 m)) c 0).trans (W8_of_ne m c main_v52 (by decide)).symm)
  | ⟨1, _⟩ => ((dat1 (atTc (W7 m)) c).arrAt_in 1 rfl _).trans ((A_eq1 (atTc (W7 m)) c 1).trans (W8_of_ne m c main_v53 (by decide)).symm)
  | ⟨2, _⟩ => (W8_out m c).symm

/-- Every buffer that is none of the call's arrays is left as it was. -/
theorem hrest1 (c : Dev nD) : ∀ b, b ∉ Finset.univ.image (Pipeline.arrRef spec1) → atTc (W8 m) c b = atTc (W7 m) c b :=
  fun b hb => W8_of_ne m c b fun e => hb (Finset.mem_image.mpr ⟨2, Finset.mem_univ _, e.symm⟩)

set_option backward.isDefEq.respectTransparency.types false in
/-- The call's record, given the body's obligation at every grid point. -/
def reg1 (hb : ∀ c : Dev nD, BodyObligation (dat1 (F := F) (atTc (W7 m)) c) (defs₀ (F := F)) Variants.none () Set.univ) :
    Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ L lv 1 fun _ _ => rfl
  pre c := bnd (W7 m) c
  post c := bnd (W8 m) c
  X c := iprop(∃ r, prngReg c r)
  Y c := iprop(∃ r, prngReg c r)
  Z c := Pipeline.unscopedRest (Ix := Unit) (Name := ℕ) (U := UR sig nD τ) (Lvl := ℕ) spec1 c (atTc (W7 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W7 m) c) (atTc (W8 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg2.lean ====
/-
  Pallas call 2 (the decoder) as an item of the run. Its two input windows read ONE array, the latent matrix — once by
  row tile, once by column tile — so at entry that buffer's full share is split into two halves, one per window, and
  at exit the halves, both still at the entry contents, are joined again. The output array is held whole. Everything
  else is as for the first two calls.
-/
import proofs.«154195_j27152783245647_2_alg».proof.Proof.Pdats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The buffers behind the call's three arrays are two: the latent matrix and the output. -/
theorem image_arr2 : Finset.univ.image (Pipeline.arrRef spec2) = {main_v79, main_v80} := by decide

/-- The call's arrays, window by window: the latent matrix at the left half share, the same buffer at the right half
    share, the output array at the full share. -/
theorem arrays2 (c : Dev nD) (G : (w : Fin cfg2.W) → Buf (Elt F) ((cfg2.win w).arr.view.loc (c : Thread nD τ))) :
    ((pdats m 2 c).arrays G : sProp 𝕄)
      = iprop((((c : Thread nD τ).loc main_v79) ↦{fullShare.left} G 0) ∗ (((c : Thread nD τ).loc main_v79) ↦{fullShare.right} G 1)
          ∗ (((c : Thread nD τ).loc main_v80) ↦{fullShare} G 2)) := by
  have e : ((pdats m 2 c).arrays G : sProp 𝕄) = bigSep Finset.univ fun w : Fin cfg2.W =>
      ((cfg2.win w).arr.view.loc (c : Thread nD τ) ↦{(pdats m 2 c).share w} G w : sProp 𝕄) := by
    unfold Dat.arrays
    refine bigSep_congr fun w _ => ?_
    have hw : ((Pipeline.pin (pcfgs (F := F)) adm 2).win w).arr.view.set = Finset.univ := (arr_whole2 w).set_eq_univ
    rw [hw]
    rfl
  rw [e, bigSep_W2]
  rfl

/-- The two buffers behind the arrays, each whole at the full share. -/
theorem arrBufs2 (c : Dev nD) (V : (b : Ref sig .tc) → Buf (Elt F) ((c : Thread nD τ).loc b)) :
    (Pipeline.arrBufs spec2 c V : sProp 𝕄)
      = iprop((((c : Thread nD τ).loc main_v79) ↦{fullShare} V main_v79) ∗ (((c : Thread nD τ).loc main_v80) ↦{fullShare} V main_v80)) := by
  unfold Pipeline.arrBufs
  rw [image_arr2, bigSep_insert (by decide), bigSep_singleton]
  rfl

/-- ENTRY: the unscoped buffers at the entry contents are the call's arrays at those contents — the latent matrix's
    share halved between its two readers — and the rest. -/
theorem split2 (c : Dev nD) :
    (unscopedBufs c (atTc (W9 m) c) : sProp 𝕄)
      ⊢ iprop((pdats m 2 c).arrays ((pdats m 2 c).arrAt · 0) ∗ Pipeline.unscopedRest spec2 c (atTc (W9 m) c)) := by
  rw [Pipeline.unscopedBufs_split₀ (Pipeline.pin (pcfgs (F := F)) adm) 2 winFacts₀2.arr_unscoped c (atTc (W9 m) c)]
  refine sep_mono ?_ .rfl
  rw [show (Pipeline.pin (pcfgs (F := F)) adm 2).spec = spec2 from rfl, arrBufs2, arrays2]
  iintro ⟨Hz, Ho⟩
  ihave Hz' := (pointsTo_share (PosShare.mem_left_op_right fullShare)).1 $$ Hz
  icases Hz' with ⟨Hl, Hr⟩
  isplitl [Hl]; · iexact Hl
  isplitl [Hr]; · iexact Hr
  iexact Ho

/-- At exit the input windows' arrays still hold the entry contents, the output array the folded write-backs. -/
theorem hF2_in0 (c : Dev nD) : (pdats m 2 c).arrAt 0 cfg2.N = atTc (W9 m) c main_v79 :=
  ((dat2 (atTc (W9 m)) c).arrAt_in 0 rfl _).trans (A_eq2 (atTc (W9 m)) c 0)
theorem hF2_in1 (c : Dev nD) : (pdats m 2 c).arrAt 1 cfg2.N = atTc (W9 m) c main_v79 :=
  ((dat2 (atTc (W9 m)) c).arrAt_in 1 rfl _).trans (A_eq2 (atTc (W9 m)) c 1)

/-- EXIT: the arrays at their final contents and the rest make the unscoped buffers at the exit contents: the two
    halves of the latent matrix's share are joined, the output array is new, every other buffer is as it was. -/
theorem join2 (c : Dev nD) :
    iprop((pdats m 2 c).arrays ((pdats m 2 c).arrAt · cfg2.N) ∗ Pipeline.unscopedRest spec2 c (atTc (W9 m) c))
      ⊢ (unscopedBufs c (atTc (W10 m) c) : sProp 𝕄) := by
  rw [Pipeline.unscopedBufs_split₀ (Pipeline.pin (pcfgs (F := F)) adm) 2 winFacts₀2.arr_unscoped c (atTc (W10 m) c)]
  rw [show (Pipeline.pin (pcfgs (F := F)) adm 2).spec = spec2 from rfl, arrBufs2, arrays2]
  have hrest : (Pipeline.unscopedRest spec2 c (atTc (W9 m) c) : sProp 𝕄) = Pipeline.unscopedRest spec2 c (atTc (W10 m) c) := by
    unfold Pipeline.unscopedRest
    refine bigSep_congr fun b hb => ?_
    rw [show atTc (W10 m) c b = atTc (W9 m) c b from W10_of_ne m c b fun e =>
      (Finset.mem_sdiff.mp hb).2 (Finset.mem_image.mpr ⟨2, Finset.mem_univ _, e.symm⟩)]
  rw [hrest, hF2_in0, hF2_in1, show atTc (W10 m) c main_v79 = atTc (W9 m) c main_v79 from W10_of_ne m c main_v79 (by decide),
    show atTc (W10 m) c main_v80 = (pdats m 2 c).arrAt 2 cfg2.N from W10_out m c]
  iintro ⟨⟨Hl, Hr, Ho⟩, Hrest⟩
  isplitr [Hrest]
  · isplitl [Hl Hr]
    · iapply (pointsTo_share (PosShare.mem_left_op_right fullShare)).2
      isplitl [Hl] <;> iassumption
    iexact Ho
  iexact Hrest

set_option backward.isDefEq.respectTransparency.types false in
/-- The call's record, given the body's obligation at every grid point. -/
def reg2 (hb : ∀ c : Dev nD, BodyObligation (dat2 (F := F) (atTc (W9 m)) c) (defs₀ (F := F)) Variants.none () Set.univ) :
    Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (hb c).loose
  hwaits := Pipeline.hwaits_of_owed_zero _ _ _ _ L lv 2 fun _ _ => rfl
  pre c := bnd (W9 m) c
  post c := bnd (W10 m) c
  X c := iprop(∃ r, prngReg c r)
  Y c := iprop(∃ r, prngReg c r)
  Z c := Pipeline.unscopedRest (Ix := Unit) (Name := ℕ) (U := UR sig nD τ) (Lvl := ℕ) spec2 c (atTc (W9 m) c)
  hentry c := by
    rw [Pipeline.ownSems0_none]
    have hsplit := split2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := join2 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Run.lean ====
/-
  The run of the main function: its ten items in order — stretches of host operations and the three Pallas calls — each
  entered from the buffer contents the one before leaves. From any memory with zero counters every weakly fair
  execution terminates, nothing faulting, and every unscoped TensorCore buffer ends at the last stage of the fold
  of contents: the result arrays at what the calls and the host operations compute, the arguments as launched.
-/
import proofs.«154195_j27152783245647_2_alg».proof.Proof.Reg0
import proofs.«154195_j27152783245647_2_alg».proof.Proof.Reg1
import proofs.«154195_j27152783245647_2_alg».proof.Proof.Reg2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The ten items as segments. -/
abbrev segs (hb0 : ∀ c : Dev nD, BodyObligation (dat0 (F := F) (atTc (W3 m)) c) (defs₀ (F := F)) Variants.none () Set.univ) (hb1 : ∀ c : Dev nD, BodyObligation (dat1 (F := F) (atTc (W7 m)) c) (defs₀ (F := F)) Variants.none () Set.univ) (hb2 : ∀ c : Dev nD, BodyObligation (dat2 (F := F) (atTc (W9 m)) c) (defs₀ (F := F)) Variants.none () Set.univ) :
    List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m hb0),
    .host (hseg hostOps1 hostOps1_sub hostOps1_fresh (W4 m)),
    .host (hseg hostOps1_1 hostOps1_1_sub hostOps1_1_fresh (W5 m)),
    .host (hseg hostOps1_2 hostOps1_2_sub hostOps1_2_fresh (W6 m)),
    .region (reg1 m hb1),
    .host (hseg hostOps2 hostOps2_sub hostOps2_fresh (W8 m)),
    .region (reg2 m hb2) ]

/-- The main function is the run of those segments. -/
theorem main_run (hb0 : ∀ c : Dev nD, BodyObligation (dat0 (F := F) (atTc (W3 m)) c) (defs₀ (F := F)) Variants.none () Set.univ) (hb1 : ∀ c : Dev nD, BodyObligation (dat1 (F := F) (atTc (W7 m)) c) (defs₀ (F := F)) Variants.none () Set.univ) (hb2 : ∀ c : Dev nD, BodyObligation (dat2 (F := F) (atTc (W9 m)) c) (defs₀ (F := F)) Variants.none () Set.univ) (c : Dev nD) :
    main (F := F) c = Pipeline.Seg.run (segs m hb0 hb1 hb2) := (main_chain c).trans (by chain_rfl)

set_option backward.isDefEq.respectTransparency.types false in
/-- THE RUN, at any float instance. -/
theorem run_all (hb0 : ∀ c : Dev nD, BodyObligation (dat0 (F := F) (atTc (W3 m)) c) (defs₀ (F := F)) Variants.none () Set.univ) (hb1 : ∀ c : Dev nD, BodyObligation (dat1 (F := F) (atTc (W7 m)) c) (defs₀ (F := F)) Variants.none () Set.univ) (hb2 : ∀ c : Dev nD, BodyObligation (dat2 (F := F) (atTc (W9 m)) c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m hb0 hb1 hb2)
    (fun c Q => by rw [main_run m hb0 hb1 hb2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => bnd (W0 m) c)
    (Tₙ := fun c => iprop(StableHlo.held (c : Thread nD τ) (Pipeline.ucRefs τ sig) (W10 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m c)
            ∗ (∃ r, prngReg c r) ∗ ∃ W, owes (c : Thread nD τ) (0 : CellTallies nD τ sig Unit) W) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.KernelIdeal.Hand

end
-- ==== Proof.Body0.lean ====
/-
  The body of the first Pallas call, as the pipeline runs it at a grid point. The body reads its two input
  buffers whole, reads the output buffer (whose value it then ignores) and overwrites the whole output buffer
  with one value: the matrix product of the two input blocks onto a zero accumulator. So, started with each
  input buffer holding that window's block, it ends with the inputs untouched and the output buffer holding
  that product, whatever the output buffer held before. An input buffer holds its window's block at every
  point, whether or not the pipeline copied the block in at that very point: a point without a copy is one
  where the block index has not moved since the point before.
-/
import proofs.«154195_j27152783245647_2_alg».proof.Proof.Blocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What an input buffer holds when the body starts -/

/-- The first input window's buffer holds that window's block at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The second input window's buffer holds that window's block at every point; the block is the same one at
    every point, copied in once. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body's one store covers the output buffer -/

/-- The stored rectangle is the whole buffer, so every index lies in it. -/
theorem cover0_2 (p0 : Vec F S2048x64 .f32) (y : S2048x64.Idx) :
    ∃ pc ∈ ([⟨rO0, p0⟩] : List (View.Piece (Elt F) S2048x64 .f32)), y ∈ pc.1.set :=
  View.cover_of_tiled [⟨rO0, p0⟩] S2048x64.size (by rfl) y

/-! ## The body's triple -/

set_option maxHeartbeats 1000000 in
/-- The body on three whole buffers, the inputs at contents `x0`, `x1` and the output at anything, runs to the
    continuation with the inputs as they were and the output at `out0_2 x0 x1`. -/
theorem sound_kernel0 (c : Dev nD) (E : Set ℕ) (i : grid0.Coords)
    (arg1 : Memref sig .tc .vmem S2048x128 .bf16) (harg1 : arg1.IsWhole)
    (arg2 : Memref sig .tc .vmem S128x64 .bf16) (harg2 : arg2.IsWhole)
    (arg3 : Memref sig .tc .vmem S2048x64 .f32) (harg3 : arg3.IsWhole)
    (x0 : Vec F S2048x128 .bf16) (x1 : Vec F S128x64 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body at a grid point -/

/-- What the body is called with at point `t`: the invariant, the core's debts, and the three current buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: each input buffer holds its block, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for the first call, at every point. -/
theorem body_obligation0 (V : (c : Dev nD) → (b : Ref sig .tc) → Buf (Elt F) ((c : Thread nD τ).loc b)) (c : Dev nD) :
    Pipeline.BodyObligation (dat0 (F := F) V c) (defs₀ (F := F)) Variants.none () Set.univ := fun t => by
  rw [bigSep_W0, bigSep_W0]
  exact sound_body0 V c t

end Cert.KernelIdeal.Hand

end
-- ==== Proof.Body1.lean ====
/-
  The body of the second Pallas call, as the pipeline runs it at a grid point. The body reads its two input
  buffers whole, reads the output buffer (whose value it then ignores) and overwrites the whole output buffer
  with one value: the matrix product of the two input blocks onto a zero accumulator. So, started with each
  input buffer holding that window's block, it ends with the inputs untouched and the output buffer holding
  that product, whatever the output buffer held before. An input buffer holds its window's block at every
  point, whether or not the pipeline copied the block in at that very point: a point without a copy is one
  where the block index has not moved since the point before.
-/
import proofs.«154195_j27152783245647_2_alg».proof.Proof.Blocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What an input buffer holds when the body starts -/

/-- The first input window's buffer holds that window's block at every point. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The second input window's buffer holds that window's block at every point; the block is the same one at
    every point, copied in once. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body's one store covers the output buffer -/

/-- The stored rectangle is the whole buffer, so every index lies in it. -/
theorem cover1_2 (p0 : Vec F S2048x64 .f32) (y : S2048x64.Idx) :
    ∃ pc ∈ ([⟨rO1, p0⟩] : List (View.Piece (Elt F) S2048x64 .f32)), y ∈ pc.1.set :=
  View.cover_of_tiled [⟨rO1, p0⟩] S2048x64.size (by rfl) y

/-! ## The body's triple -/

set_option maxHeartbeats 1000000 in
/-- The body on three whole buffers, the inputs at contents `x0`, `x1` and the output at anything, runs to the
    continuation with the inputs as they were and the output at `out1_2 x0 x1`. -/
theorem sound_kernel1 (c : Dev nD) (E : Set ℕ) (i : grid1.Coords)
    (arg1 : Memref sig .tc .vmem S2048x64 .bf16) (harg1 : arg1.IsWhole)
    (arg2 : Memref sig .tc .vmem S64x64 .bf16) (harg2 : arg2.IsWhole)
    (arg3 : Memref sig .tc .vmem S2048x64 .f32) (harg3 : arg3.IsWhole)
    (x0 : Vec F S2048x64 .bf16) (x1 : Vec F S64x64 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body at a grid point -/

/-- What the body is called with at point `t`: the invariant, the core's debts, and the three current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: each input buffer holds its block, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for the second call, at every point. -/
theorem body_obligation1 (V : (c : Dev nD) → (b : Ref sig .tc) → Buf (Elt F) ((c : Thread nD τ).loc b)) (c : Dev nD) :
    Pipeline.BodyObligation (dat1 (F := F) V c) (defs₀ (F := F)) Variants.none () Set.univ := fun t => by
  rw [bigSep_W1, bigSep_W1]
  exact sound_body1 V c t

end Cert.KernelIdeal.Hand

end
-- ==== Proof.Body2.lean ====
/-
  The body of the third Pallas call, as the pipeline runs it at a grid point. The body reads its two input
  buffers whole (a tile of rows and a tile of columns of one and the same matrix), reads the output buffer
  (whose value it then ignores) and overwrites the whole output buffer with one value: the product of the two
  blocks contracted over the last axis of both, onto a zero accumulator, passed through the logistic function.
  So, started with each input buffer holding that window's block, it ends with the inputs untouched and the
  output buffer holding that value, whatever the output buffer held before. An input buffer holds its
  window's block at every point, whether or not the pipeline copied the block in at that very point: a point
  without a copy is one where the block index has not moved since the point before. The buffers are owned
  whole, whatever share of the underlying matrix each window holds.
-/
import proofs.«154195_j27152783245647_2_alg».proof.Proof.Blocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What an input buffer holds when the body starts -/

/-- The row window's buffer holds that window's block at every point; the block changes only when the row tile
    does, and is copied in only then. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The column window's buffer holds that window's block at every point. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-! ## The body's one store covers the output buffer -/

/-- The stored rectangle is the whole buffer, so every index lies in it. -/
theorem cover2_2 (p0 : Vec F S2048x1024 .f32) (y : S2048x1024.Idx) :
    ∃ pc ∈ ([⟨rO2, p0⟩] : List (View.Piece (Elt F) S2048x1024 .f32)), y ∈ pc.1.set :=
  View.cover_of_tiled [⟨rO2, p0⟩] S2048x1024.size (by rfl) y

/-! ## The body's triple -/

set_option maxHeartbeats 1000000 in
/-- The body on three whole buffers, the inputs at contents `x0`, `x1` and the output at anything, runs to the
    continuation with the inputs as they were and the output at `out2_2 x0 x1`. -/
theorem sound_kernel2 (c : Dev nD) (E : Set ℕ) (i : grid2.Coords)
    (arg1 : Memref sig .tc .vmem S2048x32 .bf16) (harg1 : arg1.IsWhole)
    (arg2 : Memref sig .tc .vmem S1024x32 .bf16) (harg2 : arg2.IsWhole)
    (arg3 : Memref sig .tc .vmem S2048x1024 .f32) (harg3 : arg3.IsWhole)
    (x0 : Vec F S2048x32 .bf16) (x1 : Vec F S1024x32 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__decode_kernel i arg1 harg1 arg2 harg2 arg3 harg3) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body at a grid point -/

/-- What the body is called with at point `t`: the invariant, the core's debts, and the three current buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: each input buffer holds its block, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for the third call, at every point. -/
theorem body_obligation2 (V : (c : Dev nD) → (b : Ref sig .tc) → Buf (Elt F) ((c : Thread nD τ).loc b)) (c : Dev nD) :
    Pipeline.BodyObligation (dat2 (F := F) V c) (defs₀ (F := F)) Variants.none () Set.univ := fun t => by
  rw [bigSep_W2, bigSep_W2]
  exact sound_body2 V c t

end Cert.KernelIdeal.Hand

end
-- ==== Proof.KRun.lean ====
/-
  The run of the main function with the three kernel bodies' obligations supplied, and what follows from it for
  the argument arrays: nothing writes them, so every execution ends with each of them as launched.
-/
import proofs.«154195_j27152783245647_2_alg».proof.Proof.Run
import proofs.«154195_j27152783245647_2_alg».proof.Proof.Body0
import proofs.«154195_j27152783245647_2_alg».proof.Proof.Body1
import proofs.«154195_j27152783245647_2_alg».proof.Proof.Body2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- Every weakly fair execution terminates, nothing faulting, with every unscoped TensorCore buffer at the last stage
    of the fold of contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  run_all m ρ (body_obligation0 (atTc (W3 m))) (body_obligation1 (atTc (W7 m))) (body_obligation2 (atTc (W9 m)))

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun _ h c => ⟨(h c _ (mem_uc main_arg0 (by decide))).trans (W10_kept m c main_arg0 (by decide) (by decide) (by decide) (by decide) (by decide) (by decide) (by decide) (by decide) (by decide) (by decide)),
    (h c _ (mem_uc main_arg1 (by decide))).trans (W10_kept m c main_arg1 (by decide) (by decide) (by decide) (by decide) (by decide) (by decide) (by decide) (by decide) (by decide) (by decide)),
    (h c _ (mem_uc main_arg2 (by decide))).trans (W10_kept m c main_arg2 (by decide) (by decide) (by decide) (by decide) (by decide) (by decide) (by decide) (by decide) (by decide) (by decide)),
    (h c _ (mem_uc main_arg3 (by decide))).trans (W10_kept m c main_arg3 (by decide) (by decide) (by decide) (by decide) (by decide) (by decide) (by decide) (by decide) (by decide) (by decide)),
    (h c _ (mem_uc main_arg4 (by decide))).trans (W10_kept m c main_arg4 (by decide) (by decide) (by decide) (by decide) (by decide) (by decide) (by decide) (by decide) (by decide) (by decide)),
    (h c _ (mem_uc main_arg5 (by decide))).trans (W10_kept m c main_arg5 (by decide) (by decide) (by decide) (by decide) (by decide) (by decide) (by decide) (by decide) (by decide) (by decide)),
    (h c _ (mem_uc main_arg6 (by decide))).trans (W10_kept m c main_arg6 (by decide) (by decide) (by decide) (by decide) (by decide) (by decide) (by decide) (by decide) (by decide) (by decide)),
    (h c _ (mem_uc main_arg7 (by decide))).trans (W10_kept m c main_arg7 (by decide) (by decide) (by decide) (by decide) (by decide) (by decide) (by decide) (by decide) (by decide) (by decide)),
    (h c _ (mem_uc main_arg8 (by decide))).trans (W10_kept m c main_arg8 (by decide) (by decide) (by decide) (by decide) (by decide) (by decide) (by decide) (by decide) (by decide) (by decide))⟩) (run_main m ρ)

end Cert.KernelIdeal.Hand

end
-- ==== Proof.Frames.lean ====
/-
  The three frame claims and the idealization claim.
  Each kernel program — as printed, and read at the extended reals — runs to the end without a fault and leaves its nine
  argument arrays as launched: that is the run of its ten items, three Pallas calls among stretches of host
  operations, none of which writes an argument. The reference is a straight line of host operations and its run
  says the same. The idealized kernel program is the printed one read at the extended reals, with no rewrite, so
  the idealization claim has nothing to state.
-/
import proofs.«154195_j27152783245647_2_alg».proof.Defs
import proofs.«154195_j27152783245647_2_alg».proof.Proof.Bits.KRun
import proofs.«154195_j27152783245647_2_alg».proof.Proof.KRun
import proofs.«154195_j27152783245647_2_alg».proof.Proof.RefRun
import proofs.«154195_j27152783245647_2_alg».proof.Proof.Gen.Pre_finite_inputs

noncomputable section

namespace Cert.Proof

open Idealize.ShloMosaic Idealize.SL.Sem

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

end Cert.Proof

end
-- ==== Proof.Arrays.lean ====
/-
  The arrays at the three Pallas calls' interfaces, at the extended-real instance, as plain arrays of extended reals:
  each call's two operands as the call finds them and its output array as the call leaves it.
-/
import proofs.«154195_j27152783245647_2_alg».proof.Proof.Fold
import Idealize.ShloMosaic.Lib.ValueIdx
import Idealize.ShloMosaic.PureOps.Ideal

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (c : Dev nD)

/-- First call: the node features and the first weight matrix (their reduced-precision copies, which at this
    instance are the arrays themselves), and the product it leaves. -/
abbrev opL0 : S16384x128.Idx → EReal := W3 (F := Ideal) m c (Proc.devRef .tc main_v31)
abbrev opR0 : S128x64.Idx → EReal := W3 (F := Ideal) m c (Proc.devRef .tc main_v32)
abbrev prod0 : S16384x64.Idx → EReal := res0 (F := Ideal) m c
/-- Second call: the hidden layer, the two heads' weight matrices side by side, and their product. -/
abbrev opL1 : S16384x64.Idx → EReal := W7 (F := Ideal) m c (Proc.devRef .tc main_v52)
abbrev opR1 : S64x64.Idx → EReal := W7 (F := Ideal) m c (Proc.devRef .tc main_v53)
abbrev prod1 : S16384x64.Idx → EReal := res1 (F := Ideal) m c
/-- Third call: the sampled latent matrix (read twice), and the decoded adjacency it leaves. -/
abbrev opZ : S16384x32.Idx → EReal := W9 (F := Ideal) m c (Proc.devRef .tc main_v79)
abbrev dec2 : S16384x16384.Idx → EReal := res2 (F := Ideal) m c

end Cert.KernelIdeal.Hand

end
-- ==== Proof.Conv.lean ====
/-
  One message-passing aggregation as the two programs spell it: for every edge e, the row of the feature matrix at the
  edge's source node (a negative index wrapped around once, then clamped into range) is scaled by the edge's weight and
  added into the row of the edge's target node, starting from zero. The kernel's program does this on 64 columns,
  the reference's second layer on 32 columns, one head at a time.
-/
import proofs.«154195_j27152783245647_2_alg».proof.Proof.Gen.KernelIdeal
import proofs.«154195_j27152783245647_2_alg».proof.Proof.Gen.ReferenceIdeal
import Idealize.ShloMosaic.PureOps.Ideal

noncomputable section

namespace Cert.Bridge

open Idealize.ShloMosaic

/-- The aggregation on 64 columns, over the kernel program's operation records: `w` the edge weights, `src` / `dst`
    the edges' source and target nodes, `P` the feature matrix. -/
def aggK (w : FVec Ideal Cert.KernelIdeal.S278528 .f32) (src dst : IVec Cert.KernelIdeal.S278528 32)
    (P : FVec Ideal Cert.KernelIdeal.S16384x64 .f32) : FVec Ideal Cert.KernelIdeal.S16384x64 .f32 :=
  open Cert.KernelIdeal Cert.KernelIdeal.Facts₀ in
  Host.scatterAdd (F := Ideal) scatter_S16384x64_S278528x1_S278528x64_1_0_0_1
    (broadcastInDim S16384x64 ![] bcast_S_S16384x64 (constant (F := Ideal) S_ .f32 0x00000000#32))
    (broadcastInDim S278528x1 ![0] bcast_S278528_S278528x1_0 dst)
    (mulf (broadcastInDim S278528x64 ![0, 1] bcast_S278528x1_S278528x64_0_1 (broadcastInDim S278528x1 ![0] bcast_S278528_S278528x1_0 w))
      (Host.gather gather_S16384x64_S278528x1_S278528x64_1_0_n_n_0_1_164 P
        (broadcastInDim S278528x1 ![0] bcast_S278528_S278528x1_0
          (select (cmpi .slt src (broadcastInDim S278528 ![] bcast_S_S278528 (constantI S_ 32 0#32)))
            (addi src (broadcastInDim S278528 ![] bcast_S_S278528 (constantI S_ 32 16384#32))) src))))

/-- The aggregation on 32 columns, over the reference program's operation records. -/
def aggR (w : FVec Ideal Cert.ReferenceIdeal.S278528 .f32) (src dst : IVec Cert.ReferenceIdeal.S278528 32)
    (Q : FVec Ideal Cert.ReferenceIdeal.S16384x32 .f32) : FVec Ideal Cert.ReferenceIdeal.S16384x32 .f32 :=
  open Cert.ReferenceIdeal Cert.ReferenceIdeal.Facts₀ in
  Host.scatterAdd (F := Ideal) scatter_S16384x32_S278528x1_S278528x32_1_0_0_1
    (broadcastInDim S16384x32 ![] bcast_S_S16384x32 (constant (F := Ideal) S_ .f32 0x00000000#32))
    (broadcastInDim S278528x1 ![0] bcast_S278528_S278528x1_0 dst)
    (mulf (broadcastInDim S278528x32 ![0, 1] bcast_S278528x1_S278528x32_0_1 (broadcastInDim S278528x1 ![0] bcast_S278528_S278528x1_0 w))
      (Host.gather gather_S16384x32_S278528x1_S278528x32_1_0_n_n_0_1_132 Q
        (broadcastInDim S278528x1 ![0] bcast_S278528_S278528x1_0
          (select (cmpi .slt src (broadcastInDim S278528 ![] bcast_S_S278528 (constantI S_ 32 0#32)))
            (addi src (broadcastInDim S278528 ![] bcast_S_S278528 (constantI S_ 32 16384#32))) src))))

end Cert.Bridge

end
-- ==== Proof.KSide.lean ====
/-
  What the kernel program's host operations compute, read off its main function at the extended-real instance,
  where a change of float format is the identity: each Pallas call's operands as expressions in the argument
  arrays and in the previous call's product. The first call multiplies the node features by the first weight
  matrix; its product is aggregated along the edges, shifted by the bias and clamped at zero to give the hidden
  layer; the second call multiplies the hidden layer by the two heads' weight matrices set side by side; that
  product is aggregated again and its two halves of columns, each shifted by its bias, are the mean and the
  log-deviation, from which the sampled latent matrix is the mean plus the noise scaled by the exponential of the
  log-deviation.
-/
import proofs.«154195_j27152783245647_2_alg».proof.Proof.Arrays
import proofs.«154195_j27152783245647_2_alg».proof.Proof.Conv
import Idealize.ShloMosaic.Lib.StableHlo.Run

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## The edge arrays, and buffers that pass through unwritten -/

/-- The edges' source nodes, target nodes and weights, as the first call finds them. No later operation writes
    them. -/
abbrev srcA : IVec S278528 32 := W3 (F := Ideal) m c (Proc.devRef .tc main_v3)
abbrev dstA : IVec S278528 32 := W3 (F := Ideal) m c (Proc.devRef .tc main_v7)
abbrev wA : FVec Ideal S278528 .f32 := W3 (F := Ideal) m c (Proc.devRef .tc main_v30)

/-- A buffer none of the operations before the first call writes is, at that call's entry, as launched. -/
theorem W3_keep (r : Ref sig .tc) (h0 : r ∉ hostOps0_W) (h1 : r ∉ hostOps0_1_W) (h2 : r ∉ hostOps0_2_W) :
    W3 (F := Ideal) m c (Proc.devRef .tc r) = m ((c : Thread nD τ).loc r) :=
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-- A buffer that is not the first call's output and that none of the operations between the first two calls
    writes is, at the second call's entry, what it was at the first call's. -/
theorem W7_keep (r : Ref sig .tc) (h3 : r ≠ main_v33) (h4 : r ∉ hostOps1_W) (h5 : r ∉ hostOps1_1_W) (h6 : r ∉ hostOps1_2_W) :
    W7 (F := Ideal) m c (Proc.devRef .tc r) = W3 (F := Ideal) m c (Proc.devRef .tc r) :=
  (StableHlo.after_of_writes_sub hostOps1_2 _ hostOps1_2_writes h6).trans <|
  (StableHlo.after_of_writes_sub hostOps1_1 _ hostOps1_1_writes h5).trans <|
  (StableHlo.after_of_writes_sub hostOps1 _ hostOps1_writes h4).trans (W4_of_ne m c r h3)

/-! ## The first call's operands -/

/-- The first call's left operand is the node-feature matrix: its reduced-precision copy is the matrix itself. -/
theorem K0_L : opL0 m c = m ((c : Thread nD τ).loc main_arg0) := by
  show StableHlo.after hostOps0_2 (W2 (F := Ideal) m c) (Proc.devRef .tc main_v31) = _
  after_results
  rfl

/-- The first call's right operand is the first weight matrix. -/
theorem K0_R : opR0 m c = m ((c : Thread nD τ).loc main_arg2) := by
  show StableHlo.after hostOps0_2 (W2 (F := Ideal) m c) (Proc.devRef .tc main_v32) = _
  after_results
  rfl

/-! ## The second call's operands -/

set_option maxHeartbeats 2000000 in
/-- The second call's left operand is the hidden layer: the first call's product aggregated along the edges, plus the
    bias on every row, clamped below at zero. -/
theorem K1 : opL1 m c = maximumf (addf (Cert.Bridge.aggK (wA m c) (srcA m c) (dstA m c) (prod0 m c)) (broadcastInDim S16384x64 ![0, 1] bcast_S1x64_S16384x64_0_1 (broadcastInDim S1x64 ![1] bcast_S64_S1x64_1 (m ((c : Thread nD τ).loc main_arg3))))) (broadcastInDim S16384x64 ![] bcast_S_S16384x64 (constant (F := Ideal) S_ .f32 0x00000000#32)) := by
  show StableHlo.after hostOps1_2 (W6 (F := Ideal) m c) (Proc.devRef .tc main_v52) = _
  after_results_simp
  rw [W4_of_ne m c main_v7 (by decide), W4_of_ne m c main_v30 (by decide), W4_of_ne m c main_v3 (by decide),
    W4_of_ne m c main_arg3 (by decide), W4_out, W3_keep m c main_arg3 (by decide) (by decide) (by decide)]
  unfold Cert.Bridge.aggK
  rfl

/-- The second call's right operand: the two heads' weight matrices side by side. -/
theorem K2 : opR1 m c = concatenate S64x64 1 [⟨S64x32, m ((c : Thread nD τ).loc main_arg4)⟩, ⟨S64x32, m ((c : Thread nD τ).loc main_arg6)⟩] concatenates_S64x32_S64x32_S64x64_d1 := by
  show StableHlo.after hostOps1_2 (W6 (F := Ideal) m c) (Proc.devRef .tc main_v53) = _
  after_results
  rw [W4_of_ne m c main_arg4 (by decide), W4_of_ne m c main_arg6 (by decide),
    W3_keep m c main_arg4 (by decide) (by decide) (by decide), W3_keep m c main_arg6 (by decide) (by decide) (by decide)]
  rfl

/-! ## The two heads and the sampled latent matrix -/

set_option maxHeartbeats 2000000 in
/-- The mean: the left half of the columns of the second call's product aggregated along the edges, plus the first
    head's bias on every row. -/
theorem K3_mean : W10 (F := Ideal) m c (Proc.devRef .tc main_v71) = addf (extractStridedSlice S16384x32 ![0, 0] (Cert.Bridge.aggK (wA m c) (srcA m c) (dstA m c) (prod1 m c)) slices_S16384x64_S16384x32_0_0) (broadcastInDim S16384x32 ![0, 1] bcast_S1x32_S16384x32_0_1 (broadcastInDim S1x32 ![1] bcast_S32_S1x32_1 (m ((c : Thread nD τ).loc main_arg5)))) := by
  rw [W10_of_ne m c main_v71 (by decide)]
  show StableHlo.after hostOps2 (W8 (F := Ideal) m c) (Proc.devRef .tc main_v71) = _
  after_results_simp
  rw [W8_of_ne m c main_v7 (by decide), W8_of_ne m c main_v30 (by decide), W8_of_ne m c main_v3 (by decide),
    W8_of_ne m c main_arg5 (by decide), W8_out,
    W7_keep m c main_v7 (by decide) (by decide) (by decide) (by decide),
    W7_keep m c main_v30 (by decide) (by decide) (by decide) (by decide),
    W7_keep m c main_v3 (by decide) (by decide) (by decide) (by decide),
    W7_keep m c main_arg5 (by decide) (by decide) (by decide) (by decide),
    W3_keep m c main_arg5 (by decide) (by decide) (by decide)]
  unfold Cert.Bridge.aggK
  rfl

set_option maxHeartbeats 2000000 in
/-- The log-deviation: the right half of the columns of the same aggregate, plus the second head's bias on every row. -/
theorem K3_logdev : W10 (F := Ideal) m c (Proc.devRef .tc main_v75) = addf (extractStridedSlice S16384x32 ![0, 32] (Cert.Bridge.aggK (wA m c) (srcA m c) (dstA m c) (prod1 m c)) slices_S16384x64_S16384x32_0_32) (broadcastInDim S16384x32 ![0, 1] bcast_S1x32_S16384x32_0_1 (broadcastInDim S1x32 ![1] bcast_S32_S1x32_1 (m ((c : Thread nD τ).loc main_arg7)))) := by
  rw [W10_of_ne m c main_v75 (by decide)]
  show StableHlo.after hostOps2 (W8 (F := Ideal) m c) (Proc.devRef .tc main_v75) = _
  after_results_simp
  rw [W8_of_ne m c main_v7 (by decide), W8_of_ne m c main_v30 (by decide), W8_of_ne m c main_v3 (by decide),
    W8_of_ne m c main_arg7 (by decide), W8_out,
    W7_keep m c main_v7 (by decide) (by decide) (by decide) (by decide),
    W7_keep m c main_v30 (by decide) (by decide) (by decide) (by decide),
    W7_keep m c main_v3 (by decide) (by decide) (by decide) (by decide),
    W7_keep m c main_arg7 (by decide) (by decide) (by decide) (by decide),
    W3_keep m c main_arg7 (by decide) (by decide) (by decide)]
  unfold Cert.Bridge.aggK
  rfl

set_option maxHeartbeats 4000000 in
/-- The third call's operand, the sampled latent matrix: the mean plus the noise scaled, entry by entry, by the
    exponential of the log-deviation. -/
theorem K4 : opZ m c = addf (φ := .f32) (W10 (F := Ideal) m c (Proc.devRef .tc main_v71))
    (mulf (φ := .f32) (m ((c : Thread nD τ).loc main_arg8))
      (Host.exp (F := Ideal) (φ := .f32) (W10 (F := Ideal) m c (Proc.devRef .tc main_v75)))) := by
  rw [W10_of_ne m c main_v71 (by decide), W10_of_ne m c main_v75 (by decide)]
  show StableHlo.after hostOps2 (W8 (F := Ideal) m c) (Proc.devRef .tc main_v79)
    = addf (φ := .f32) (StableHlo.after hostOps2 (W8 (F := Ideal) m c) (Proc.devRef .tc main_v71))
        (mulf (φ := .f32) (m ((c : Thread nD τ).loc main_arg8))
          (Host.exp (F := Ideal) (φ := .f32) (StableHlo.after hostOps2 (W8 (F := Ideal) m c) (Proc.devRef .tc main_v75))))
  after_results_simp
  rw [W8_of_ne m c main_arg8 (by decide), W7_keep m c main_arg8 (by decide) (by decide) (by decide) (by decide),
    W3_keep m c main_arg8 (by decide) (by decide) (by decide)]
  rfl

end Cert.KernelIdeal.Hand

end
-- ==== Proof.EdgeSide.lean ====
/-
  The edge arrays that the kernel's program builds before its first Pallas call, set against the reference's stage
  functions, over the extended reals. Both programs append one self-loop per node to the given edge list and weigh
  every edge by the product of the reciprocal square roots of its two end nodes' degrees (zero where a degree is
  zero). The program's three stretches of host operations are read one after the other: what the first leaves (the
  two node lists, the degree test, the reciprocal square roots), what the second adds (the per-node factor), what
  the third adds (the per-edge weight). Each is the same tree of operations as the reference's stage function over
  operation records that differ in name only.
-/
import proofs.«154195_j27152783245647_2_alg».proof.Proof.KSide
import proofs.«154195_j27152783245647_2_alg».proof.Proof.RefRead
import Idealize.ShloMosaic.Lib.StableHlo.Run

set_option maxRecDepth 16384

noncomputable section

namespace Cert.Bridge

open Idealize.ShloMosaic Idealize.ShloMosaic.TcCoe Idealize.SL.Sem
open Cert.ReferenceIdeal.Read

variable (m : (ℓ : Loc KernelIdeal.nD KernelIdeal.τ KernelIdeal.sig) → Buf (Elt Ideal) ℓ) (c : Dev KernelIdeal.nD)

open KernelIdeal KernelIdeal.Gen KernelIdeal.Hand

/-- After the first stretch: the edges' source nodes (the given sources followed by every node once, for the
    self-loops) are the reference's. -/
theorem src_W1 :
    (W1 (F := Ideal) m c (Proc.devRef .tc main_v3) : IVec S278528 32)
      = val_main_v3 (F := Ideal) (m ((c : Thread nD τ).loc main_arg1)) := by
  show StableHlo.after hostOps0 (W0 (F := Ideal) m c) (Proc.devRef .tc main_v3) = _
  after_results
  unfold val_main_v3 val_main_v2 val_main_v1 val_main_v0
  rfl

/-- After the first stretch: the edges' target nodes are the reference's. -/
theorem dst_W1 :
    (W1 (F := Ideal) m c (Proc.devRef .tc main_v7) : IVec S278528 32)
      = val_main_v7 (F := Ideal) (m ((c : Thread nD τ).loc main_arg1)) := by
  show StableHlo.after hostOps0 (W0 (F := Ideal) m c) (Proc.devRef .tc main_v7) = _
  after_results
  unfold val_main_v7 val_main_v6 val_main_v5 val_main_v4
  rfl

/-- After the first stretch: which nodes have a positive degree. -/
theorem degpos_W1 :
    (W1 (F := Ideal) m c (Proc.devRef .tc main_v13) : (⟨S16384, .i1⟩ : BufTy).Contents (Elt Ideal))
      = val_main_v13 (F := Ideal) (m ((c : Thread nD τ).loc main_arg1)) := by
  show StableHlo.after hostOps0 (W0 (F := Ideal) m c) (Proc.devRef .tc main_v13) = _
  after_results
  unfold val_main_v13 val_main_v12 val_main_v11 val_main_v10 val_main_v9 val_main_v8 val_main_v7 val_main_v6 val_main_v5 val_main_v4
    val_main_cst val_main_cst_0 val_main_cst_1
  rfl

/-- After the first stretch: the reciprocal square roots of the degrees. -/
theorem rsqrt_W1 :
    (W1 (F := Ideal) m c (Proc.devRef .tc main_v14) : FVec Ideal S16384 .f32)
      = val_main_v14 (F := Ideal) (m ((c : Thread nD τ).loc main_arg1)) := by
  show StableHlo.after hostOps0 (W0 (F := Ideal) m c) (Proc.devRef .tc main_v14) = _
  after_results
  unfold val_main_v14 val_main_v11 val_main_v10 val_main_v9 val_main_v8 val_main_v7 val_main_v6 val_main_v5 val_main_v4
    val_main_cst val_main_cst_0
  rfl

/-- After the first stretch: the zero that replaces the reciprocal square root of a zero degree. -/
theorem zero_W1 :
    (W1 (F := Ideal) m c (Proc.devRef .tc main_cst_2) : FVec Ideal S_ .f32) = val_main_cst_2 (F := Ideal) := by
  show StableHlo.after hostOps0 (W0 (F := Ideal) m c) (Proc.devRef .tc main_cst_2) = _
  after_results
  rfl

/-- After the second stretch: the normalisation factor of every node. -/
theorem norm_W2 :
    (W2 (F := Ideal) m c (Proc.devRef .tc main_v15) : FVec Ideal S16384 .f32)
      = val_main_v15 (F := Ideal) (m ((c : Thread nD τ).loc main_arg1)) := by
  show StableHlo.after hostOps0_1 (W1 (F := Ideal) m c) (Proc.devRef .tc main_v15) = _
  have e13 := degpos_W1 m c
  have e14 := rsqrt_W1 m c
  have e0 := zero_W1 m c
  generalize W1 (F := Ideal) m c = V at e13 e14 e0 ⊢
  after_results
  show select (V (Proc.devRef .tc main_v13)) (V (Proc.devRef .tc main_v14))
    (broadcastInDim S16384 ![] bcast_S_S16384 (id (V (Proc.devRef .tc main_cst_2)))) = _
  rw [e13, e14, e0]
  unfold val_main_v15 val_main_call0_v1 val_main_call0_v0
  rfl

/-- The source nodes as the first call finds them: the later two stretches do not write them. -/
theorem src_eq : srcA m c = val_main_v3 (F := Ideal) (m ((c : Thread nD τ).loc main_arg1)) :=
  (StableHlo.after_of_writes_sub hostOps0_2 _ hostOps0_2_writes (by decide)).trans <|
  (StableHlo.after_of_writes_sub hostOps0_1 _ hostOps0_1_writes (by decide)).trans (src_W1 m c)

/-- The target nodes as the first call finds them. -/
theorem dst_eq : dstA m c = val_main_v7 (F := Ideal) (m ((c : Thread nD τ).loc main_arg1)) :=
  (StableHlo.after_of_writes_sub hostOps0_2 _ hostOps0_2_writes (by decide)).trans <|
  (StableHlo.after_of_writes_sub hostOps0_1 _ hostOps0_1_writes (by decide)).trans (dst_W1 m c)

set_option maxHeartbeats 1000000 in
/-- The edge weights as the first call finds them: the product of the two end nodes' normalisation factors. -/
theorem wgt_eq : wA m c = val_main_v30 (F := Ideal) (m ((c : Thread nD τ).loc main_arg1)) := by
  show StableHlo.after hostOps0_2 (W2 (F := Ideal) m c) (Proc.devRef .tc main_v30) = _
  have e3 : W2 (F := Ideal) m c (Proc.devRef .tc main_v3) = _ :=
    (StableHlo.after_of_writes_sub hostOps0_1 _ hostOps0_1_writes (by decide)).trans (src_W1 m c)
  have e7 : W2 (F := Ideal) m c (Proc.devRef .tc main_v7) = _ :=
    (StableHlo.after_of_writes_sub hostOps0_1 _ hostOps0_1_writes (by decide)).trans (dst_W1 m c)
  have e15 := norm_W2 m c
  generalize W2 (F := Ideal) m c = V at e3 e7 e15 ⊢
  after_results_simp
  rw [e3, e7, e15]
  unfold val_main_v30 val_main_v29 val_main_v28 val_main_v27 val_main_v26 val_main_v25 val_main_v24 val_main_v23 val_main_v22
    val_main_v21 val_main_v20 val_main_v19 val_main_v18 val_main_v17 val_main_v16 val_main_c val_main_c_3 val_main_c_4 val_main_c_5
  rfl

end Cert.Bridge

end
-- ==== Proof.RefSide.lean ====
/-
  The host operations that the two programs share, set against the reference's stage functions, over the extended
  reals. Both programs build the edge list with its self-loops and the symmetric normalisation weights in the same
  way, aggregate each layer's product along the edges in the same way, and add the same biases; only the matrix
  products differ in how they are computed. Each statement here says that one such stretch, applied to equal inputs,
  is the reference's stage function: the two spellings are the same tree of operations over operation records that
  differ in name only, so once the leaves agree the equation holds by unfolding the stage functions by name. No
  stretch is ever opened at an index.
-/
import proofs.«154195_j27152783245647_2_alg».proof.Proof.Arrays
import proofs.«154195_j27152783245647_2_alg».proof.Proof.Conv
import proofs.«154195_j27152783245647_2_alg».proof.Proof.RefRead

set_option maxRecDepth 16384

noncomputable section

namespace Cert.Bridge

open Idealize.ShloMosaic Idealize.ShloMosaic.TcCoe Idealize.SL.Sem
open Cert.ReferenceIdeal.Read

/-! ## The first layer -/

/-- Aggregating the first product along the edges, adding the bias and applying the rectifier, spelt with the kernel
    program's operation records, is the reference's hidden layer when the edge arrays and the product agree. -/
theorem layer1_eq (x0 : (⟨ReferenceIdeal.S16384x128, .f32⟩ : BufTy).Contents (Elt Ideal)) (x1 : (⟨ReferenceIdeal.S2x262144, .i32⟩ : BufTy).Contents (Elt Ideal)) (x2 : (⟨ReferenceIdeal.S128x64, .f32⟩ : BufTy).Contents (Elt Ideal)) (x3 : (⟨ReferenceIdeal.S64, .f32⟩ : BufTy).Contents (Elt Ideal))
    (w : FVec Ideal KernelIdeal.S278528 .f32) (src dst : IVec KernelIdeal.S278528 32) (P : FVec Ideal KernelIdeal.S16384x64 .f32)
    (hs : src = val_main_v3 (F := Ideal) x1) (hd : dst = val_main_v7 (F := Ideal) x1)
    (hw : w = val_main_v30 (F := Ideal) x1) (hP : P = val_main_v31 (F := Ideal) x0 x2) :
    maximumf (addf (aggK w src dst P)
        (broadcastInDim KernelIdeal.S16384x64 ![0, 1] KernelIdeal.Gen.bcast_S1x64_S16384x64_0_1
          (broadcastInDim KernelIdeal.S1x64 ![1] KernelIdeal.Gen.bcast_S64_S1x64_1 x3)))
      (broadcastInDim KernelIdeal.S16384x64 ![] KernelIdeal.Gen.bcast_S_S16384x64 (constant (F := Ideal) KernelIdeal.S_ .f32 0x00000000#32))
      = val_main_v48 (F := Ideal) x0 x1 x2 x3 := by
  subst hs hd hw hP
  unfold aggK
  unfold val_main_v48 val_main_v47 val_main_v46 val_main_v45 val_main_v44 val_main_v43 val_main_v42 val_main_v41 val_main_v40
    val_main_v39 val_main_v38 val_main_v37 val_main_v36 val_main_v35 val_main_v34 val_main_v33 val_main_v32
    val_main_call1_v0 val_main_call1_cst val_main_cst_8 val_main_c_6 val_main_c_7
  rfl

/-! ## The two heads -/

/-- Aggregating the first head's product along the edges is the reference's aggregated first head. -/
theorem head1_eq (x0 : (⟨ReferenceIdeal.S16384x128, .f32⟩ : BufTy).Contents (Elt Ideal)) (x1 : (⟨ReferenceIdeal.S2x262144, .i32⟩ : BufTy).Contents (Elt Ideal)) (x2 : (⟨ReferenceIdeal.S128x64, .f32⟩ : BufTy).Contents (Elt Ideal)) (x3 : (⟨ReferenceIdeal.S64, .f32⟩ : BufTy).Contents (Elt Ideal)) (x4 : (⟨ReferenceIdeal.S64x32, .f32⟩ : BufTy).Contents (Elt Ideal))
    (w : FVec Ideal ReferenceIdeal.S278528 .f32) (src dst : IVec ReferenceIdeal.S278528 32)
    (hs : src = val_main_v3 (F := Ideal) x1) (hd : dst = val_main_v7 (F := Ideal) x1) (hw : w = val_main_v30 (F := Ideal) x1) :
    aggR w src dst (val_main_v49 (F := Ideal) x0 x1 x2 x3 x4) = val_main_v62 (F := Ideal) x0 x1 x2 x3 x4 := by
  subst hs hd hw
  unfold aggR
  unfold val_main_v62 val_main_v61 val_main_v60 val_main_v59 val_main_v58 val_main_v57 val_main_v56 val_main_v55 val_main_v54
    val_main_v53 val_main_v52 val_main_v51 val_main_v50 val_main_cst_11 val_main_c_9 val_main_c_10
  rfl

/-- Aggregating the second head's product along the edges is the reference's aggregated second head. -/
theorem head2_eq (x0 : (⟨ReferenceIdeal.S16384x128, .f32⟩ : BufTy).Contents (Elt Ideal)) (x1 : (⟨ReferenceIdeal.S2x262144, .i32⟩ : BufTy).Contents (Elt Ideal)) (x2 : (⟨ReferenceIdeal.S128x64, .f32⟩ : BufTy).Contents (Elt Ideal)) (x3 : (⟨ReferenceIdeal.S64, .f32⟩ : BufTy).Contents (Elt Ideal)) (x6 : (⟨ReferenceIdeal.S64x32, .f32⟩ : BufTy).Contents (Elt Ideal))
    (w : FVec Ideal ReferenceIdeal.S278528 .f32) (src dst : IVec ReferenceIdeal.S278528 32)
    (hs : src = val_main_v3 (F := Ideal) x1) (hd : dst = val_main_v7 (F := Ideal) x1) (hw : w = val_main_v30 (F := Ideal) x1) :
    aggR w src dst (val_main_v66 (F := Ideal) x0 x1 x2 x3 x6) = val_main_v79 (F := Ideal) x0 x1 x2 x3 x6 := by
  subst hs hd hw
  unfold aggR
  unfold val_main_v79 val_main_v78 val_main_v77 val_main_v76 val_main_v75 val_main_v74 val_main_v73 val_main_v72 val_main_v71
    val_main_v70 val_main_v69 val_main_v68 val_main_v67 val_main_cst_14 val_main_c_12 val_main_c_13
  rfl

/-! ## The biases and the latent matrix -/

/-- The first head plus its bias (the mean). -/
theorem mean_eq (x0 : (⟨ReferenceIdeal.S16384x128, .f32⟩ : BufTy).Contents (Elt Ideal)) (x1 : (⟨ReferenceIdeal.S2x262144, .i32⟩ : BufTy).Contents (Elt Ideal)) (x2 : (⟨ReferenceIdeal.S128x64, .f32⟩ : BufTy).Contents (Elt Ideal)) (x3 : (⟨ReferenceIdeal.S64, .f32⟩ : BufTy).Contents (Elt Ideal)) (x4 : (⟨ReferenceIdeal.S64x32, .f32⟩ : BufTy).Contents (Elt Ideal)) (x5 : (⟨ReferenceIdeal.S32, .f32⟩ : BufTy).Contents (Elt Ideal)) :
    addf (F := Ideal) (s := KernelIdeal.S16384x32) (φ := .f32) (val_main_v62 (F := Ideal) x0 x1 x2 x3 x4)
        (broadcastInDim KernelIdeal.S16384x32 ![0, 1] KernelIdeal.Gen.bcast_S1x32_S16384x32_0_1
          (broadcastInDim KernelIdeal.S1x32 ![1] KernelIdeal.Gen.bcast_S32_S1x32_1 x5))
      = (val_main_v65 (F := Ideal) x0 x1 x2 x3 x4 x5 : FVec Ideal KernelIdeal.S16384x32 .f32) := by
  unfold val_main_v65 val_main_v64 val_main_v63
  rfl

/-- The second head plus its bias (the logarithm of the standard deviation). -/
theorem logstd_eq (x0 : (⟨ReferenceIdeal.S16384x128, .f32⟩ : BufTy).Contents (Elt Ideal)) (x1 : (⟨ReferenceIdeal.S2x262144, .i32⟩ : BufTy).Contents (Elt Ideal)) (x2 : (⟨ReferenceIdeal.S128x64, .f32⟩ : BufTy).Contents (Elt Ideal)) (x3 : (⟨ReferenceIdeal.S64, .f32⟩ : BufTy).Contents (Elt Ideal)) (x6 : (⟨ReferenceIdeal.S64x32, .f32⟩ : BufTy).Contents (Elt Ideal)) (x7 : (⟨ReferenceIdeal.S32, .f32⟩ : BufTy).Contents (Elt Ideal)) :
    addf (F := Ideal) (s := KernelIdeal.S16384x32) (φ := .f32) (val_main_v79 (F := Ideal) x0 x1 x2 x3 x6)
        (broadcastInDim KernelIdeal.S16384x32 ![0, 1] KernelIdeal.Gen.bcast_S1x32_S16384x32_0_1
          (broadcastInDim KernelIdeal.S1x32 ![1] KernelIdeal.Gen.bcast_S32_S1x32_1 x7))
      = (val_main_v82 (F := Ideal) x0 x1 x2 x3 x6 x7 : FVec Ideal KernelIdeal.S16384x32 .f32) := by
  unfold val_main_v82 val_main_v81 val_main_v80
  rfl

/-- The sampled latent matrix: the mean plus the noise scaled by the exponential of the second head. -/
theorem latent_eq (x0 : (⟨ReferenceIdeal.S16384x128, .f32⟩ : BufTy).Contents (Elt Ideal)) (x1 : (⟨ReferenceIdeal.S2x262144, .i32⟩ : BufTy).Contents (Elt Ideal)) (x2 : (⟨ReferenceIdeal.S128x64, .f32⟩ : BufTy).Contents (Elt Ideal)) (x3 : (⟨ReferenceIdeal.S64, .f32⟩ : BufTy).Contents (Elt Ideal)) (x4 : (⟨ReferenceIdeal.S64x32, .f32⟩ : BufTy).Contents (Elt Ideal)) (x5 : (⟨ReferenceIdeal.S32, .f32⟩ : BufTy).Contents (Elt Ideal)) (x6 : (⟨ReferenceIdeal.S64x32, .f32⟩ : BufTy).Contents (Elt Ideal)) (x7 : (⟨ReferenceIdeal.S32, .f32⟩ : BufTy).Contents (Elt Ideal)) (x8 : (⟨ReferenceIdeal.S16384x32, .f32⟩ : BufTy).Contents (Elt Ideal)) :
    addf (F := Ideal) (s := ReferenceIdeal.S16384x32) (φ := .f32) (val_main_v65 (F := Ideal) x0 x1 x2 x3 x4 x5)
        (mulf (F := Ideal) (s := ReferenceIdeal.S16384x32) (φ := .f32) x8
          (Host.exp (F := Ideal) (s := ReferenceIdeal.S16384x32) (φ := .f32) (val_main_v82 (F := Ideal) x0 x1 x2 x3 x6 x7)))
      = (val_main_v85 (F := Ideal) x0 x1 x2 x3 x4 x5 x6 x7 x8 : FVec Ideal ReferenceIdeal.S16384x32 .f32) := by
  unfold val_main_v85 val_main_v84 val_main_v83
  rfl

end Cert.Bridge

end
-- ==== Proof.LibEdgeOps.lean ====
/-
  Gathers of rows and of vector entries along a list of edges, and the accumulating scatter of rows, read at coordinates.

  A graph computation keeps one node number per edge in an m × 1 array of words.  Three of the host's indexed
  operations meet such an array:

    * the gather of rows: result row e is the operand's row whose number is the edge's word, read as a signed integer
      and clamped into the operand's range ("gather_rows_apply");
    * the gather of vector entries: result entry e is the operand's entry at that clamped number
      ("gather_vec_apply");
    * the scatter of rows: update entry (e, c) lands on operand entry (v, c') exactly when the edge's word, read as a
      signed integer and NOT clamped, is v and c' is c ("scatter_rows_resultIdx"); an edge whose word is negative or
      too large lands nowhere.

  Each statement takes the dimension numbers as an arbitrary record whose fields are the ones such an operation
  carries, so it applies to whichever record a program spells them with.
-/
import Idealize.ShloMosaic.Lib.ValueIdx
import Idealize.ShloMosaic.PureOps.Ideal.Laws

noncomputable section

open scoped BigOperators

namespace EdgeOps

open Idealize.ShloMosaic Idealize.ShloMosaic.ValueIdx

variable {α : Type} {n m q w : ℕ}

/-! ## The gather of rows -/

/-- The dimension numbers of "row idx[e] of an n × q array, for every edge e", as a literal record over given
    conditions. -/
abbrev rowDims (n m q : ℕ)
    (wf : GatherDims.WF ⟨2, ![n, q]⟩ ⟨2, ![m, 1]⟩ ⟨2, ![m, q]⟩ [1] [0] [] [0] [] 1 ![1, q]) :
    GatherDims ⟨2, ![n, q]⟩ ⟨2, ![m, 1]⟩ ⟨2, ![m, q]⟩ where
  offsetDims := [1]
  collapsedSliceDims := [0]
  operandBatchingDims := []
  startIndicesBatchingDims := []
  startIndexMap := [0]
  indexVectorDim := 1
  sliceSizes := ![1, q]
  wf := wf

theorem rowDims_apply (hn : 0 < n)
    (wf : GatherDims.WF ⟨2, ![n, q]⟩ ⟨2, ![m, 1]⟩ ⟨2, ![m, q]⟩ [1] [0] [] [0] [] 1 ![1, q])
    (x : (⟨2, ![n, q]⟩ : Shape).Idx → α) (idx : IVec (⟨2, ![m, 1]⟩ : Shape) w) (e : Fin m) (c : Fin q) :
    Host.gather (rowDims n m q wf) x idx (ix2 e c)
      = x (ix2 ⟨min (idx (ix2 e (0 : Fin 1))).toInt.toNat (n - 1), by omega⟩ c) := by
  unfold Host.gather
  congr 1
  funext a
  refine Fin.ext ?_
  match a with
  | ⟨0, _⟩ =>
    show (rowDims n m q wf).start (ix2 e c) idx 0 + (rowDims n m q wf).batchCoord (ix2 e c) 0
      + (rowDims n m q wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims n m q wf).startIndexMap from List.mem_singleton.mpr rfl)]
    have hsi : (rowDims n m q wf).siIdx (ix2 e c) ⟨List.idxOf (0 : Fin 2) (rowDims n m q wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims n m q wf).start (ix2 e c) idx 1 + (rowDims n m q wf).batchCoord (ix2 e c) 1
      + (rowDims n m q wf).offCoord (ix2 e c) 1 = c.val
    rw [GatherDims.batchCoord_eq_zero _ _ _ List.not_mem_nil]
    have hst : (rowDims n m q wf).start (ix2 e c) idx 1 = 0 := by
      unfold GatherDims.start
      rw [dif_neg (show (1 : Fin 2) ∉ ([0] : List (Fin 2)) by decide)]
    have hoff : (rowDims n m q wf).offCoord (ix2 e c) 1 = c.val := by
      unfold GatherDims.offCoord
      rw [dif_pos ((GatherDims.mem_sKept _ _).mpr
        ⟨(show (1 : Fin 2) ∉ ([0] : List (Fin 2)) by decide), List.not_mem_nil⟩)]
      rfl
    rw [hst, hoff, Nat.zero_add]

/-- THE GATHER OF ROWS READ AT (e, c): the operand at row "the edge's word, signed and clamped into [0, n − 1]",
    column c. -/
theorem gather_rows_apply
    (gd : GatherDims (⟨2, ![n, q]⟩ : Shape) (⟨2, ![m, 1]⟩ : Shape) (⟨2, ![m, q]⟩ : Shape))
    (ho : gd.offsetDims = [1]) (hc : gd.collapsedSliceDims = [0]) (hob : gd.operandBatchingDims = [])
    (hsb : gd.startIndicesBatchingDims = []) (hm : gd.startIndexMap = [0]) (hv : gd.indexVectorDim = 1)
    (hs : gd.sliceSizes = ![1, q]) (hn : 0 < n)
    (x : (⟨2, ![n, q]⟩ : Shape).Idx → α) (idx : IVec (⟨2, ![m, 1]⟩ : Shape) w) (e : Fin m) (c : Fin q) :
    Host.gather gd x idx (ix2 e c)
      = x (ix2 ⟨min (idx (ix2 e (0 : Fin 1))).toInt.toNat (n - 1), by omega⟩ c) := by
  obtain ⟨od, cs, ob, sb, sm, iv, ss, wf⟩ := gd
  dsimp only at ho hc hob hsb hm hv hs
  subst ho hc hob hsb hm hv hs
  exact rowDims_apply hn wf x idx e c

/-! ## The gather of vector entries -/

/-- The dimension numbers of "entry idx[e] of a vector of n, for every edge e", as a literal record over given
    conditions. -/
abbrev vecDims (n m : ℕ)
    (wf : GatherDims.WF ⟨1, ![n]⟩ ⟨2, ![m, 1]⟩ ⟨1, ![m]⟩ [] [0] [] [0] [] 1 ![1]) :
    GatherDims ⟨1, ![n]⟩ ⟨2, ![m, 1]⟩ ⟨1, ![m]⟩ where
  offsetDims := []
  collapsedSliceDims := [0]
  operandBatchingDims := []
  startIndicesBatchingDims := []
  startIndexMap := [0]
  indexVectorDim := 1
  sliceSizes := ![1]
  wf := wf

theorem vecDims_apply (hn : 0 < n)
    (wf : GatherDims.WF ⟨1, ![n]⟩ ⟨2, ![m, 1]⟩ ⟨1, ![m]⟩ [] [0] [] [0] [] 1 ![1])
    (x : (⟨1, ![n]⟩ : Shape).Idx → α) (idx : IVec (⟨2, ![m, 1]⟩ : Shape) w) (e : Fin m) :
    Host.gather (vecDims n m wf) x idx (ix1 e)
      = x (ix1 ⟨min (idx (ix2 e (0 : Fin 1))).toInt.toNat (n - 1), by omega⟩) := by
  unfold Host.gather
  congr 1
  funext a
  obtain rfl : a = 0 := Subsingleton.elim _ _
  refine Fin.ext ?_
  show (vecDims n m wf).start (ix1 e) idx 0 + (vecDims n m wf).batchCoord (ix1 e) 0
    + (vecDims n m wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims n m wf).startIndexMap from List.mem_singleton.mpr rfl)]
  have hsi : (vecDims n m wf).siIdx (ix1 e) ⟨List.idxOf (0 : Fin 1) (vecDims n m wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE GATHER OF VECTOR ENTRIES READ AT e: the operand at "the edge's word, signed and clamped into [0, n − 1]". -/
theorem gather_vec_apply
    (g1 : GatherDims (⟨1, ![n]⟩ : Shape) (⟨2, ![m, 1]⟩ : Shape) (⟨1, ![m]⟩ : Shape))
    (ho : g1.offsetDims = []) (hc : g1.collapsedSliceDims = [0]) (hob : g1.operandBatchingDims = [])
    (hsb : g1.startIndicesBatchingDims = []) (hm : g1.startIndexMap = [0]) (hv : g1.indexVectorDim = 1)
    (hs : g1.sliceSizes = ![1]) (hn : 0 < n)
    (x : (⟨1, ![n]⟩ : Shape).Idx → α) (idx : IVec (⟨2, ![m, 1]⟩ : Shape) w) (e : Fin m) :
    Host.gather g1 x idx (ix1 e)
      = x (ix1 ⟨min (idx (ix2 e (0 : Fin 1))).toInt.toNat (n - 1), by omega⟩) := by
  obtain ⟨od, cs, ob, sb, sm, iv, ss, wf⟩ := g1
  dsimp only at ho hc hob hsb hm hv hs
  subst ho hc hob hsb hm hv hs
  exact vecDims_apply hn wf x idx e

/-! ## The scatter of rows -/

/-- The dimension numbers of "add row e of an m × q array into row idx[e] of an n × q array", as a literal record over
    given conditions. -/
abbrev scatDims (n m q : ℕ)
    (wf : ScatterDims.WF ⟨2, ![n, q]⟩ ⟨2, ![m, 1]⟩ ⟨2, ![m, q]⟩ [1] [0] [0] 1) :
    ScatterDims ⟨2, ![n, q]⟩ ⟨2, ![m, 1]⟩ ⟨2, ![m, q]⟩ where
  updateWindowDims := [1]
  insertedWindowDims := [0]
  scatterDimsToOperandDims := [0]
  indexVectorDim := 1
  wf := wf

section Scatter
variable (wf : ScatterDims.WF ⟨2, ![n, q]⟩ ⟨2, ![m, 1]⟩ ⟨2, ![m, q]⟩ [1] [0] [0] 1)
  (idx : IVec (⟨2, ![m, 1]⟩ : Shape) w) (e : Fin m) (c : Fin q)

/-- On the row axis the window starts at the edge's word, read signed. -/
theorem scatDims_start0 :
    (scatDims n m q wf).start (ix2 e c) idx 0 = (idx (ix2 e (0 : Fin 1))).toInt := by
  unfold ScatterDims.start
  rw [dif_pos (show (0 : Fin 2) ∈ (scatDims n m q wf).scatterDimsToOperandDims from List.mem_singleton.mpr rfl)]
  have hsi : (scatDims n m q wf).siIdx (ix2 e c)
      ⟨List.idxOf (0 : Fin 2) (scatDims n m q wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem scatDims_start1 : (scatDims n m q wf).start (ix2 e c) idx 1 = 0 := by
  unfold ScatterDims.start
  rw [dif_neg (show (1 : Fin 2) ∉ ([0] : List (Fin 2)) by decide)]

/-- The row axis is inserted: its window coordinate is 0. -/
theorem scatDims_window0 : (scatDims n m q wf).window (ix2 e c) 0 = 0 := by
  unfold ScatterDims.window
  have h0 : (0 : Fin 2) ∉ (scatDims n m q wf).sKept := by
    intro h
    have h2 := (List.mem_filter.mp h).2
    simp at h2
  rw [dif_neg h0]

/-- The column axis carries the update's column. -/
theorem scatDims_window1 : (scatDims n m q wf).window (ix2 e c) 1 = c.val := by
  unfold ScatterDims.window
  have h1 : (1 : Fin 2) ∈ (scatDims n m q wf).sKept :=
    List.mem_filter.mpr ⟨List.mem_finRange _, by simp⟩
  rw [dif_pos h1]
  rfl

theorem scatDims_resultIdx (i : (⟨2, ![n, q]⟩ : Shape).Idx) :
    (scatDims n m q wf).resultIdx? (ix2 e c) idx = some i
      ↔ (idx (ix2 e (0 : Fin 1))).toInt = ((i 0).val : ℤ) ∧ (i 1).val = c.val := by
  have hs0 := scatDims_start0 wf idx e c
  have hs1 := scatDims_start1 wf idx e c
  have hw0 := scatDims_window0 wf e c
  have hw1 := scatDims_window1 wf e c
  have hi0 : (i 0).val < n := idx2_lt0 i
  have hi1 : (i 1).val < q := idx2_lt1 i
  have hc : c.val < q := c.isLt
  unfold ScatterDims.resultIdx?
  split
  next h =>
    have g0 := h 0
    have g1 := h 1
    rw [hs0, hw0] at g0
    rw [hs1, hw1] at g1
    constructor
    · intro heq
      have hi := Option.some.inj heq
      have e0 : ((scatDims n m q wf).start (ix2 e c) idx 0
          + ((scatDims n m q wf).window (ix2 e c) 0 : ℕ)).toNat = (i 0).val := congrArg Fin.val (congrFun hi 0)
      have e1 : ((scatDims n m q wf).start (ix2 e c) idx 1
          + ((scatDims n m q wf).window (ix2 e c) 1 : ℕ)).toNat = (i 1).val := congrArg Fin.val (congrFun hi 1)
      rw [hs0, hw0] at e0
      rw [hs1, hw1] at e1
      generalize (idx (ix2 e (0 : Fin 1))).toInt = z at *
      omega
    · rintro ⟨h0, h1⟩
      refine congrArg some (funext fun a => Fin.ext ?_)
      match a with
      | ⟨0, _⟩ =>
        show ((scatDims n m q wf).start (ix2 e c) idx 0
          + ((scatDims n m q wf).window (ix2 e c) 0 : ℕ)).toNat = (i 0).val
        rw [hs0, hw0, h0]; omega
      | ⟨1, _⟩ =>
        show ((scatDims n m q wf).start (ix2 e c) idx 1
          + ((scatDims n m q wf).window (ix2 e c) 1 : ℕ)).toNat = (i 1).val
        rw [hs1, hw1, h1]; omega
  next h =>
    constructor
    · intro heq; exact absurd heq (by simp)
    · rintro ⟨h0, h1⟩
      exfalso
      apply h
      intro a
      match a with
      | ⟨0, _⟩ =>
        show 0 ≤ (scatDims n m q wf).start (ix2 e c) idx 0 + ((scatDims n m q wf).window (ix2 e c) 0 : ℕ)
          ∧ (scatDims n m q wf).start (ix2 e c) idx 0 + ((scatDims n m q wf).window (ix2 e c) 0 : ℕ) < ((n : ℕ) : ℤ)
        rw [hs0, hw0, h0]; omega
      | ⟨1, _⟩ =>
        show 0 ≤ (scatDims n m q wf).start (ix2 e c) idx 1 + ((scatDims n m q wf).window (ix2 e c) 1 : ℕ)
          ∧ (scatDims n m q wf).start (ix2 e c) idx 1 + ((scatDims n m q wf).window (ix2 e c) 1 : ℕ) < ((q : ℕ) : ℤ)
        rw [hs1, hw1]; omega

end Scatter

/-- THE SCATTER OF ROWS: update entry (e, c) lands on operand entry i exactly when the edge's word, read signed and not
    clamped, is i's row, and i's column is c. -/
theorem scatter_rows_resultIdx
    (sd : ScatterDims (⟨2, ![n, q]⟩ : Shape) (⟨2, ![m, 1]⟩ : Shape) (⟨2, ![m, q]⟩ : Shape))
    (hu : sd.updateWindowDims = [1]) (hi : sd.insertedWindowDims = [0]) (hd : sd.scatterDimsToOperandDims = [0])
    (hv : sd.indexVectorDim = 1)
    (idx : IVec (⟨2, ![m, 1]⟩ : Shape) w) (e : Fin m) (c : Fin q) (i : (⟨2, ![n, q]⟩ : Shape).Idx) :
    sd.resultIdx? (ix2 e c) idx = some i
      ↔ (idx (ix2 e (0 : Fin 1))).toInt = ((i 0).val : ℤ) ∧ (i 1).val = c.val := by
  obtain ⟨uw, iw, sdo, iv, wf⟩ := sd
  dsimp only at hu hi hd hv
  subst hu hi hd hv
  exact scatDims_resultIdx wf idx e c i

end EdgeOps

end
-- ==== Proof.AggCols.lean ====
/-
  A message-passing aggregation acts column by column.

  The aggregate of a feature matrix X with C columns has, at row r and column c, the starting value 0 plus the sum,
  over the edges e whose target word read as a signed integer is r, of w(e) · X(s(e), c); here s(e) is the edge's
  source word, wrapped around once if negative, read signed and clamped into the node range.  Which edges point at r,
  and which row s(e) an edge reads, depend on the two index arrays only, never on the column.  So the aggregate of a
  64-column matrix read at column c (or c + 32) is the aggregate, at column c, of the 32-column matrix that holds
  those columns: the two sums run over the same edges and have the same terms.  Nothing is asked of the entries
  (they may be infinite): no sum is rearranged.
-/
import proofs.«154195_j27152783245647_2_alg».proof.Proof.Conv
import proofs.«154195_j27152783245647_2_alg».proof.Proof.LibEdgeOps
import Idealize.ShloMosaic.Lib.ValueIdx
import Idealize.ShloMosaic.Lib.IdealHost
import Idealize.ShloMosaic.Lib.Pipeline.Value

noncomputable section

open scoped BigOperators

namespace Cert.Bridge

open Idealize.ShloMosaic
open Idealize.ShloMosaic.ValueIdx (ix0 ix1 ix2)

/-! ## An accumulating scatter of rows, and the aggregation built on it, read at (r, c) — any extents -/

section Generic
variable {n m q : ℕ}

/-- The accumulating scatter of rows read at (r, c): the operand's entry plus the sum, over the edges whose word read
    signed is r, of the update's entry (e, c).  Update (e, c') lands on (r, c) exactly when the edge's word is r and
    c' is c, so the updates that land on (r, c) are the entries (e, c) of those edges, one for each. -/
theorem scatterAdd_rows_read
    (sd : ScatterDims (⟨2, ![n, q]⟩ : Shape) (⟨2, ![m, 1]⟩ : Shape) (⟨2, ![m, q]⟩ : Shape))
    (hu : sd.updateWindowDims = [1]) (hi : sd.insertedWindowDims = [0]) (hd : sd.scatterDimsToOperandDims = [0])
    (hv : sd.indexVectorDim = 1)
    (z : FVec Ideal (⟨2, ![n, q]⟩ : Shape) .f32) (idx : IVec (⟨2, ![m, 1]⟩ : Shape) 32)
    (upd : FVec Ideal (⟨2, ![m, q]⟩ : Shape) .f32) (r : Fin n) (c : Fin q) :
    Host.scatterAdd (F := Ideal) sd z idx upd (ix2 r c)
      = z (ix2 r c) + ∑ e ∈ Finset.univ.filter (fun e : Fin m => (idx (ix2 e (0 : Fin 1))).toInt = (r.val : ℤ)),
          upd (ix2 e c) := by
  show z (ix2 r c) + ∑ y ∈ Finset.univ.filter (fun y => sd.resultIdx? y idx = some (ix2 r c)), upd y = _
  congr 1
  refine Finset.sum_nbij' (fun y => (⟨(y 0).val, ValueIdx.idx2_lt0 y⟩ : Fin m)) (fun e => ix2 e c) ?_ ?_ ?_ ?_ ?_
  · intro y hy
    obtain ⟨e, c', rfl⟩ : ∃ (e : Fin m) (c' : Fin q), y = ix2 e c' := ⟨y 0, y 1, ValueIdx.eq_ix2 y⟩
    have hy2 := (Finset.mem_filter.mp hy).2
    exact Finset.mem_filter.mpr
      ⟨Finset.mem_univ _, ((EdgeOps.scatter_rows_resultIdx sd hu hi hd hv idx e c' (ix2 r c)).mp hy2).1⟩
  · intro e he
    have he2 := (Finset.mem_filter.mp he).2
    exact Finset.mem_filter.mpr
      ⟨Finset.mem_univ _, (EdgeOps.scatter_rows_resultIdx sd hu hi hd hv idx e c (ix2 r c)).mpr ⟨he2, rfl⟩⟩
  · intro y hy
    obtain ⟨e, c', rfl⟩ : ∃ (e : Fin m) (c' : Fin q), y = ix2 e c' := ⟨y 0, y 1, ValueIdx.eq_ix2 y⟩
    have hy2 := (Finset.mem_filter.mp hy).2
    have h1 : c.val = c'.val := ((EdgeOps.scatter_rows_resultIdx sd hu hi hd hv idx e c' (ix2 r c)).mp hy2).2
    obtain rfl : c = c' := Fin.ext h1
    rfl
  · intro e he
    rfl
  · intro y hy
    obtain ⟨e, c', rfl⟩ : ∃ (e : Fin m) (c' : Fin q), y = ix2 e c' := ⟨y 0, y 1, ValueIdx.eq_ix2 y⟩
    have hy2 := (Finset.mem_filter.mp hy).2
    have h1 : c.val = c'.val := ((EdgeOps.scatter_rows_resultIdx sd hu hi hd hv idx e c' (ix2 r c)).mp hy2).2
    obtain rfl : c = c' := Fin.ext h1
    rfl

/-- A vector laid out as one column: entry (e, u) of the [m] → [m, 1] broadcast is the vector's entry e. -/
theorem col_read {α : Type} (v : (⟨1, ![m]⟩ : Shape).Idx → α)
    (h : (⟨1, ![m]⟩ : Shape).BroadcastsInDim (⟨2, ![m, 1]⟩ : Shape) ![0]) (e : Fin m) (u : Fin 1) :
    broadcastInDim (⟨2, ![m, 1]⟩ : Shape) ![0] h v (ix2 e u) = v (ix1 e) :=
  broadcastInDim_apply _ h v _ _ fun a => by
    match a with
    | ⟨0, _⟩ =>
      show e.val = if m = 1 then 0 else e.val
      split
      · have := e.isLt; omega
      · rfl

/-- A column repeated along the rows: entry (e, c) of the [m, 1] → [m, q] broadcast is the column's entry e. -/
theorem spread_read {α : Type} (v : (⟨2, ![m, 1]⟩ : Shape).Idx → α)
    (h : (⟨2, ![m, 1]⟩ : Shape).BroadcastsInDim (⟨2, ![m, q]⟩ : Shape) ![0, 1]) (e : Fin m) (c : Fin q) :
    broadcastInDim (⟨2, ![m, q]⟩ : Shape) ![0, 1] h v (ix2 e c) = v (ix2 e (0 : Fin 1)) :=
  broadcastInDim_apply _ h v _ _ fun a => by
    match a with
    | ⟨0, _⟩ =>
      show e.val = if m = 1 then 0 else e.val
      split
      · have := e.isLt; omega
      · rfl
    | ⟨1, _⟩ =>
      show (0 : ℕ) = if 1 = 1 then 0 else c.val
      exact (if_pos rfl).symm

/-- The aggregation read at (r, c).  The operands are given through what they read at coordinates: the starting
    array is z0 everywhere, the target and source columns hold the words dv e and sv e, and the weight array holds
    wv e all along row e.  Then the aggregate at (r, c) is z0 plus the sum, over the edges whose target word is r, of
    wv e · X (the source word clamped into [0, n − 1], c). -/
theorem agg_read (hn : 0 < n)
    (sd : ScatterDims (⟨2, ![n, q]⟩ : Shape) (⟨2, ![m, 1]⟩ : Shape) (⟨2, ![m, q]⟩ : Shape))
    (hu : sd.updateWindowDims = [1]) (hi : sd.insertedWindowDims = [0]) (hd : sd.scatterDimsToOperandDims = [0])
    (hv : sd.indexVectorDim = 1)
    (gd : GatherDims (⟨2, ![n, q]⟩ : Shape) (⟨2, ![m, 1]⟩ : Shape) (⟨2, ![m, q]⟩ : Shape))
    (ho : gd.offsetDims = [1]) (hc : gd.collapsedSliceDims = [0]) (hob : gd.operandBatchingDims = [])
    (hsb : gd.startIndicesBatchingDims = []) (hm : gd.startIndexMap = [0]) (hgv : gd.indexVectorDim = 1)
    (hs : gd.sliceSizes = ![1, q])
    (z : FVec Ideal (⟨2, ![n, q]⟩ : Shape) .f32) (di si : IVec (⟨2, ![m, 1]⟩ : Shape) 32)
    (wc : FVec Ideal (⟨2, ![m, q]⟩ : Shape) .f32) (X : FVec Ideal (⟨2, ![n, q]⟩ : Shape) .f32)
    (z0 : EReal) (dv sv : Fin m → BitVec 32) (wv : Fin m → EReal)
    (hz : ∀ (r : Fin n) (c : Fin q), z (ix2 r c) = z0)
    (hdi : ∀ e : Fin m, di (ix2 e (0 : Fin 1)) = dv e) (hsi : ∀ e : Fin m, si (ix2 e (0 : Fin 1)) = sv e)
    (hwc : ∀ (e : Fin m) (c : Fin q), wc (ix2 e c) = wv e) (r : Fin n) (c : Fin q) :
    Host.scatterAdd (F := Ideal) sd z di (mulf wc (Host.gather gd X si)) (ix2 r c)
      = z0 + ∑ e ∈ Finset.univ.filter (fun e : Fin m => (dv e).toInt = (r.val : ℤ)),
          wv e * X (ix2 (⟨min (sv e).toInt.toNat (n - 1), by omega⟩ : Fin n) c) := by
  rw [scatterAdd_rows_read sd hu hi hd hv, hz]
  congr 1
  have hf : Finset.univ.filter (fun e : Fin m => (di (ix2 e (0 : Fin 1))).toInt = (r.val : ℤ))
      = Finset.univ.filter (fun e : Fin m => (dv e).toInt = (r.val : ℤ)) :=
    Finset.filter_congr fun e _ => by rw [hdi e]
  rw [hf]
  refine Finset.sum_congr rfl fun e _ => ?_
  rw [ValueIdx.mulf_apply, EdgeOps.gather_rows_apply gd ho hc hob hsb hm hgv hs hn, hwc]
  exact congrArg (fun t : Fin n => wv e * X (ix2 t c)) (Fin.ext (by
    show min (si (ix2 e (0 : Fin 1))).toInt.toNat (n - 1) = min (sv e).toInt.toNat (n - 1)
    rw [hsi e]))

end Generic

/-! ## The two programs' aggregations on the edges -/

/-- The row an edge reads: its source word, plus the node count when it is negative, read as a signed integer and
    clamped into the node range. -/
def srcRow (s : BitVec 32) : Fin 16384 :=
  ⟨min (Scalar.select (IntOp.cmpi .slt s 0#32) (IntOp.addi s 16384#32) s).toInt.toNat (16384 - 1), by omega⟩

/-- The aggregate at (r, c), on the edges: zero plus the sum, over the edges whose target word is r, of the edge's
    weight times the feature matrix at (the edge's source row, c). -/
def aggAt {q : ℕ} (w : FVec Ideal (⟨1, ![278528]⟩ : Shape) .f32) (src dst : IVec (⟨1, ![278528]⟩ : Shape) 32)
    (X : FVec Ideal (⟨2, ![16384, q]⟩ : Shape) .f32) (r : Fin 16384) (c : Fin q) : EReal :=
  Ideal.ofBits .f32 0x00000000#32
    + ∑ e ∈ Finset.univ.filter (fun e : Fin 278528 => (dst (ix1 e)).toInt = (r.val : ℤ)),
        w (ix1 e) * X (ix2 (srcRow (src (ix1 e))) c)

/-- The 64-column aggregation read at (r, c). -/
theorem aggK_read (w : FVec Ideal Cert.KernelIdeal.S278528 .f32) (src dst : IVec Cert.KernelIdeal.S278528 32)
    (P : FVec Ideal Cert.KernelIdeal.S16384x64 .f32) (r : Fin 16384) (c : Fin 64) :
    aggK w src dst P (ix2 r c) = aggAt w src dst P r c := by
  unfold aggK aggAt
  exact agg_read (by omega) _ rfl rfl rfl rfl _ rfl rfl rfl rfl rfl rfl rfl _ _ _ _ _
    (Ideal.ofBits .f32 0x00000000#32) (fun e => dst (ix1 e))
    (fun e => Scalar.select (IntOp.cmpi .slt (src (ix1 e)) 0#32) (IntOp.addi (src (ix1 e)) 16384#32) (src (ix1 e)))
    (fun e => w (ix1 e))
    (fun r c => ValueIdx.broadcastInDim_scalar_apply _ _ _)
    (fun e => col_read _ _ e 0)
    (fun e => col_read _ _ e 0)
    (fun e c => (spread_read _ _ e c).trans (col_read _ _ e 0)) r c

/-- The 32-column aggregation read at (r, c). -/
theorem aggR_read (w : FVec Ideal Cert.ReferenceIdeal.S278528 .f32) (src dst : IVec Cert.ReferenceIdeal.S278528 32)
    (Q : FVec Ideal Cert.ReferenceIdeal.S16384x32 .f32) (r : Fin 16384) (c : Fin 32) :
    aggR w src dst Q (ix2 r c) = aggAt w src dst Q r c := by
  unfold aggR aggAt
  exact agg_read (by omega) _ rfl rfl rfl rfl _ rfl rfl rfl rfl rfl rfl rfl _ _ _ _ _
    (Ideal.ofBits .f32 0x00000000#32) (fun e => dst (ix1 e))
    (fun e => Scalar.select (IntOp.cmpi .slt (src (ix1 e)) 0#32) (IntOp.addi (src (ix1 e)) 16384#32) (src (ix1 e)))
    (fun e => w (ix1 e))
    (fun r c => ValueIdx.broadcastInDim_scalar_apply _ _ _)
    (fun e => col_read _ _ e 0)
    (fun e => col_read _ _ e 0)
    (fun e c => (spread_read _ _ e c).trans (col_read _ _ e 0)) r c

/-- Two feature matrices that agree on one column each have the same aggregate there: the sums have the same terms. -/
theorem aggAt_congr {q q' : ℕ} (w : FVec Ideal (⟨1, ![278528]⟩ : Shape) .f32)
    (src dst : IVec (⟨1, ![278528]⟩ : Shape) 32) (X : FVec Ideal (⟨2, ![16384, q]⟩ : Shape) .f32)
    (Y : FVec Ideal (⟨2, ![16384, q']⟩ : Shape) .f32) (c : Fin q) (c' : Fin q')
    (h : ∀ r' : Fin 16384, X (ix2 r' c) = Y (ix2 r' c')) (r : Fin 16384) :
    aggAt w src dst X r c = aggAt w src dst Y r c' := by
  unfold aggAt
  exact congrArg (fun t : EReal => Ideal.ofBits .f32 0x00000000#32 + t) (Finset.sum_congr rfl fun e _ => by rw [h])

/-- The low 32 columns of the 64-column aggregation are the 32-column aggregation of the low columns. -/
theorem agg_cols_lo (w : FVec Ideal Cert.KernelIdeal.S278528 .f32) (src dst : IVec Cert.KernelIdeal.S278528 32)
    (P : FVec Ideal Cert.KernelIdeal.S16384x64 .f32) (Q : FVec Ideal Cert.ReferenceIdeal.S16384x32 .f32)
    (hPQ : ∀ (r : Fin 16384) (j : Fin 32), P (ix2 r (⟨j.val, by omega⟩ : Fin 64)) = Q (ix2 r j)) :
    extractStridedSlice Cert.KernelIdeal.S16384x32 ![0, 0] (aggK w src dst P) Cert.KernelIdeal.Facts₀.slices_S16384x64_S16384x32_0_0
      = aggR w src dst Q := by
  funext y
  obtain ⟨p, j, rfl⟩ : ∃ (p : Fin 16384) (j : Fin 32), y = ix2 p j := ⟨y 0, y 1, ValueIdx.eq_ix2 y⟩
  refine (extractStridedSlice_apply _ (aggK w src dst P) _ (ix2 p j) (ix2 p (⟨j.val, by omega⟩ : Fin 64))
    fun a => ?_).trans ?_
  · match a with
    | ⟨0, _⟩ => show p.val = 0 + p.val; omega
    | ⟨1, _⟩ => show j.val = 0 + j.val; omega
  · rw [aggK_read, aggR_read]
    exact aggAt_congr w src dst P Q _ _ (fun r' => hPQ r' j) p

/-- The high 32 columns of the 64-column aggregation are the 32-column aggregation of the high columns. -/
theorem agg_cols_hi (w : FVec Ideal Cert.KernelIdeal.S278528 .f32) (src dst : IVec Cert.KernelIdeal.S278528 32)
    (P : FVec Ideal Cert.KernelIdeal.S16384x64 .f32) (Q : FVec Ideal Cert.ReferenceIdeal.S16384x32 .f32)
    (hPQ : ∀ (r : Fin 16384) (j : Fin 32), P (ix2 r (⟨j.val + 32, by omega⟩ : Fin 64)) = Q (ix2 r j)) :
    extractStridedSlice Cert.KernelIdeal.S16384x32 ![0, 32] (aggK w src dst P) Cert.KernelIdeal.Facts₀.slices_S16384x64_S16384x32_0_32
      = aggR w src dst Q := by
  funext y
  obtain ⟨p, j, rfl⟩ : ∃ (p : Fin 16384) (j : Fin 32), y = ix2 p j := ⟨y 0, y 1, ValueIdx.eq_ix2 y⟩
  refine (extractStridedSlice_apply _ (aggK w src dst P) _ (ix2 p j) (ix2 p (⟨j.val + 32, by omega⟩ : Fin 64))
    fun a => ?_).trans ?_
  · match a with
    | ⟨0, _⟩ => show p.val = 0 + p.val; omega
    | ⟨1, _⟩ => show j.val + 32 = 32 + j.val; omega
  · rw [aggK_read, aggR_read]
    exact aggAt_congr w src dst P Q _ _ (fun r' => hPQ r' j) p

end Cert.Bridge

end
-- ==== Proof.Final0.lean ====
/-
  What the first Pallas call leaves in its output array, entry by entry, over the extended reals.

  The call walks eight grid points. At point t it reads rows 2048 t … 2048 t + 2047 of the 16384 × 128 left
  operand and the whole 128 × 64 right operand, multiplies the two blocks onto a zero accumulator, and writes
  the 2048 × 64 product back as rows 2048 t … 2048 t + 2047 of the output. Entry (p, q) of a block product is
  the sum over l of (row p of the block) · (column q of the right operand), and row p of block t is row
  2048 t + p of the whole operand; so what point t writes back is the block t of ONE array, the full product
  i ↦ ∑ l, A (i₀, l) * B (l, i₁). The eight row blocks tile the output (row r lies in block r / 2048), hence
  the output array ends as the full product.
-/
import proofs.«154195_j27152783245647_2_alg».proof.Proof.Arrays
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.SL.Sem
open Idealize.ShloMosaic.Pipeline (Dat)
open Cert.KernelIdeal Cert.KernelIdeal.Gen
open Idealize.ShloMosaic.ValueIdx (ix2)

/-- The two offsets of a whole-buffer rectangle are both zero. -/
theorem zeroOff0 : (![0, 0] : Fin 2 → Nat) = fun _ => 0 := funext fun a => by fin_cases a <;> rfl

/-! ## The block product at a pair of coordinates -/

/-- The left operand is read in the result's row. -/
theorem dot0_lhs_row (i : S2048x64.Idx) (q : dot_S2048x128_S128x64_S2048x64_1_0_0_1_n_n.contr.Idx) :
    (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
/-- The left operand's column is the contraction position. -/
theorem dot0_lhs_col (i : S2048x64.Idx) (q : dot_S2048x128_S128x64_S2048x64_1_0_0_1_n_n.contr.Idx) :
    (dot_S2048x128_S128x64_S2048x64_1_0_0_1_n_n.lhsIdx i q 1).val = (q ⟨0, by decide⟩).val :=
  dot_S2048x128_S128x64_S2048x64_1_0_0_1_n_n.lhsIdx_val_of_single rfl i q
/-- The right operand's row is the contraction position. -/
theorem dot0_rhs_row (i : S2048x64.Idx) (q : dot_S2048x128_S128x64_S2048x64_1_0_0_1_n_n.contr.Idx) :
    (dot_S2048x128_S128x64_S2048x64_1_0_0_1_n_n.rhsIdx i q 0).val = (q ⟨0, by decide⟩).val :=
  dot_S2048x128_S128x64_S2048x64_1_0_0_1_n_n.rhsIdx_val_of_single rfl i q
/-- The right operand is read in the result's column. -/
theorem dot0_rhs_col (i : S2048x64.Idx) (q : dot_S2048x128_S128x64_S2048x64_1_0_0_1_n_n.contr.Idx) :
    (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl

/-- Entry (p, q) of the body's value: the sum over l of (p, l) of the left block times (l, q) of the right one.
    The accumulator is zero and adds nothing; the one contracted axis is re-indexed by its coordinate. -/
theorem pay0_apply (x0 : Vec Ideal S2048x128 .bf16) (x1 : Vec Ideal S128x64 .bf16) (p : Fin 2048) (q : Fin 64) :
    k0_pay1 x0 x1 (ix2 p q) = ∑ l : Fin 128, x0 (ix2 p l) * x1 (ix2 l q) := by
  unfold k0_pay1
  simp only [shapeCast_self]
  refine (Ideal.matmul_constant_zero_apply (φ₁ := .bf16) (φ₂ := .bf16) dot_S2048x128_S128x64_S2048x64_1_0_0_1_n_n none x0 x1 (ix2 p q)).trans ?_
  rw [← Equiv.sum_comp (ValueIdx.contrEquiv1 dot_S2048x128_S128x64_S2048x64_1_0_0_1_n_n 128 rfl rfl).symm]
  refine Finset.sum_congr rfl fun l _ => ?_
  have hk := ValueIdx.contrEquiv1_symm_val dot_S2048x128_S128x64_S2048x64_1_0_0_1_n_n 128 rfl rfl l
  have el : dot_S2048x128_S128x64_S2048x64_1_0_0_1_n_n.lhsIdx (ix2 p q) ((ValueIdx.contrEquiv1 dot_S2048x128_S128x64_S2048x64_1_0_0_1_n_n 128 rfl rfl).symm l) = ix2 p l := funext fun a => Fin.ext (by
    match a with
    | ⟨0, _⟩ => exact dot0_lhs_row _ _
    | ⟨1, _⟩ => exact (dot0_lhs_col _ _).trans hk)
  have er : dot_S2048x128_S128x64_S2048x64_1_0_0_1_n_n.rhsIdx (ix2 p q) ((ValueIdx.contrEquiv1 dot_S2048x128_S128x64_S2048x64_1_0_0_1_n_n 128 rfl rfl).symm l) = ix2 l q := funext fun a => Fin.ext (by
    match a with
    | ⟨0, _⟩ => exact (dot0_rhs_row _ _).trans hk
    | ⟨1, _⟩ => exact dot0_rhs_col _ _)
  rw [el, er]

/-! ## The full product, and the blocks of the two operands -/

section Blocks

variable (V : (c : Dev nD) → (b : Ref sig .tc) → Buf (Elt Ideal) ((c : Thread nD τ).loc b)) (c : Dev nD)

/-- The product of a 16384 × 128 array and a 128 × 64 array as ONE array: at an index, the sum over l of the left
    array at (row, l) times the right array at (l, column). -/
def fullProd0 (A : S16384x128.Idx → EReal) (B : S128x64.Idx → EReal) : S16384x64.Idx → EReal :=
  fun i => ∑ l : Fin 128, A (ix2 (⟨(i 0).val, ValueIdx.idx2_lt0 i⟩ : Fin 16384) l) * B (ix2 l (⟨(i 1).val, ValueIdx.idx2_lt1 i⟩ : Fin 64))

/-- The full product at an index whose two coordinates are known. -/
theorem fullProd0_apply (A : S16384x128.Idx → EReal) (B : S128x64.Idx → EReal) (i : S16384x64.Idx) (r : Fin 16384) (s : Fin 64)
    (h0 : (i 0).val = r.val) (h1 : (i 1).val = s.val) :
    fullProd0 A B i = ∑ l : Fin 128, A (ix2 r l) * B (ix2 l s) := by
  have e : i = ix2 r s := funext fun a => Fin.ext (by
    match a with
    | ⟨0, _⟩ => exact h0
    | ⟨1, _⟩ => exact h1)
  rw [e]; rfl

/-- The three index maps over the eight grid points: the left operand's and the output's block index is (t, 0), the
    right operand's is (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row x₀ of the left operand's block at point t is row 2048 t + x₀ of the operand. -/
theorem iblk0_left (t : Fin cfg0.N) (x : S2048x128.Idx) (k : S16384x128.Idx)
    (hk0 : (k 0).val = 2048 * t.val + (x 0).val) (hk1 : (k 1).val = (x 1).val) :
    (iblk0 V c 0 t : Vec Ideal S2048x128 .bf16) x = (V c main_v31 : S16384x128.Idx → EReal) k := by
  obtain ⟨e0, e1, -⟩ := idx0 t
  show (V c main_v31 : S16384x128.Idx → EReal) (((cfg0.win 0).blk t).view.emb x) = _
  refine congrArg _ (funext fun a => Fin.ext ?_)
  match a with
  | ⟨0, _⟩ => show win0_0.index t (0 : Fin 2) * 2048 + 1 * (x 0).val = (k 0).val; rw [e0, hk0]; omega
  | ⟨1, _⟩ => show win0_0.index t (1 : Fin 2) * 128 + 1 * (x 1).val = (k 1).val; rw [e1, hk1]; omega

/-- The right operand's block at every point is the whole operand. -/
theorem iblk0_right (t : Fin cfg0.N) (x : S128x64.Idx) :
    (iblk0 V c 1 t : Vec Ideal S128x64 .bf16) x = (V c main_v32 : S128x64.Idx → EReal) x := by
  obtain ⟨-, -, e2, e3, -⟩ := idx0 t
  show (V c main_v32 : S128x64.Idx → EReal) (((cfg0.win 1).blk t).view.emb x) = _
  refine congrArg _ (funext fun a => Fin.ext ?_)
  match a with
  | ⟨0, _⟩ => show win0_1.index t (0 : Fin 2) * 128 + 1 * (x 0).val = (x 0).val; rw [e2]; omega
  | ⟨1, _⟩ => show win0_1.index t (1 : Fin 2) * 64 + 1 * (x 1).val = (x 1).val; rw [e3]; omega

/-! ## What a point writes back, the cover, and the array after the call -/

/-- What point t writes back is block t of the full product of the two operands as the call finds them. -/
theorem flushed0_eq (t : Fin cfg0.N) :
    (dat0 V c).flushed 2 t = ((cfg0.win 2).blk t).view.read (Elt Ideal) (fullProd0 (V c main_v31) (V c main_v32)) := by
  show (cfg0.win 2).cut (grid0.coords t) ((dat0 V c).after 2 t) = _
  rw [after0_2]
  unfold out0_2
  rw [View.canon_unit_zero zeroOff0]
  simp only [View.ld_unit_zero (S := S2048x128) zeroOff0, View.ld_unit_zero (S := S128x64) zeroOff0]
  funext j
  obtain ⟨p, q, rfl⟩ : ∃ (p : Fin 2048) (q : Fin 64), j = ix2 p q := ⟨j 0, j 1, ValueIdx.eq_ix2 j⟩
  obtain ⟨-, -, -, -, e4, e5⟩ := idx0 t
  have ht : t.val < 8 := lt_of_lt_of_eq t.isLt (show cfg0.N = 8 from N_0)
  show k0_pay1 (iblk0 V c 0 t) (iblk0 V c 1 t) (ix2 p q)
    = fullProd0 (V c main_v31) (V c main_v32) (((cfg0.win 2).blk t).view.emb (ix2 p q))
  refine (pay0_apply (iblk0 V c 0 t) (iblk0 V c 1 t) p q).trans ?_
  refine Eq.trans ?_ (fullProd0_apply (V c main_v31) (V c main_v32) (((cfg0.win 2).blk t).view.emb (ix2 p q))
    ⟨2048 * t.val + p.val, by omega⟩ q ?_ ?_).symm
  · refine Finset.sum_congr rfl fun l _ => ?_
    rw [iblk0_left V c t (ix2 p l) (ix2 ⟨2048 * t.val + p.val, by omega⟩ l) rfl rfl, iblk0_right V c t (ix2 l q)]
  · show win0_2.index t (0 : Fin 2) * 2048 + 1 * p.val = 2048 * t.val + p.val; rw [e4]; omega
  · show win0_2.index t (1 : Fin 2) * 64 + 1 * q.val = q.val; rw [e5]; omega

/-- An index of the output array lies in point t's block iff each coordinate lies in the block's range on its axis. -/
theorem mem_blk0 (t : Fin cfg0.N) (i : S16384x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v33).slice (win0_2.rect t)).set ↔ _
  rw [View.set_slice_whole, Rect.mem_set_unit]
  exact Iff.rfl

/-- The eight row blocks tile the output: row r lies in block r / 2048. -/
theorem cover0 (i : S16384x64.Idx) : ∃ t : Fin cfg0.N, (cfg0.win 2).flush t = true ∧ i ∈ ((cfg0.win 2).blk t).view.set := by
  have hi0 : (i 0).val < 16384 := (i 0).isLt
  have hi1 : (i 1).val < 64 := (i 1).isLt
  obtain ⟨t, ht⟩ : ∃ t : Fin cfg0.N, t.val = (i 0).val / 2048 := ⟨⟨(i 0).val / 2048, by rw [show cfg0.N = 8 from N_0]; omega⟩, rfl⟩
  obtain ⟨-, -, -, -, e4, e5⟩ := idx0 t
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; rw [e4, ht]; omega
  | ⟨1, _⟩ => show win0_2.index t (1 : Fin 2) * 64 ≤ (i 1).val ∧ (i 1).val < win0_2.index t (1 : Fin 2) * 64 + 64; rw [e5]; omega

/-- After all eight write-backs the output array is the full product of the two operands as the call finds them. -/
theorem final0 : (dat0 V c).arrAt 2 cfg0.N = fullProd0 (V c main_v31) (V c main_v32) :=
  (dat0 V c).arrAt_eq_of_cover 2 (fullProd0 (V c main_v31) (V c main_v32)) (fun t _ => flushed0_eq V c t) (cover0)

end Blocks

/-! ## The statement over the program's own arrays -/

variable (m : (ℓ : Loc nD τ sig) → Buf (Elt Ideal) ℓ) (c : Dev nD)

/-- Entry (i, j) of the first call's output is the sum over k of the left operand at (i, k) times the right operand
    at (k, j). -/
theorem prod0_apply (i : Fin 16384) (j : Fin 64) :
    prod0 m c (ix2 i j) = ∑ k : Fin 128, opL0 m c (ix2 i k) * opR0 m c (ix2 k j) := by
  show (dat0 (atTc (W3 (F := Ideal) m)) c).arrAt 2 cfg0.N (ix2 i j) = _
  rw [final0]
  rfl

end Cert.KernelIdeal.Hand

end
-- ==== Proof.Final1.lean ====
/-
  What the second Pallas call leaves in its output array, entry by entry, over the extended reals.

  The call walks eight grid points. At point t it reads rows 2048 t … 2048 t + 2047 of the 16384 × 64 left
  operand and the whole 64 × 64 right operand, multiplies the two blocks onto a zero accumulator, and writes
  the 2048 × 64 product back as rows 2048 t … 2048 t + 2047 of the output. Entry (p, q) of a block product is
  the sum over l of (row p of the block) · (column q of the right operand), and row p of block t is row
  2048 t + p of the whole operand; so what point t writes back is the block t of ONE array, the full product
  i ↦ ∑ l, A (i₀, l) * B (l, i₁). The eight row blocks tile the output (row r lies in block r / 2048), hence
  the output array ends as the full product.
-/
import proofs.«154195_j27152783245647_2_alg».proof.Proof.Arrays
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.SL.Sem
open Idealize.ShloMosaic.Pipeline (Dat)
open Cert.KernelIdeal Cert.KernelIdeal.Gen
open Idealize.ShloMosaic.ValueIdx (ix2)

/-- The two offsets of a whole-buffer rectangle are both zero. -/
theorem zeroOff1 : (![0, 0] : Fin 2 → Nat) = fun _ => 0 := funext fun a => by fin_cases a <;> rfl

/-! ## The block product at a pair of coordinates -/

/-- The left operand is read in the result's row. -/
theorem dot1_lhs_row (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
/-- The left operand's column is the contraction position. -/
theorem dot1_lhs_col (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
/-- The right operand's row is the contraction position. -/
theorem dot1_rhs_row (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
/-- The right operand is read in the result's column. -/
theorem dot1_rhs_col (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- Entry (p, q) of the body's value: the sum over l of (p, l) of the left block times (l, q) of the right one.
    The accumulator is zero and adds nothing; the one contracted axis is re-indexed by its coordinate. -/
theorem pay1_apply (x0 : Vec Ideal S2048x64 .bf16) (x1 : Vec Ideal S64x64 .bf16) (p : Fin 2048) (q : Fin 64) :
    k1_pay1 x0 x1 (ix2 p q) = ∑ l : Fin 64, x0 (ix2 p l) * x1 (ix2 l q) := by
  unfold k1_pay1
  simp only [shapeCast_self]
  refine (Ideal.matmul_constant_zero_apply (φ₁ := .bf16) (φ₂ := .bf16) dot_S2048x64_S64x64_S2048x64_1_0_0_1_n_n none x0 x1 (ix2 p q)).trans ?_
  rw [← Equiv.sum_comp (ValueIdx.contrEquiv1 dot_S2048x64_S64x64_S2048x64_1_0_0_1_n_n 64 rfl rfl).symm]
  refine Finset.sum_congr rfl fun l _ => ?_
  have hk := ValueIdx.contrEquiv1_symm_val dot_S2048x64_S64x64_S2048x64_1_0_0_1_n_n 64 rfl rfl l
  have el : dot_S2048x64_S64x64_S2048x64_1_0_0_1_n_n.lhsIdx (ix2 p q) ((ValueIdx.contrEquiv1 dot_S2048x64_S64x64_S2048x64_1_0_0_1_n_n 64 rfl rfl).symm l) = ix2 p l := funext fun a => Fin.ext (by
    match a with
    | ⟨0, _⟩ => exact dot1_lhs_row _ _
    | ⟨1, _⟩ => exact (dot1_lhs_col _ _).trans hk)
  have er : dot_S2048x64_S64x64_S2048x64_1_0_0_1_n_n.rhsIdx (ix2 p q) ((ValueIdx.contrEquiv1 dot_S2048x64_S64x64_S2048x64_1_0_0_1_n_n 64 rfl rfl).symm l) = ix2 l q := funext fun a => Fin.ext (by
    match a with
    | ⟨0, _⟩ => exact (dot1_rhs_row _ _).trans hk
    | ⟨1, _⟩ => exact dot1_rhs_col _ _)
  rw [el, er]

/-! ## The full product, and the blocks of the two operands -/

section Blocks

variable (V : (c : Dev nD) → (b : Ref sig .tc) → Buf (Elt Ideal) ((c : Thread nD τ).loc b)) (c : Dev nD)

/-- The product of a 16384 × 64 array and a 64 × 64 array as ONE array: at an index, the sum over l of the left
    array at (row, l) times the right array at (l, column). -/
def fullProd1 (A : S16384x64.Idx → EReal) (B : S64x64.Idx → EReal) : S16384x64.Idx → EReal :=
  fun i => ∑ l : Fin 64, A (ix2 (⟨(i 0).val, ValueIdx.idx2_lt0 i⟩ : Fin 16384) l) * B (ix2 l (⟨(i 1).val, ValueIdx.idx2_lt1 i⟩ : Fin 64))

/-- The full product at an index whose two coordinates are known. -/
theorem fullProd1_apply (A : S16384x64.Idx → EReal) (B : S64x64.Idx → EReal) (i : S16384x64.Idx) (r : Fin 16384) (s : Fin 64)
    (h0 : (i 0).val = r.val) (h1 : (i 1).val = s.val) :
    fullProd1 A B i = ∑ l : Fin 64, A (ix2 r l) * B (ix2 l s) := by
  have e : i = ix2 r s := funext fun a => Fin.ext (by
    match a with
    | ⟨0, _⟩ => exact h0
    | ⟨1, _⟩ => exact h1)
  rw [e]; rfl

/-- The three index maps over the eight grid points: the left operand's and the output's block index is (t, 0), the
    right operand's is (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row x₀ of the left operand's block at point t is row 2048 t + x₀ of the operand. -/
theorem iblk1_left (t : Fin cfg1.N) (x : S2048x64.Idx) (k : S16384x64.Idx)
    (hk0 : (k 0).val = 2048 * t.val + (x 0).val) (hk1 : (k 1).val = (x 1).val) :
    (iblk1 V c 0 t : Vec Ideal S2048x64 .bf16) x = (V c main_v52 : S16384x64.Idx → EReal) k := by
  obtain ⟨e0, e1, -⟩ := idx1 t
  show (V c main_v52 : S16384x64.Idx → EReal) (((cfg1.win 0).blk t).view.emb x) = _
  refine congrArg _ (funext fun a => Fin.ext ?_)
  match a with
  | ⟨0, _⟩ => show win1_0.index t (0 : Fin 2) * 2048 + 1 * (x 0).val = (k 0).val; rw [e0, hk0]; omega
  | ⟨1, _⟩ => show win1_0.index t (1 : Fin 2) * 64 + 1 * (x 1).val = (k 1).val; rw [e1, hk1]; omega

/-- The right operand's block at every point is the whole operand. -/
theorem iblk1_right (t : Fin cfg1.N) (x : S64x64.Idx) :
    (iblk1 V c 1 t : Vec Ideal S64x64 .bf16) x = (V c main_v53 : S64x64.Idx → EReal) x := by
  obtain ⟨-, -, e2, e3, -⟩ := idx1 t
  show (V c main_v53 : S64x64.Idx → EReal) (((cfg1.win 1).blk t).view.emb x) = _
  refine congrArg _ (funext fun a => Fin.ext ?_)
  match a with
  | ⟨0, _⟩ => show win1_1.index t (0 : Fin 2) * 64 + 1 * (x 0).val = (x 0).val; rw [e2]; omega
  | ⟨1, _⟩ => show win1_1.index t (1 : Fin 2) * 64 + 1 * (x 1).val = (x 1).val; rw [e3]; omega

/-! ## What a point writes back, the cover, and the array after the call -/

/-- What point t writes back is block t of the full product of the two operands as the call finds them. -/
theorem flushed1_eq (t : Fin cfg1.N) :
    (dat1 V c).flushed 2 t = ((cfg1.win 2).blk t).view.read (Elt Ideal) (fullProd1 (V c main_v52) (V c main_v53)) := by
  show (cfg1.win 2).cut (grid1.coords t) ((dat1 V c).after 2 t) = _
  rw [after1_2]
  unfold out1_2
  rw [View.canon_unit_zero zeroOff1]
  simp only [View.ld_unit_zero (S := S2048x64) zeroOff1, View.ld_unit_zero (S := S64x64) zeroOff1]
  funext j
  obtain ⟨p, q, rfl⟩ : ∃ (p : Fin 2048) (q : Fin 64), j = ix2 p q := ⟨j 0, j 1, ValueIdx.eq_ix2 j⟩
  obtain ⟨-, -, -, -, e4, e5⟩ := idx1 t
  have ht : t.val < 8 := lt_of_lt_of_eq t.isLt (show cfg1.N = 8 from N_1)
  show k1_pay1 (iblk1 V c 0 t) (iblk1 V c 1 t) (ix2 p q)
    = fullProd1 (V c main_v52) (V c main_v53) (((cfg1.win 2).blk t).view.emb (ix2 p q))
  refine (pay1_apply (iblk1 V c 0 t) (iblk1 V c 1 t) p q).trans ?_
  refine Eq.trans ?_ (fullProd1_apply (V c main_v52) (V c main_v53) (((cfg1.win 2).blk t).view.emb (ix2 p q))
    ⟨2048 * t.val + p.val, by omega⟩ q ?_ ?_).symm
  · refine Finset.sum_congr rfl fun l _ => ?_
    rw [iblk1_left V c t (ix2 p l) (ix2 ⟨2048 * t.val + p.val, by omega⟩ l) rfl rfl, iblk1_right V c t (ix2 l q)]
  · show win1_2.index t (0 : Fin 2) * 2048 + 1 * p.val = 2048 * t.val + p.val; rw [e4]; omega
  · show win1_2.index t (1 : Fin 2) * 64 + 1 * q.val = q.val; rw [e5]; omega

/-- An index of the output array lies in point t's block iff each coordinate lies in the block's range on its axis. -/
theorem mem_blk1 (t : Fin cfg1.N) (i : S16384x64.Idx) :
    i ∈ ((cfg1.win 2).blk t).view.set ↔ ∀ a : Fin 2, win1_2.index t a * S2048x64.size a ≤ (i a).val ∧ (i a).val < win1_2.index t a * S2048x64.size a + S2048x64.size a := by
  show i ∈ ((View.whole main_v54).slice (win1_2.rect t)).set ↔ _
  rw [View.set_slice_whole, Rect.mem_set_unit]
  exact Iff.rfl

/-- The eight row blocks tile the output: row r lies in block r / 2048. -/
theorem cover1 (i : S16384x64.Idx) : ∃ t : Fin cfg1.N, (cfg1.win 2).flush t = true ∧ i ∈ ((cfg1.win 2).blk t).view.set := by
  have hi0 : (i 0).val < 16384 := (i 0).isLt
  have hi1 : (i 1).val < 64 := (i 1).isLt
  obtain ⟨t, ht⟩ : ∃ t : Fin cfg1.N, t.val = (i 0).val / 2048 := ⟨⟨(i 0).val / 2048, by rw [show cfg1.N = 8 from N_1]; omega⟩, rfl⟩
  obtain ⟨-, -, -, -, e4, e5⟩ := idx1 t
  refine ⟨t, flush1_2 t, ?_⟩
  rw [mem_blk1]
  intro a
  match a with
  | ⟨0, _⟩ => show win1_2.index t (0 : Fin 2) * 2048 ≤ (i 0).val ∧ (i 0).val < win1_2.index t (0 : Fin 2) * 2048 + 2048; rw [e4, ht]; omega
  | ⟨1, _⟩ => show win1_2.index t (1 : Fin 2) * 64 ≤ (i 1).val ∧ (i 1).val < win1_2.index t (1 : Fin 2) * 64 + 64; rw [e5]; omega

/-- After all eight write-backs the output array is the full product of the two operands as the call finds them. -/
theorem final1 : (dat1 V c).arrAt 2 cfg1.N = fullProd1 (V c main_v52) (V c main_v53) :=
  (dat1 V c).arrAt_eq_of_cover 2 (fullProd1 (V c main_v52) (V c main_v53)) (fun t _ => flushed1_eq V c t) (cover1)

end Blocks

/-! ## The statement over the program's own arrays -/

variable (m : (ℓ : Loc nD τ sig) → Buf (Elt Ideal) ℓ) (c : Dev nD)

/-- Entry (i, j) of the second call's output is the sum over k of the left operand at (i, k) times the right operand
    at (k, j). -/
theorem prod1_apply (i : Fin 16384) (j : Fin 64) :
    prod1 m c (ix2 i j) = ∑ k : Fin 64, opL1 m c (ix2 i k) * opR1 m c (ix2 k j) := by
  show (dat1 (atTc (W7 (F := Ideal) m)) c).arrAt 2 cfg1.N (ix2 i j) = _
  rw [final1]
  rfl

end Cert.KernelIdeal.Hand

end
-- ==== Proof.Final2.lean ====
/-
  What the third Pallas call leaves in its output array, entry by entry, over the extended reals.

  The call walks an 8 × 16 grid; point t has coordinates (t / 16, t % 16). At the point (a, b) it reads rows
  2048 a … 2048 a + 2047 of the 16384 × 32 latent matrix as its left block and rows 1024 b … 1024 b + 1023 of THE
  SAME matrix as its right block, multiplies the left block by the transpose of the right one onto a zero
  accumulator (both blocks are contracted along their second axis, so no transpose is ever formed), applies the
  logistic function entry by entry, and writes the 2048 × 1024 result back as tile (a, b) of the 16384 × 16384
  output. Entry (p, q) of the tile is logistic (∑ l, (row p of the left block)(l) * (row q of the right block)(l)),
  and those rows are rows 2048 a + p and 1024 b + q of the latent matrix; so what a point writes back is its
  tile of ONE array, i ↦ logistic (∑ l, Z (i₀, l) * Z (i₁, l)). The 128 tiles cover the output (entry (r, s)
  lies in tile (r / 2048, s / 1024), which is point 16 (r / 2048) + s / 1024), hence the output array ends as
  that array.
-/
import proofs.«154195_j27152783245647_2_alg».proof.Proof.Arrays
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.SL.Sem
open Idealize.ShloMosaic.Pipeline (Dat)
open Cert.KernelIdeal Cert.KernelIdeal.Gen
open Idealize.ShloMosaic.ValueIdx (ix2)

/-- The two offsets of a whole-buffer rectangle are both zero. -/
theorem zeroOff2 : (![0, 0] : Fin 2 → Nat) = fun _ => 0 := funext fun a => by fin_cases a <;> rfl

/-! ## The tile at a pair of coordinates -/

/-- The left block is read in the result's row. -/
theorem dot2_lhs_row (i : S2048x1024.Idx) (q : dot_S2048x32_S1024x32_S2048x1024_1_1_0_0_n_n.contr.Idx) :
    (dot_S2048x32_S1024x32_S2048x1024_1_1_0_0_n_n.lhsIdx i q 0).val = (i 0).val := by
  unfold DotDims.lhsIdx
  rw [dif_neg (show ¬(0 : Fin S2048x32.rank) ∈ dot_S2048x32_S1024x32_S2048x1024_1_1_0_0_n_n.lhsBatch by decide), dif_pos (show (0 : Fin S2048x32.rank) ∈ dot_S2048x32_S1024x32_S2048x1024_1_1_0_0_n_n.lhsNonContracting by decide)]
  rfl
/-- The left block's column is the contraction position. -/
theorem dot2_lhs_col (i : S2048x1024.Idx) (q : dot_S2048x32_S1024x32_S2048x1024_1_1_0_0_n_n.contr.Idx) :
    (dot_S2048x32_S1024x32_S2048x1024_1_1_0_0_n_n.lhsIdx i q 1).val = (q ⟨0, by decide⟩).val :=
  dot_S2048x32_S1024x32_S2048x1024_1_1_0_0_n_n.lhsIdx_val_of_single rfl i q
/-- The right block is read in the row named by the result's column. -/
theorem dot2_rhs_row (i : S2048x1024.Idx) (q : dot_S2048x32_S1024x32_S2048x1024_1_1_0_0_n_n.contr.Idx) :
    (dot_S2048x32_S1024x32_S2048x1024_1_1_0_0_n_n.rhsIdx i q 0).val = (i 1).val := by
  unfold DotDims.rhsIdx
  rw [dif_neg (show ¬(0 : Fin S1024x32.rank) ∈ dot_S2048x32_S1024x32_S2048x1024_1_1_0_0_n_n.rhsBatch by decide), dif_pos (show (0 : Fin S1024x32.rank) ∈ dot_S2048x32_S1024x32_S2048x1024_1_1_0_0_n_n.rhsNonContracting by decide)]
  rfl
/-- The right block's column is the contraction position. -/
theorem dot2_rhs_col (i : S2048x1024.Idx) (q : dot_S2048x32_S1024x32_S2048x1024_1_1_0_0_n_n.contr.Idx) :
    (dot_S2048x32_S1024x32_S2048x1024_1_1_0_0_n_n.rhsIdx i q 1).val = (q ⟨0, by decide⟩).val :=
  dot_S2048x32_S1024x32_S2048x1024_1_1_0_0_n_n.rhsIdx_val_of_single rfl i q

/-- Entry (p, q) of the body's value: the logistic function of the sum over l of (p, l) of the left block times
    (q, l) of the right one. The accumulator is zero and adds nothing; the one contracted axis is re-indexed by
    its coordinate; the logistic function acts entry by entry. -/
theorem pay2_apply (x0 : Vec Ideal S2048x32 .bf16) (x1 : Vec Ideal S1024x32 .bf16) (p : Fin 2048) (q : Fin 1024) :
    k2_pay1 x0 x1 (ix2 p q) = Ideal.logistic (∑ l : Fin 32, x0 (ix2 p l) * x1 (ix2 q l)) := by
  unfold k2_pay1
  simp only [shapeCast_self]
  refine congrArg Ideal.logistic ?_
  refine (Ideal.matmul_constant_zero_apply (φ₁ := .bf16) (φ₂ := .bf16) dot_S2048x32_S1024x32_S2048x1024_1_1_0_0_n_n none x0 x1 (ix2 p q)).trans ?_
  rw [← Equiv.sum_comp (ValueIdx.contrEquiv1 dot_S2048x32_S1024x32_S2048x1024_1_1_0_0_n_n 32 rfl rfl).symm]
  refine Finset.sum_congr rfl fun l _ => ?_
  have hk := ValueIdx.contrEquiv1_symm_val dot_S2048x32_S1024x32_S2048x1024_1_1_0_0_n_n 32 rfl rfl l
  have el : dot_S2048x32_S1024x32_S2048x1024_1_1_0_0_n_n.lhsIdx (ix2 p q) ((ValueIdx.contrEquiv1 dot_S2048x32_S1024x32_S2048x1024_1_1_0_0_n_n 32 rfl rfl).symm l) = ix2 p l := funext fun a => Fin.ext (by
    match a with
    | ⟨0, _⟩ => exact dot2_lhs_row _ _
    | ⟨1, _⟩ => exact (dot2_lhs_col _ _).trans hk)
  have er : dot_S2048x32_S1024x32_S2048x1024_1_1_0_0_n_n.rhsIdx (ix2 p q) ((ValueIdx.contrEquiv1 dot_S2048x32_S1024x32_S2048x1024_1_1_0_0_n_n 32 rfl rfl).symm l) = ix2 q l := funext fun a => Fin.ext (by
    match a with
    | ⟨0, _⟩ => exact dot2_rhs_row _ _
    | ⟨1, _⟩ => exact (dot2_rhs_col _ _).trans hk)
  rw [el, er]

/-! ## The decoded array, and the two blocks of the latent matrix -/

section Blocks

variable (V : (c : Dev nD) → (b : Ref sig .tc) → Buf (Elt Ideal) ((c : Thread nD τ).loc b)) (c : Dev nD)

/-- The decoded adjacency of a 16384 × 32 latent matrix as ONE array: at an index, the logistic function of the
    inner product of the two rows the index names. -/
def fullDec2 (Z : S16384x32.Idx → EReal) : S16384x16384.Idx → EReal :=
  fun i => Ideal.logistic (∑ l : Fin 32, Z (ix2 (⟨(i 0).val, ValueIdx.idx2_lt0 i⟩ : Fin 16384) l) * Z (ix2 (⟨(i 1).val, ValueIdx.idx2_lt1 i⟩ : Fin 16384) l))

/-- The decoded array at an index whose two coordinates are known. -/
theorem fullDec2_apply (Z : S16384x32.Idx → EReal) (i : S16384x16384.Idx) (r s : Fin 16384)
    (h0 : (i 0).val = r.val) (h1 : (i 1).val = s.val) :
    fullDec2 Z i = Ideal.logistic (∑ l : Fin 32, Z (ix2 r l) * Z (ix2 s l)) := by
  have e : i = ix2 r s := funext fun a => Fin.ext (by
    match a with
    | ⟨0, _⟩ => exact h0
    | ⟨1, _⟩ => exact h1)
  rw [e]; rfl

/-- The three index maps over the 128 grid points: at point t, with coordinates (t / 16, t % 16), the left block's
    index is (t / 16, 0), the right block's is (t % 16, 0), the output tile's is (t / 16, t % 16). -/
theorem idx2 : ∀ t : Fin cfg2.N, win2_0.index t (0 : Fin 2) = t.val / 16 ∧ win2_0.index t (1 : Fin 2) = 0
    ∧ win2_1.index t (0 : Fin 2) = t.val % 16 ∧ win2_1.index t (1 : Fin 2) = 0
    ∧ win2_2.index t (0 : Fin 2) = t.val / 16 ∧ win2_2.index t (1 : Fin 2) = t.val % 16 :=
  (by decide +kernel : ∀ t : Fin grid2.N, _)

/-- Row x₀ of the left block at point t is row 2048 (t / 16) + x₀ of the latent matrix. -/
theorem iblk2_left (t : Fin cfg2.N) (x : S2048x32.Idx) (k : S16384x32.Idx)
    (hk0 : (k 0).val = 2048 * (t.val / 16) + (x 0).val) (hk1 : (k 1).val = (x 1).val) :
    (iblk2 V c 0 t : Vec Ideal S2048x32 .bf16) x = (V c main_v79 : S16384x32.Idx → EReal) k := by
  obtain ⟨e0, e1, -⟩ := idx2 t
  show (V c main_v79 : S16384x32.Idx → EReal) (((cfg2.win 0).blk t).view.emb x) = _
  refine congrArg _ (funext fun a => Fin.ext ?_)
  match a with
  | ⟨0, _⟩ => show win2_0.index t (0 : Fin 2) * 2048 + 1 * (x 0).val = (k 0).val; rw [e0, hk0]; omega
  | ⟨1, _⟩ => show win2_0.index t (1 : Fin 2) * 32 + 1 * (x 1).val = (k 1).val; rw [e1, hk1]; omega

/-- Row x₀ of the right block at point t is row 1024 (t % 16) + x₀ of the latent matrix. -/
theorem iblk2_right (t : Fin cfg2.N) (x : S1024x32.Idx) (k : S16384x32.Idx)
    (hk0 : (k 0).val = 1024 * (t.val % 16) + (x 0).val) (hk1 : (k 1).val = (x 1).val) :
    (iblk2 V c 1 t : Vec Ideal S1024x32 .bf16) x = (V c main_v79 : S16384x32.Idx → EReal) k := by
  obtain ⟨-, -, e2, e3, -⟩ := idx2 t
  show (V c main_v79 : S16384x32.Idx → EReal) (((cfg2.win 1).blk t).view.emb x) = _
  refine congrArg _ (funext fun a => Fin.ext ?_)
  match a with
  | ⟨0, _⟩ => show win2_1.index t (0 : Fin 2) * 1024 + 1 * (x 0).val = (k 0).val; rw [e2, hk0]; omega
  | ⟨1, _⟩ => show win2_1.index t (1 : Fin 2) * 32 + 1 * (x 1).val = (k 1).val; rw [e3, hk1]; omega

/-! ## What a point writes back, the cover, and the array after the call -/

/-- What point t writes back is tile t of the decoded array of the latent matrix as the call finds it. -/
theorem flushed2_eq (t : Fin cfg2.N) :
    (dat2 V c).flushed 2 t = ((cfg2.win 2).blk t).view.read (Elt Ideal) (fullDec2 (V c main_v79)) := by
  show (cfg2.win 2).cut (grid2.coords t) ((dat2 V c).after 2 t) = _
  rw [after2_2]
  unfold out2_2
  rw [View.canon_unit_zero zeroOff2]
  simp only [View.ld_unit_zero (S := S2048x32) zeroOff2, View.ld_unit_zero (S := S1024x32) zeroOff2]
  funext j
  obtain ⟨p, q, rfl⟩ : ∃ (p : Fin 2048) (q : Fin 1024), j = ix2 p q := ⟨j 0, j 1, ValueIdx.eq_ix2 j⟩
  obtain ⟨-, -, -, -, e4, e5⟩ := idx2 t
  have ht : t.val < 128 := lt_of_lt_of_eq t.isLt (show cfg2.N = 128 from N_2)
  have hp : p.val < 2048 := p.isLt
  have hq : q.val < 1024 := q.isLt
  show k2_pay1 (iblk2 V c 0 t) (iblk2 V c 1 t) (ix2 p q)
    = fullDec2 (V c main_v79) (((cfg2.win 2).blk t).view.emb (ix2 p q))
  refine (pay2_apply (iblk2 V c 0 t) (iblk2 V c 1 t) p q).trans ?_
  refine Eq.trans ?_ (fullDec2_apply (V c main_v79) (((cfg2.win 2).blk t).view.emb (ix2 p q))
    ⟨2048 * (t.val / 16) + p.val, by omega⟩ ⟨1024 * (t.val % 16) + q.val, by omega⟩ ?_ ?_).symm
  · refine congrArg Ideal.logistic (Finset.sum_congr rfl fun l _ => ?_)
    rw [iblk2_left V c t (ix2 p l) (ix2 ⟨2048 * (t.val / 16) + p.val, by omega⟩ l) rfl rfl,
      iblk2_right V c t (ix2 q l) (ix2 ⟨1024 * (t.val % 16) + q.val, by omega⟩ l) rfl rfl]
  · show win2_2.index t (0 : Fin 2) * 2048 + 1 * p.val = 2048 * (t.val / 16) + p.val; rw [e4]; omega
  · show win2_2.index t (1 : Fin 2) * 1024 + 1 * q.val = 1024 * (t.val % 16) + q.val; rw [e5]; omega

/-- An index of the output array lies in point t's tile iff each coordinate lies in the tile's range on its axis. -/
theorem mem_blk2 (t : Fin cfg2.N) (i : S16384x16384.Idx) :
    i ∈ ((cfg2.win 2).blk t).view.set ↔ ∀ a : Fin 2, win2_2.index t a * S2048x1024.size a ≤ (i a).val ∧ (i a).val < win2_2.index t a * S2048x1024.size a + S2048x1024.size a := by
  show i ∈ ((View.whole main_v80).slice (win2_2.rect t)).set ↔ _
  rw [View.set_slice_whole, Rect.mem_set_unit]
  exact Iff.rfl

/-- The 128 tiles cover the output: entry (r, s) lies in the tile of point 16 (r / 2048) + s / 1024. -/
theorem cover2 (i : S16384x16384.Idx) : ∃ t : Fin cfg2.N, (cfg2.win 2).flush t = true ∧ i ∈ ((cfg2.win 2).blk t).view.set := by
  have hi0 : (i 0).val < 16384 := (i 0).isLt
  have hi1 : (i 1).val < 16384 := (i 1).isLt
  obtain ⟨t, ht⟩ : ∃ t : Fin cfg2.N, t.val = 16 * ((i 0).val / 2048) + (i 1).val / 1024 :=
    ⟨⟨16 * ((i 0).val / 2048) + (i 1).val / 1024, by rw [show cfg2.N = 128 from N_2]; omega⟩, rfl⟩
  obtain ⟨-, -, -, -, e4, e5⟩ := idx2 t
  refine ⟨t, flush2_2 t, ?_⟩
  rw [mem_blk2]
  intro a
  match a with
  | ⟨0, _⟩ => show win2_2.index t (0 : Fin 2) * 2048 ≤ (i 0).val ∧ (i 0).val < win2_2.index t (0 : Fin 2) * 2048 + 2048; rw [e4, ht]; omega
  | ⟨1, _⟩ => show win2_2.index t (1 : Fin 2) * 1024 ≤ (i 1).val ∧ (i 1).val < win2_2.index t (1 : Fin 2) * 1024 + 1024; rw [e5, ht]; omega

/-- After all 128 write-backs the output array is the decoded array of the latent matrix as the call finds it. -/
theorem final2 : (dat2 V c).arrAt 2 cfg2.N = fullDec2 (V c main_v79) :=
  (dat2 V c).arrAt_eq_of_cover 2 (fullDec2 (V c main_v79)) (fun t _ => flushed2_eq V c t) (cover2)

end Blocks

/-! ## The statement over the program's own arrays -/

variable (m : (ℓ : Loc nD τ sig) → Buf (Elt Ideal) ℓ) (c : Dev nD)

/-- Entry (i, j) of the third call's output is the logistic function of the inner product of rows i and j of the
    latent matrix. -/
theorem dec2_apply (i j : Fin 16384) :
    dec2 m c (ix2 i j) = Ideal.logistic (∑ k : Fin 32, opZ m c (ix2 i k) * opZ m c (ix2 j k)) := by
  show (dat2 (atTc (W9 (F := Ideal) m)) c).arrAt 2 cfg2.N (ix2 i j) = _
  rw [final2]
  rfl

end Cert.KernelIdeal.Hand

end
-- ==== Proof.LibConcatCols.lean ====
/-
  Two arrays with the same number of rows laid side by side.

  Joining an n × a array X and an n × b array Y along the second axis gives an n × c array (c = a + b) whose row r is row r
  of X followed by row r of Y.  Read at an index (r, k) of the joined array: for k = l < a it is X (r, l) (`left`), and for
  k = a + l it is Y (r, l) (`right`).  The index of the joined array is given with its two coordinates as hypotheses, so
  the lemmas apply however the index is spelt.
-/
import Idealize.ShloMosaic.Lib.Pipeline.Value
import Idealize.ShloMosaic.Lib.ValueIdx

namespace ConcatCols

open Idealize.ShloMosaic Idealize.ShloMosaic.ValueIdx

variable {α : Type} {n a b c : ℕ}

/-- A position of the joined row that falls in the first array's columns reads the first array. -/
theorem left (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1)
    (j : (⟨2, ![n, c]⟩ : Shape).Idx) (r : Fin n) (l : Fin a) (hr : (j 0).val = r.val) (hl : (j 1).val = l.val) :
    concatenate ⟨2, ![n, c]⟩ 1 [⟨⟨2, ![n, a]⟩, x⟩, ⟨⟨2, ![n, b]⟩, y⟩] h j = x (ix2 r l) :=
  concatenate_pair_apply_left (t := ⟨2, ![n, c]⟩) (1 : Fin 2) x y h j rfl (ix2 r l)
    (fun d => by match d with | ⟨0, _⟩ => exact hr.symm | ⟨1, _⟩ => exact hl.symm)

/-- A position a + l of the joined row reads position l of the second array's row. -/
theorem right (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1)
    (j : (⟨2, ![n, c]⟩ : Shape).Idx) (r : Fin n) (l : Fin b) (hr : (j 0).val = r.val) (hl : (j 1).val = a + l.val) :
    concatenate ⟨2, ![n, c]⟩ 1 [⟨⟨2, ![n, a]⟩, x⟩, ⟨⟨2, ![n, b]⟩, y⟩] h j = y (ix2 r l) :=
  concatenate_pair_apply_right (t := ⟨2, ![n, c]⟩) (1 : Fin 2) x y h j rfl rfl (ix2 r l)
    (fun d hd => by match d, hd with | ⟨0, _⟩, _ => exact hr.symm | ⟨1, _⟩, hd => exact absurd rfl hd)
    (by show l.val + a = (j 1).val; omega)

end ConcatCols
-- ==== Proof.MatBridge.lean ====
/-
  The three matrix products, kernel side against reference side, on the extended reals.
  Each Pallas call leaves in its output array the plain product of its two operands, entry by entry a finite sum; the
  reference computes the same sums by one matrix-product operation each. So: the first call's output is the
  reference's first product of the same two operands; the second call's output, whose right operand is the two heads'
  weight matrices side by side, has the first head's product in its low 32 columns and the second head's in its high
  32 columns; and the decoder's output is the logistic function of the latent matrix times its own transpose, which
  is how the reference spells 1 / (1 + exp (−x)) on that product.
-/
import proofs.«154195_j27152783245647_2_alg».proof.Proof.Final0
import proofs.«154195_j27152783245647_2_alg».proof.Proof.Final1
import proofs.«154195_j27152783245647_2_alg».proof.Proof.Final2
import proofs.«154195_j27152783245647_2_alg».proof.Proof.RefRead
import proofs.«154195_j27152783245647_2_alg».proof.Proof.LibConcatCols

noncomputable section

namespace Cert.Bridge

open Idealize.ShloMosaic Idealize.ShloMosaic.TcCoe Idealize.SL.Sem
open Idealize.ShloMosaic.ValueIdx (ix2 eq_ix2)
open Cert.KernelIdeal Cert.KernelIdeal.Gen Cert.KernelIdeal.Hand
open Cert.ReferenceIdeal.Read

variable (m : (ℓ : Loc nD τ sig) → Buf (Elt Ideal) ℓ) (c : Dev nD)

/-- The f32 word of the number one. -/
theorem one_f32 : Ideal.ofBits .f32 0x3F800000#32 = 1 := by
  simp [Ideal.ofBits, Ideal.ieee, -EReal.coe_mul]; norm_num

/-- The first call's output is the reference's product of the same operands. -/
theorem prod0_eq : prod0 m c = val_main_v31 (F := Ideal) (opL0 m c) (opR0 m c) := by
  funext y
  obtain ⟨i, j, rfl⟩ : ∃ (i : Fin 16384) (j : Fin 64), y = ix2 i j := ⟨y 0, y 1, eq_ix2 y⟩
  rw [prod0_apply, val_main_v31_apply]
  refine Finset.sum_congr rfl fun k _ => ?_
  have el : lidx_main_v31 (ix2 i j) k = ix2 i k := funext fun a => by
    match a with | ⟨0, _⟩ => rfl | ⟨1, _⟩ => rfl
  have er : ridx_main_v31 (ix2 i j) k = ix2 k j := funext fun a => by
    match a with | ⟨0, _⟩ => rfl | ⟨1, _⟩ => rfl
  rw [el, er]

variable (x0 : (⟨Cert.ReferenceIdeal.S16384x128, .f32⟩ : BufTy).Contents (Elt Ideal))
  (x1 : (⟨Cert.ReferenceIdeal.S2x262144, .i32⟩ : BufTy).Contents (Elt Ideal))
  (x2 : (⟨Cert.ReferenceIdeal.S128x64, .f32⟩ : BufTy).Contents (Elt Ideal))
  (x3 : (⟨Cert.ReferenceIdeal.S64, .f32⟩ : BufTy).Contents (Elt Ideal))
  (x4 : (⟨Cert.ReferenceIdeal.S64x32, .f32⟩ : BufTy).Contents (Elt Ideal))
  (x5 : (⟨Cert.ReferenceIdeal.S32, .f32⟩ : BufTy).Contents (Elt Ideal))
  (x6 : (⟨Cert.ReferenceIdeal.S64x32, .f32⟩ : BufTy).Contents (Elt Ideal))
  (x7 : (⟨Cert.ReferenceIdeal.S32, .f32⟩ : BufTy).Contents (Elt Ideal))
  (x8 : (⟨Cert.ReferenceIdeal.S16384x32, .f32⟩ : BufTy).Contents (Elt Ideal))

/-- The low 32 columns of the second call's output: the hidden layer times the first head's weights. -/
theorem prod1_lo (hL : opL1 m c = val_main_v48 (F := Ideal) x0 x1 x2 x3)
    (hR : opR1 m c = concatenate S64x64 1 [⟨S64x32, x4⟩, ⟨S64x32, x6⟩] concatenates_S64x32_S64x32_S64x64_d1)
    (r : Fin 16384) (j : Fin 32) :
    prod1 m c (ix2 r (⟨j.val, by omega⟩ : Fin 64)) = val_main_v49 (F := Ideal) x0 x1 x2 x3 x4 (ix2 r j) := by
  rw [prod1_apply, val_main_v49_apply, hL, hR]
  refine Finset.sum_congr rfl fun k _ => ?_
  have el : lidx_main_v49 (ix2 r j) k = ix2 r k := funext fun a => by
    match a with | ⟨0, _⟩ => rfl | ⟨1, _⟩ => rfl
  have er : ridx_main_v49 (ix2 r j) k = ix2 k j := funext fun a => by
    match a with | ⟨0, _⟩ => rfl | ⟨1, _⟩ => rfl
  rw [el, er, ConcatCols.left x4 x6 concatenates_S64x32_S64x32_S64x64_d1 _ k j rfl rfl]

/-- The high 32 columns: the hidden layer times the second head's weights. -/
theorem prod1_hi (hL : opL1 m c = val_main_v48 (F := Ideal) x0 x1 x2 x3)
    (hR : opR1 m c = concatenate S64x64 1 [⟨S64x32, x4⟩, ⟨S64x32, x6⟩] concatenates_S64x32_S64x32_S64x64_d1)
    (r : Fin 16384) (j : Fin 32) :
    prod1 m c (ix2 r (⟨j.val + 32, by omega⟩ : Fin 64)) = val_main_v66 (F := Ideal) x0 x1 x2 x3 x6 (ix2 r j) := by
  rw [prod1_apply, val_main_v66_apply, hL, hR]
  refine Finset.sum_congr rfl fun k _ => ?_
  have el : lidx_main_v66 (ix2 r j) k = ix2 r k := funext fun a => by
    match a with | ⟨0, _⟩ => rfl | ⟨1, _⟩ => rfl
  have er : ridx_main_v66 (ix2 r j) k = ix2 k j := funext fun a => by
    match a with | ⟨0, _⟩ => rfl | ⟨1, _⟩ => rfl
  rw [el, er, ConcatCols.right x4 x6 concatenates_S64x32_S64x32_S64x64_d1 _ k j rfl (by show j.val + 32 = 32 + j.val; omega)]

/-- The decoder's output is the reference's: the logistic function of the latent matrix times its transpose. -/
theorem dec2_eq (hZ : opZ m c = val_main_v85 (F := Ideal) x0 x1 x2 x3 x4 x5 x6 x7 x8) :
    dec2 m c = val_main_v93 (F := Ideal) x0 x1 x2 x3 x4 x5 x6 x7 x8 := by
  funext y
  obtain ⟨i, j, rfl⟩ : ∃ (i j : Fin 16384), y = ix2 i j := ⟨y 0, y 1, eq_ix2 y⟩
  rw [dec2_apply, hZ, val_main_v93_apply, val_main_v92_apply, val_main_cst_16_apply, val_main_v91_apply, val_main_v90_apply,
    val_main_cst_15_apply, val_main_v89_apply, val_main_v88_apply, val_main_v87_apply]
  have e : ∀ k : Fin 32, val_main_v85 (F := Ideal) x0 x1 x2 x3 x4 x5 x6 x7 x8 (lidx_main_v87 (ix2 i j) k)
        * val_main_v86 (F := Ideal) x0 x1 x2 x3 x4 x5 x6 x7 x8 (ridx_main_v87 (ix2 i j) k)
      = val_main_v85 (F := Ideal) x0 x1 x2 x3 x4 x5 x6 x7 x8 (ix2 i k) * val_main_v85 (F := Ideal) x0 x1 x2 x3 x4 x5 x6 x7 x8 (ix2 j k) := fun k => by
    rw [val_main_v86_apply]
    have el : lidx_main_v87 (ix2 i j) k = ix2 i k := funext fun a => by
      match a with | ⟨0, _⟩ => rfl | ⟨1, _⟩ => rfl
    have er : idx_main_v86 (ridx_main_v87 (ix2 i j) k) = ix2 j k := funext fun a => by
      match a with | ⟨0, _⟩ => rfl | ⟨1, _⟩ => rfl
    rw [el, er]
  rw [Finset.sum_congr rfl fun k _ => e k, Ideal.ofBits_def, one_f32]
  generalize (∑ k : Fin 32, val_main_v85 (F := Ideal) x0 x1 x2 x3 x4 x5 x6 x7 x8 (ix2 i k) * val_main_v85 (F := Ideal) x0 x1 x2 x3 x4 x5 x6 x7 x8 (ix2 j k)) = S
  rfl

end Cert.Bridge

end
-- ==== Proof.Bridge.lean ====
/-
  The bridge: the three results of the kernel's program, as the run leaves them, are the reference's stage functions
  of the same nine arguments.
  First layer: the first Pallas call's product is the reference's first matrix product, and the same aggregation,
  bias and rectifier follow on both sides. Second layer: the kernel's program multiplies the hidden layer by the two
  heads' weights side by side, aggregates all 64 columns at once and then cuts the result in two; an aggregation
  acts column by column, so each half is the reference's aggregation of that head's own product. The latent matrix
  is the same expression of the two heads on both sides, and the decoder is the logistic function of its product
  with its own transpose on both sides.
-/
import proofs.«154195_j27152783245647_2_alg».proof.Proof.KSide
import proofs.«154195_j27152783245647_2_alg».proof.Proof.EdgeSide
import proofs.«154195_j27152783245647_2_alg».proof.Proof.RefSide
import proofs.«154195_j27152783245647_2_alg».proof.Proof.AggCols
import proofs.«154195_j27152783245647_2_alg».proof.Proof.MatBridge

noncomputable section

namespace Cert.Bridge

open Idealize.ShloMosaic Idealize.ShloMosaic.TcCoe Idealize.SL.Sem
open Cert.KernelIdeal Cert.KernelIdeal.Hand
open Cert.ReferenceIdeal.Read

variable (m : (ℓ : Loc nD τ sig) → Buf (Elt Ideal) ℓ) (c : Dev nD)

/-- The hidden layer. -/
theorem hidden_val : opL1 m c = val_main_v48 (F := Ideal) (m ((c : Thread nD τ).loc main_arg0)) (m ((c : Thread nD τ).loc main_arg1)) (m ((c : Thread nD τ).loc main_arg2)) (m ((c : Thread nD τ).loc main_arg3)) :=
  (K1 m c).trans (layer1_eq _ _ _ _ _ _ _ _ (src_eq m c) (dst_eq m c) (wgt_eq m c)
    ((prod0_eq m c).trans (by rw [K0_L, K0_R])))

/-- The means. -/
theorem mu_val : W10 (F := Ideal) m c (Proc.devRef .tc main_v71)
    = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [K3_mean, agg_cols_lo _ _ _ _ (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
      (prod1_lo m c _ _ _ _ _ _ (hidden_val m c) (K2 m c)),
    head1_eq _ _ _ _ _ _ _ _ (src_eq m c) (dst_eq m c) (wgt_eq m c)]
  exact mean_eq _ _ _ _ _ _

/-- The logarithms of the standard deviations. -/
theorem logstd_val : W10 (F := Ideal) m c (Proc.devRef .tc main_v75)
    = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  rw [K3_logdev, agg_cols_hi _ _ _ _ (val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg6)))
      (prod1_hi m c _ _ _ _ _ _ (hidden_val m c) (K2 m c)),
    head2_eq _ _ _ _ _ _ _ _ (src_eq m c) (dst_eq m c) (wgt_eq m c)]
  exact logstd_eq _ _ _ _ _ _

/-- The sampled latent matrix. -/
theorem latent_val : opZ m c
    = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [K4, mu_val, logstd_val]
  exact latent_eq _ _ _ _ _ _ _ _ _

/-- The decoded adjacency. -/
theorem adj_val : W10 (F := Ideal) m c (Proc.devRef .tc main_v80)
    = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W10_out m c).trans (dec2_eq m c _ _ _ _ _ _ _ _ _ (latent_val m c))

end Cert.Bridge

end
-- ==== Proof.Algebraic.lean ====
/-
  The value claim. Run at the extended reals from memories that agree on the nine arguments, the kernel's program and
  the reference both terminate, and the three results agree entry by entry: the decoded adjacency, the means and the
  log standard deviations. The kernel's run leaves each result buffer at the last stage of the fold of contents; the
  reference's run leaves each at its composed term; the bridge equates the two as functions of the arguments.
-/
import proofs.«154195_j27152783245647_2_alg».proof.Defs
import proofs.«154195_j27152783245647_2_alg».proof.Proof.KRun
import proofs.«154195_j27152783245647_2_alg».proof.Proof.RefRead
import proofs.«154195_j27152783245647_2_alg».proof.Proof.Bridge
import proofs.«154195_j27152783245647_2_alg».proof.Proof.Gen.Pre_finite_inputs

noncomputable section

namespace Cert.Proof

open Idealize.ShloMosaic Idealize.ShloMosaic.TcCoe Idealize.SL.Sem

theorem algebraic : Cert.algebraic_KernelIdeal_ReferenceIdeal := by
  intro m ρ m' ρ' _ hagree
  refine ⟨fun c => Cert.KernelIdeal.Hand.W10 (F := Ideal) m c (Proc.devRef .tc Cert.KernelIdeal.main_v80),
    fun c => Cert.KernelIdeal.Hand.W10 (F := Ideal) m c (Proc.devRef .tc Cert.KernelIdeal.main_v71),
    fun c => Cert.KernelIdeal.Hand.W10 (F := Ideal) m c (Proc.devRef .tc Cert.KernelIdeal.main_v75), ?_, ?_⟩
  · exact (θ_run Cert.KernelIdeal.defs _ _).mono (fun _ h c =>
      ⟨h c _ (Cert.KernelIdeal.Hand.mem_uc Cert.KernelIdeal.main_v80 (by decide)),
       h c _ (Cert.KernelIdeal.Hand.mem_uc Cert.KernelIdeal.main_v71 (by decide)),
       h c _ (Cert.KernelIdeal.Hand.mem_uc Cert.KernelIdeal.main_v75 (by decide)),
       (h c _ (Cert.KernelIdeal.Hand.mem_uc Cert.KernelIdeal.main_arg0 (by decide))).trans (Cert.KernelIdeal.Hand.W10_kept m c Cert.KernelIdeal.main_arg0 (by decide) (by decide) (by decide) (by decide) (by decide) (by decide) (by decide) (by decide) (by decide) (by decide)),
       (h c _ (Cert.KernelIdeal.Hand.mem_uc Cert.KernelIdeal.main_arg1 (by decide))).trans (Cert.KernelIdeal.Hand.W10_kept m c Cert.KernelIdeal.main_arg1 (by decide) (by decide) (by decide) (by decide) (by decide) (by decide) (by decide) (by decide) (by decide) (by decide)),
       (h c _ (Cert.KernelIdeal.Hand.mem_uc Cert.KernelIdeal.main_arg2 (by decide))).trans (Cert.KernelIdeal.Hand.W10_kept m c Cert.KernelIdeal.main_arg2 (by decide) (by decide) (by decide) (by decide) (by decide) (by decide) (by decide) (by decide) (by decide) (by decide)),
       (h c _ (Cert.KernelIdeal.Hand.mem_uc Cert.KernelIdeal.main_arg3 (by decide))).trans (Cert.KernelIdeal.Hand.W10_kept m c Cert.KernelIdeal.main_arg3 (by decide) (by decide) (by decide) (by decide) (by decide) (by decide) (by decide) (by decide) (by decide) (by decide)),
       (h c _ (Cert.KernelIdeal.Hand.mem_uc Cert.KernelIdeal.main_arg4 (by decide))).trans (Cert.KernelIdeal.Hand.W10_kept m c Cert.KernelIdeal.main_arg4 (by decide) (by decide) (by decide) (by decide) (by decide) (by decide) (by decide) (by decide) (by decide) (by decide)),
       (h c _ (Cert.KernelIdeal.Hand.mem_uc Cert.KernelIdeal.main_arg5 (by decide))).trans (Cert.KernelIdeal.Hand.W10_kept m c Cert.KernelIdeal.main_arg5 (by decide) (by decide) (by decide) (by decide) (by decide) (by decide) (by decide) (by decide) (by decide) (by decide)),
       (h c _ (Cert.KernelIdeal.Hand.mem_uc Cert.KernelIdeal.main_arg6 (by decide))).trans (Cert.KernelIdeal.Hand.W10_kept m c Cert.KernelIdeal.main_arg6 (by decide) (by decide) (by decide) (by decide) (by decide) (by decide) (by decide) (by decide) (by decide) (by decide)),
       (h c _ (Cert.KernelIdeal.Hand.mem_uc Cert.KernelIdeal.main_arg7 (by decide))).trans (Cert.KernelIdeal.Hand.W10_kept m c Cert.KernelIdeal.main_arg7 (by decide) (by decide) (by decide) (by decide) (by decide) (by decide) (by decide) (by decide) (by decide) (by decide)),
       (h c _ (Cert.KernelIdeal.Hand.mem_uc Cert.KernelIdeal.main_arg8 (by decide))).trans (Cert.KernelIdeal.Hand.W10_kept m c Cert.KernelIdeal.main_arg8 (by decide) (by decide) (by decide) (by decide) (by decide) (by decide) (by decide) (by decide) (by decide) (by decide))⟩)
      (Cert.KernelIdeal.Hand.run_main (F := Ideal) m ρ)
  · refine (θ_run Cert.ReferenceIdeal.defs _ _).mono (fun _ h c => ?_) (Cert.ReferenceIdeal.Value.run (F := Ideal) m' ρ')
    obtain ⟨h0, h1, h2, hargs⟩ := h c
    obtain ⟨e0, e1, e2, e3, e4, e5, e6, e7, e8⟩ := hagree c
    refine ⟨h0.trans ?_, h1.trans ?_, h2.trans ?_, hargs⟩
    · rw [Cert.ReferenceIdeal.Read.val_main_v93_eq, e0, e1, e2, e3, e4, e5, e6, e7, e8]
      exact (Cert.Bridge.adj_val m c).symm
    · rw [Cert.ReferenceIdeal.Read.val_main_v65_eq, e0, e1, e2, e3, e4, e5]
      exact (Cert.Bridge.mu_val m c).symm
    · rw [Cert.ReferenceIdeal.Read.val_main_v82_eq, e0, e1, e2, e3, e6, e7]
      exact (Cert.Bridge.logstd_val m c).symm

end Cert.Proof

end
-- ==== Proof.lean ====
/- The certificate's claim, assembled: the three frames and the idealization claim, and the value claim. -/
import proofs.«154195_j27152783245647_2_alg».proof.Defs
import proofs.«154195_j27152783245647_2_alg».proof.Proof.Gen.Kernel
import proofs.«154195_j27152783245647_2_alg».proof.Proof.Gen.KernelIdeal
import proofs.«154195_j27152783245647_2_alg».proof.Proof.Gen.ReferenceIdeal
import proofs.«154195_j27152783245647_2_alg».proof.Proof.Gen.Pre_finite_inputs
import proofs.«154195_j27152783245647_2_alg».proof.Proof.Frames
import proofs.«154195_j27152783245647_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
